-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S60000x128 : Shape := ⟨2, ![60000, 128]⟩
abbrev S30000x128 : Shape := ⟨2, ![30000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S60000x128 : S_.BroadcastsInDim S60000x128 (![] : Fin 0 → Fin S60000x128.rank)
  reducesTo_S60000x128_S_d0_1 : S60000x128.ReducesTo [0, 1] S_
  bcast_S_S30000x128 : S_.BroadcastsInDim S30000x128 (![] : Fin 0 → Fin S30000x128.rank)
  reducesTo_S30000x128_S_d0_1 : S30000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg15 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  main_v58

def fn_part2 {F : FTy → Type} [FloatOps F] (main_arg11 : FVec F S64 .f32) (main_arg12 : FVec F S128x64 .f32) (main_arg13 : FVec F S64 .f32) (main_arg14 : FVec F S64x64 .f32) (main_arg15 : FVec F S64x64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg12
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_v48 main_v49 main_v50

def fn_part1 {F : FTy → Type} [FloatOps F] (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S64x64 .f32) (main_arg15 : FVec F S64x64 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S100000x128 .f32) (main_arg1 : FVec F S60000x128 .f32) (main_arg2 : FVec F S30000x128 .f32) (main_arg3 : FVec F S100000x128 .f32) (main_arg4 : IVec S1600000 32) (main_arg5 : IVec S1600000 32) (main_arg6 : IVec S1600000 32) (main_arg7 : IVec S1600000 32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S64x64 .f32) (main_arg15 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S60000x128 .f32 := Host.absf main_arg1
  let main_cst_0 : FVec F S_ .f32 := constant S_ .f32 0x7F800000#32
  let main_v5 : FVec F S60000x128 .f32 := broadcastInDim S60000x128 ![] bcast_S_S60000x128 main_cst_0
  let main_v6 : IVec S60000x128 1 := cmpf .olt main_v4 main_v5
  let main_c_1 : IVec S_ 1 := constantI S_ 1 1#1
  let main_v7 : IVec S_ 1 := (fun x v => Host.reduce IntOp.andi x v reducesTo_S60000x128_S_d0_1 h_S_) main_v6 main_c_1
  let main_v8 : IVec S_ 1 := andi main_v3 main_v7
  let main_v9 : FVec F S30000x128 .f32 := Host.absf main_arg2
  let main_cst_2 : FVec F S_ .f32 := constant S_ .f32 0x7F800000#32
  let main_v10 : FVec F S30000x128 .f32 := broadcastInDim S30000x128 ![] bcast_S_S30000x128 main_cst_2
  let main_v11 : IVec S30000x128 1 := cmpf .olt main_v9 main_v10
  let main_c_3 : IVec S_ 1 := constantI S_ 1 1#1
  let main_v12 : IVec S_ 1 := (fun x v => Host.reduce IntOp.andi x v reducesTo_S30000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg8 main_arg9 main_arg10 main_arg11 main_arg12 main_arg13 main_arg14 main_arg15 main_v13 main_v16
-- ==== Kernel.lean ====
abbrev S100000x128 : Shape := ⟨2, ![100000, 128]⟩
abbrev S60000x128 : Shape := ⟨2, ![60000, 128]⟩
abbrev S30000x128 : Shape := ⟨2, ![30000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S60000x64 : Shape := ⟨2, ![60000, 64]⟩
abbrev S30000x64 : Shape := ⟨2, ![30000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5x100000x64 : Shape := ⟨3, ![5, 100000, 64]⟩
abbrev S5x2000x64 : Shape := ⟨3, ![5, 2000, 64]⟩
abbrev S1x2000x64 : Shape := ⟨3, ![1, 2000, 64]⟩

abbrev nBuf : Space → Nat
  | .hbm => 82
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S60000x128, .f32⟩
  | .hbm, ⟨2, _⟩ => ⟨S30000x128, .f32⟩
  | .hbm, ⟨3, _⟩ => ⟨S100000x128, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64x64, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S1x64, .f32⟩
  | .hbm, ⟨20, _⟩ => ⟨S60000x64, .f32⟩
  | .hbm, ⟨21, _⟩ => ⟨S1x64, .f32⟩
  | .hbm, ⟨22, _⟩ => ⟨S30000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .i1⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .i1⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S5x100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S64x64, .f32⟩
  | .local _ .vmem, ⟨32, _⟩ => ⟨S5x2000x64, .f32⟩
  | .local _ .vmem, ⟨33, _⟩ => ⟨S5x2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5x2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S64_S1x64 : S64.ShapeCasts S1x64
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x128_S2000x128_0_0 : ∀ a, (![0, 0] : Fin 2 → Nat) a + S2000x128.size a ≤ S2000x128.size a
  h_S2000x128 : 0 < S2000x128.numel
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S2000x64_S2000x64 : S2000x64.ShapeCasts S2000x64
  inb_S5x2000x64_S1x2000x64_0_0_0 : ∀ a, (![0, 0, 0] : Fin 3 → Nat) a + S1x2000x64.size a ≤ S5x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  inb_S5x2000x64_S1x2000x64_1_0_0 : ∀ a, (![1, 0, 0] : Fin 3 → Nat) a + S1x2000x64.size a ≤ S5x2000x64.size a
  inb_S5x2000x64_S1x2000x64_2_0_0 : ∀ a, (![2, 0, 0] : Fin 3 → Nat) a + S1x2000x64.size a ≤ S5x2000x64.size a
  inb_S5x2000x64_S1x2000x64_3_0_0 : ∀ a, (![3, 0, 0] : Fin 3 → Nat) a + S1x2000x64.size a ≤ S5x2000x64.size a
  inb_S5x2000x64_S1x2000x64_4_0_0 : ∀ a, (![4, 0, 0] : Fin 3 → Nat) a + S1x2000x64.size a ≤ S5x2000x64.size a
  dot_S2000x128_S128x64_S2000x64_1_0_0_1_n_n_wf : DotDims.WF S2000x128 S128x64 S2000x64 [1] [0] [0] [1] [] []
  gather_S60000x64_S1600000x1_S1600000x64_1_0_n_n_0_1_164_wf : GatherDims.WF S60000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S30000x64_S1600000x1_S1600000x64_1_0_n_n_0_1_164_wf : GatherDims.WF S30000x64 S1600000x1 S1600000x64 [1] [0] [] [0] [] 1 ![1, 64]
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S60000x128.size a
  hwx1_0 : ∀ i : grid1.Coords, EltTy.bits .f32 = 32 ∨ (Rect.block (s := S60000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S60000x64.size a
  hwx1_3 : ∀ i : grid1.Coords, EltTy.bits .f32 = 32 ∨ (Rect.block (s := S60000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S30000x128.size a
  hwx2_0 : ∀ i : grid2.Coords, EltTy.bits .f32 = 32 ∨ (Rect.block (s := S30000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S30000x64.size a
  hwx2_3 : ∀ i : grid2.Coords, EltTy.bits .f32 = 32 ∨ (Rect.block (s := S30000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5x2000x64.size a ≤ S5x100000x64.size a
  hwx3_6 : ∀ i : grid3.Coords, EltTy.bits .f32 = 32 ∨ (Rect.block (s := S5x100000x64) S5x2000x64.size (cc3_transform_6 i) (hinb3_6 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S60000x64_S1600000x1_S1600000x64_1_0_n_n_0_1_164 : GatherDims S60000x64 S1600000x1 S1600000x64 where
  offsetDims := [1]
  collapsedSliceDims := [0]
  operandBatchingDims := []
  startIndicesBatchingDims := []
  startIndexMap := [0]
  indexVectorDim := 1
  sliceSizes := ![1, 64]
  wf := gather_S60000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S30000x64_S1600000x1_S1600000x64_1_0_n_n_0_1_164 : GatherDims S30000x64 S1600000x1 S1600000x64 where
  offsetDims := [1]
  collapsedSliceDims := [0]
  operandBatchingDims := []
  startIndicesBatchingDims := []
  startIndexMap := [0]
  indexVectorDim := 1
  sliceSizes := ![1, 64]
  wf := gather_S30000x64_S1600000x1_S1600000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1_1) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S5x2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S60000x128 : Shape := ⟨2, ![60000, 128]⟩
abbrev S30000x128 : Shape := ⟨2, ![30000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000x64 : Shape := ⟨2, ![100000, 64]⟩
abbrev S1x64 : Shape := ⟨2, ![1, 64]⟩
abbrev S_ : Shape := ⟨0, ![]⟩
abbrev S60000x64 : Shape := ⟨2, ![60000, 64]⟩
abbrev S30000x64 : Shape := ⟨2, ![30000, 64]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x100000x64 : Shape := ⟨3, ![1, 100000, 64]⟩
abbrev S5x100000x64 : Shape := ⟨3, ![5, 100000, 64]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S60000x128, .f32⟩
  | 2 => ⟨S30000x128, .f32⟩
  | 3 => ⟨S100000x128, .f32⟩
  | 4 => ⟨S1600000, .i32⟩
  | 5 => ⟨S1600000, .i32⟩
  | 6 => ⟨S1600000, .i32⟩
  | 7 => ⟨S1600000, .i32⟩
  | 8 => ⟨S128x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S64x64, .f32⟩
  | 15 => ⟨S64x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .i1⟩
  | 23 => ⟨S_, .f32⟩
  | 24 => ⟨S100000x64, .f32⟩
  | 25 => ⟨S100000x64, .i1⟩
  | 26 => ⟨S_, .f32⟩
  | 27 => ⟨S_, .f32⟩
  | 28 => ⟨S100000x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .i1⟩
  | 42 => ⟨S_, .f32⟩
  | 43 => ⟨S100000x64, .f32⟩
  | 44 => ⟨S100000x64, .i1⟩
  | 45 => ⟨S_, .f32⟩
  | 46 => ⟨S_, .f32⟩
  | 47 => ⟨S100000x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S60000x64, .f32⟩
  | 55 => ⟨S1x64, .f32⟩
  | 56 => ⟨S60000x64, .f32⟩
  | 57 => ⟨S60000x64, .f32⟩
  | 58 => ⟨S_, .f32⟩
  | 59 => ⟨S60000x64, .f32⟩
  | 60 => ⟨S60000x64, .i1⟩
  | 61 => ⟨S_, .f32⟩
  | 62 => ⟨S60000x64, .f32⟩
  | 63 => ⟨S60000x64, .i1⟩
  | 64 => ⟨S_, .f32⟩
  | 65 => ⟨S_, .f32⟩
  | 66 => ⟨S60000x64, .f32⟩
  | 67 => ⟨S60000x64, .f32⟩
  | 68 => ⟨S60000x64, .f32⟩
  | 69 => ⟨S_, .f32⟩
  | 70 => ⟨S60000x64, .f32⟩
  | 71 => ⟨S60000x64, .f32⟩
  | 72 => ⟨S60000x64, .f32⟩
  | 73 => ⟨S30000x64, .f32⟩
  | 74 => ⟨S1x64, .f32⟩
  | 75 => ⟨S30000x64, .f32⟩
  | 76 => ⟨S30000x64, .f32⟩
  | 77 => ⟨S_, .f32⟩
  | 78 => ⟨S30000x64, .f32⟩
  | 79 => ⟨S30000x64, .i1⟩
  | 80 => ⟨S_, .f32⟩
  | 81 => ⟨S30000x64, .f32⟩
  | 82 => ⟨S30000x64, .i1⟩
  | 83 => ⟨S_, .f32⟩
  | 84 => ⟨S_, .f32⟩
  | 85 => ⟨S30000x64, .f32⟩
  | 86 => ⟨S30000x64, .f32⟩
  | 87 => ⟨S30000x64, .f32⟩
  | 88 => ⟨S_, .f32⟩
  | 89 => ⟨S30000x64, .f32⟩
  | 90 => ⟨S30000x64, .f32⟩
  | 91 => ⟨S30000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S_, .f32⟩
  | 106 => ⟨S1600000, .f32⟩
  | 107 => ⟨S_, .f32⟩
  | 108 => ⟨S100000, .f32⟩
  | 109 => ⟨S1600000x1, .i32⟩
  | 110 => ⟨S100000, .f32⟩
  | 111 => ⟨S_, .f32⟩
  | 112 => ⟨S100000, .f32⟩
  | 113 => ⟨S100000, .i1⟩
  | 114 => ⟨S_, .f32⟩
  | 115 => ⟨S_, .f32⟩
  | 116 => ⟨S100000, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S_, .f32⟩
  | 18 => ⟨S100000, .f32⟩
  | 19 => ⟨S100000, .f32⟩
  | 20 => ⟨S100000x1, .f32⟩
  | 21 => ⟨S100000x64, .f32⟩
  | 22 => ⟨S100000x64, .f32⟩
  | 23 => ⟨S100000x64, .f32⟩
  | 24 => ⟨S100000x64, .f32⟩
  | 25 => ⟨S_, .f32⟩
  | 26 => ⟨S100000x64, .f32⟩
  | 27 => ⟨S100000x64, .i1⟩
  | 28 => ⟨S_, .f32⟩
  | 29 => ⟨S100000x64, .f32⟩
  | 30 => ⟨S100000x64, .i1⟩
  | 31 => ⟨S_, .f32⟩
  | 32 => ⟨S_, .f32⟩
  | 33 => ⟨S100000x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S100000x64, .f32⟩
  | 41 => ⟨S_, .f32⟩
  | 42 => ⟨S100000x64, .f32⟩
  | 43 => ⟨S100000x64, .i1⟩
  | 44 => ⟨S_, .f32⟩
  | 45 => ⟨S100000x64, .f32⟩
  | 46 => ⟨S100000x64, .i1⟩
  | 47 => ⟨S_, .f32⟩
  | 48 => ⟨S_, .f32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S100000x64, .f32⟩
  | 57 => ⟨S_, .f32⟩
  | 58 => ⟨S100000x64, .f32⟩
  | 59 => ⟨S100000x64, .i1⟩
  | 60 => ⟨S_, .f32⟩
  | 61 => ⟨S100000x64, .f32⟩
  | 62 => ⟨S100000x64, .i1⟩
  | 63 => ⟨S_, .f32⟩
  | 64 => ⟨S_, .f32⟩
  | 65 => ⟨S100000x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .i1⟩
  | 76 => ⟨S_, .f32⟩
  | 77 => ⟨S100000x64, .f32⟩
  | 78 => ⟨S100000x64, .i1⟩
  | 79 => ⟨S_, .f32⟩
  | 80 => ⟨S_, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S1x100000x64, .f32⟩
  | 89 => ⟨S1x100000x64, .f32⟩
  | 90 => ⟨S1x100000x64, .f32⟩
  | 91 => ⟨S1x100000x64, .f32⟩
  | 92 => ⟨S1x100000x64, .f32⟩
  | 93 => ⟨S5x100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_cst_1 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v4 : Ref sig .tc := ⟨.hbm, 29, rfl⟩
abbrev main_call0_v5 : Ref sig .tc := ⟨.hbm, 30, rfl⟩
abbrev main_call0_cst_2 : Ref sig .tc := ⟨.hbm, 31, rfl⟩
abbrev main_call0_v6 : Ref sig .tc := ⟨.hbm, 32, rfl⟩
abbrev main_call0_v7 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_cst_1 : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_v4 : Ref sig .tc := ⟨.hbm, 48, rfl⟩
abbrev main_call1_v5 : Ref sig .tc := ⟨.hbm, 49, rfl⟩
abbrev main_call1_cst_2 : Ref sig .tc := ⟨.hbm, 50, rfl⟩
abbrev main_call1_v6 : Ref sig .tc := ⟨.hbm, 51, rfl⟩
abbrev main_call1_v7 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_cst_0 : Ref sig .tc := ⟨.hbm, 61, rfl⟩
abbrev main_call2_v2 : Ref sig .tc := ⟨.hbm, 62, rfl⟩
abbrev main_call2_v3 : Ref sig .tc := ⟨.hbm, 63, rfl⟩
abbrev main_call2_cst_1 : Ref sig .tc := ⟨.hbm, 64, rfl⟩
abbrev main_call2_call0_v0 : Ref sig .tc := ⟨.hbm, 65, rfl⟩
abbrev main_call2_call0_v1 : Ref sig .tc := ⟨.hbm, 66, rfl⟩
abbrev main_call2_v4 : Ref sig .tc := ⟨.hbm, 67, rfl⟩
abbrev main_call2_v5 : Ref sig .tc := ⟨.hbm, 68, rfl⟩
abbrev main_call2_cst_2 : Ref sig .tc := ⟨.hbm, 69, rfl⟩
abbrev main_call2_v6 : Ref sig .tc := ⟨.hbm, 70, rfl⟩
abbrev main_call2_v7 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_cst_0 : Ref sig .tc := ⟨.hbm, 80, rfl⟩
abbrev main_call3_v2 : Ref sig .tc := ⟨.hbm, 81, rfl⟩
abbrev main_call3_v3 : Ref sig .tc := ⟨.hbm, 82, rfl⟩
abbrev main_call3_cst_1 : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_v4 : Ref sig .tc := ⟨.hbm, 86, rfl⟩
abbrev main_call3_v5 : Ref sig .tc := ⟨.hbm, 87, rfl⟩
abbrev main_call3_cst_2 : Ref sig .tc := ⟨.hbm, 88, rfl⟩
abbrev main_call3_v6 : Ref sig .tc := ⟨.hbm, 89, rfl⟩
abbrev main_call3_v7 : Ref sig .tc := ⟨.hbm, 90, rfl⟩
abbrev main_v19 : Ref sig .tc := ⟨.hbm, 91, rfl⟩
abbrev main_c : Ref sig .tc := ⟨.hbm, 92, rfl⟩
abbrev main_v20 : Ref sig .tc := ⟨.hbm, 93, rfl⟩
abbrev main_v21 : Ref sig .tc := ⟨.hbm, 94, rfl⟩
abbrev main_c_0 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_cst : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_cst_1 : Ref sig .tc := ⟨.hbm, 105, rfl⟩
abbrev main_v30 : Ref sig .tc := ⟨.hbm, 106, rfl⟩
abbrev main_cst_2 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_cst_3 : Ref sig .tc := ⟨.hbm, 111, rfl⟩
abbrev main_v34 : Ref sig .tc := ⟨.hbm, 112, rfl⟩
abbrev main_v35 : Ref sig .tc := ⟨.hbm, 113, rfl⟩
abbrev main_cst_4 : Ref sig .tc := ⟨.hbm, 114, rfl⟩
abbrev main_call4_v0 : Ref sig .tc := ⟨.hbm, 115, rfl⟩
abbrev main_call4_v1 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_c_5 : Ref sig .tc := ⟨.hbm, 122, rfl⟩
abbrev main_v41 : Ref sig .tc := ⟨.hbm, 123, rfl⟩
abbrev main_v42 : Ref sig .tc := ⟨.hbm, 124, rfl⟩
abbrev main_c_6 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_cst_7 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_cst_8 : Ref sig .tc := ⟨.hbm, 135, rfl⟩
abbrev main_v51 : Ref sig .tc := ⟨.hbm, 136, rfl⟩
abbrev main_cst_9 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_cst_10 : Ref sig .tc := ⟨.hbm, 141, rfl⟩
abbrev main_v55 : Ref sig .tc := ⟨.hbm, 142, rfl⟩
abbrev main_v56 : Ref sig .tc := ⟨.hbm, 143, rfl⟩
abbrev main_cst_11 : Ref sig .tc := ⟨.hbm, 144, rfl⟩
abbrev main_call5_v0 : Ref sig .tc := ⟨.hbm, 145, rfl⟩
abbrev main_call5_v1 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_call6_cst : Ref sig .tc := ⟨.hbm, 153, rfl⟩
abbrev main_call6_v0 : Ref sig .tc := ⟨.hbm, 154, rfl⟩
abbrev main_call6_v1 : Ref sig .tc := ⟨.hbm, 155, rfl⟩
abbrev main_call6_cst_0 : Ref sig .tc := ⟨.hbm, 156, rfl⟩
abbrev main_call6_v2 : Ref sig .tc := ⟨.hbm, 157, rfl⟩
abbrev main_call6_v3 : Ref sig .tc := ⟨.hbm, 158, rfl⟩
abbrev main_call6_cst_1 : Ref sig .tc := ⟨.hbm, 159, rfl⟩
abbrev main_call6_call0_v0 : Ref sig .tc := ⟨.hbm, 160, rfl⟩
abbrev main_call6_call0_v1 : Ref sig .tc := ⟨.hbm, 161, rfl⟩
abbrev main_call6_v4 : Ref sig .tc := ⟨.hbm, 162, rfl⟩
abbrev main_call6_v5 : Ref sig .tc := ⟨.hbm, 163, rfl⟩
abbrev main_call6_cst_2 : Ref sig .tc := ⟨.hbm, 164, rfl⟩
abbrev main_call6_v6 : Ref sig .tc := ⟨.hbm, 165, rfl⟩
abbrev main_call6_v7 : Ref sig .tc := ⟨.hbm, 166, rfl⟩
abbrev main_v63 : Ref sig .tc := ⟨.hbm, 167, rfl⟩
abbrev main_v64 : Ref sig .tc := ⟨.hbm, 168, rfl⟩
abbrev main_call7_cst : Ref sig .tc := ⟨.hbm, 169, rfl⟩
abbrev main_call7_v0 : Ref sig .tc := ⟨.hbm, 170, rfl⟩
abbrev main_call7_v1 : Ref sig .tc := ⟨.hbm, 171, rfl⟩
abbrev main_call7_cst_0 : Ref sig .tc := ⟨.hbm, 172, rfl⟩
abbrev main_call7_v2 : Ref sig .tc := ⟨.hbm, 173, rfl⟩
abbrev main_call7_v3 : Ref sig .tc := ⟨.hbm, 174, rfl⟩
abbrev main_call7_cst_1 : Ref sig .tc := ⟨.hbm, 175, rfl⟩
abbrev main_call7_call0_v0 : Ref sig .tc := ⟨.hbm, 176, rfl⟩
abbrev main_call7_call0_v1 : Ref sig .tc := ⟨.hbm, 177, rfl⟩
abbrev main_call7_v4 : Ref sig .tc := ⟨.hbm, 178, rfl⟩
abbrev main_call7_v5 : Ref sig .tc := ⟨.hbm, 179, rfl⟩
abbrev main_call7_cst_2 : Ref sig .tc := ⟨.hbm, 180, rfl⟩
abbrev main_call7_v6 : Ref sig .tc := ⟨.hbm, 181, rfl⟩
abbrev main_call7_v7 : Ref sig .tc := ⟨.hbm, 182, rfl⟩
abbrev main_v65 : Ref sig .tc := ⟨.hbm, 183, rfl⟩
abbrev main_v66 : Ref sig .tc := ⟨.hbm, 184, rfl⟩
abbrev main_call8_cst : Ref sig .tc := ⟨.hbm, 185, rfl⟩
abbrev main_call8_v0 : Ref sig .tc := ⟨.hbm, 186, rfl⟩
abbrev main_call8_v1 : Ref sig .tc := ⟨.hbm, 187, rfl⟩
abbrev main_call8_cst_0 : Ref sig .tc := ⟨.hbm, 188, rfl⟩
abbrev main_call8_v2 : Ref sig .tc := ⟨.hbm, 189, rfl⟩
abbrev main_call8_v3 : Ref sig .tc := ⟨.hbm, 190, rfl⟩
abbrev main_call8_cst_1 : Ref sig .tc := ⟨.hbm, 191, rfl⟩
abbrev main_call8_call0_v0 : Ref sig .tc := ⟨.hbm, 192, rfl⟩
abbrev main_call8_call0_v1 : Ref sig .tc := ⟨.hbm, 193, rfl⟩
abbrev main_call8_v4 : Ref sig .tc := ⟨.hbm, 194, rfl⟩
abbrev main_call8_v5 : Ref sig .tc := ⟨.hbm, 195, rfl⟩
abbrev main_call8_cst_2 : Ref sig .tc := ⟨.hbm, 196, rfl⟩
abbrev main_call8_v6 : Ref sig .tc := ⟨.hbm, 197, rfl⟩
abbrev main_call8_v7 : Ref sig .tc := ⟨.hbm, 198, rfl⟩
abbrev main_v67 : Ref sig .tc := ⟨.hbm, 199, rfl⟩
abbrev main_v68 : Ref sig .tc := ⟨.hbm, 200, rfl⟩
abbrev main_call9_cst : Ref sig .tc := ⟨.hbm, 201, rfl⟩
abbrev main_call9_v0 : Ref sig .tc := ⟨.hbm, 202, rfl⟩
abbrev main_call9_v1 : Ref sig .tc := ⟨.hbm, 203, rfl⟩
abbrev main_call9_cst_0 : Ref sig .tc := ⟨.hbm, 204, rfl⟩
abbrev main_call9_v2 : Ref sig .tc := ⟨.hbm, 205, rfl⟩
abbrev main_call9_v3 : Ref sig .tc := ⟨.hbm, 206, rfl⟩
abbrev main_call9_cst_1 : Ref sig .tc := ⟨.hbm, 207, rfl⟩
abbrev main_call9_call0_v0 : Ref sig .tc := ⟨.hbm, 208, rfl⟩
abbrev main_call9_call0_v1 : Ref sig .tc := ⟨.hbm, 209, rfl⟩
abbrev main_call9_v4 : Ref sig .tc := ⟨.hbm, 210, rfl⟩
abbrev main_call9_v5 : Ref sig .tc := ⟨.hbm, 211, rfl⟩
abbrev main_call9_cst_2 : Ref sig .tc := ⟨.hbm, 212, rfl⟩
abbrev main_call9_v6 : Ref sig .tc := ⟨.hbm, 213, rfl⟩
abbrev main_call9_v7 : Ref sig .tc := ⟨.hbm, 214, rfl⟩
abbrev main_v69 : Ref sig .tc := ⟨.hbm, 215, rfl⟩
abbrev main_v70 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S60000x64_0_1 : S1x64.BroadcastsInDim S60000x64 (![0, 1] : Fin 2 → Fin S60000x64.rank)
  bcast_S_S60000x64 : S_.BroadcastsInDim S60000x64 (![] : Fin 0 → Fin S60000x64.rank)
  bcast_S1x64_S30000x64_0_1 : S1x64.BroadcastsInDim S30000x64 (![0, 1] : Fin 2 → Fin S30000x64.rank)
  bcast_S_S30000x64 : S_.BroadcastsInDim S30000x64 (![] : Fin 0 → Fin S30000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S100000x64_S1x100000x64_1_2 : S100000x64.BroadcastsInDim S1x100000x64 (![1, 2] : Fin 2 → Fin S1x100000x64.rank)
  concatenates_S1x100000x64_S1x100000x64_S1x100000x64_S1x100000x64_S1x100000x64_S5x100000x64_d0 : Shape.Concatenates [S1x100000x64, S1x100000x64, S1x100000x64, S1x100000x64, S1x100000x64] S5x100000x64 0
  dot_S100000x128_S128x64_S100000x64_1_0_0_1_n_n_wf : DotDims.WF S100000x128 S128x64 S100000x64 [1] [0] [0] [1] [] []
  dot_S60000x128_S128x64_S60000x64_1_0_0_1_n_n_wf : DotDims.WF S60000x128 S128x64 S60000x64 [1] [0] [0] [1] [] []
  dot_S30000x128_S128x64_S30000x64_1_0_0_1_n_n_wf : DotDims.WF S30000x128 S128x64 S30000x64 [1] [0] [0] [1] [] []
  gather_S60000x64_S1600000x1_S1600000x64_1_0_n_n_0_1_164_wf : GatherDims.WF S60000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S30000x64_S1600000x1_S1600000x64_1_0_n_n_0_1_164_wf : GatherDims.WF S30000x64 S1600000x1 S1600000x64 [1] [0] [] [0] [] 1 ![1, 64]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S60000x128_S128x64_S60000x64_1_0_0_1_n_n : DotDims S60000x128 S128x64 S60000x64 where
  lhsContracting := [1]
  rhsContracting := [0]
  lhsNonContracting := [0]
  rhsNonContracting := [1]
  lhsBatch := []
  rhsBatch := []
  wf := dot_S60000x128_S128x64_S60000x64_1_0_0_1_n_n_wf
def dot_S30000x128_S128x64_S30000x64_1_0_0_1_n_n : DotDims S30000x128 S128x64 S30000x64 where
  lhsContracting := [1]
  rhsContracting := [0]
  lhsNonContracting := [0]
  rhsNonContracting := [1]
  lhsBatch := []
  rhsBatch := []
  wf := dot_S30000x128_S128x64_S30000x64_1_0_0_1_n_n_wf
def gather_S60000x64_S1600000x1_S1600000x64_1_0_n_n_0_1_164 : GatherDims S60000x64 S1600000x1 S1600000x64 where
  offsetDims := [1]
  collapsedSliceDims := [0]
  operandBatchingDims := []
  startIndicesBatchingDims := []
  startIndexMap := [0]
  indexVectorDim := 1
  sliceSizes := ![1, 64]
  wf := gather_S60000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S30000x64_S1600000x1_S1600000x64_1_0_n_n_0_1_164 : GatherDims S30000x64 S1600000x1 S1600000x64 where
  offsetDims := [1]
  collapsedSliceDims := [0]
  operandBatchingDims := []
  startIndicesBatchingDims := []
  startIndexMap := [0]
  indexVectorDim := 1
  sliceSizes := ![1, 64]
  wf := gather_S30000x64_S1600000x1_S1600000x64_1_0_n_n_0_1_164_wf

class Facts : Prop extends Facts₀ where

variable [Facts]
-- ==== Proof.KernelRun.lean ====
/-
  The idealized kernel program's run with its result kept: every weakly fair execution of @main terminates, nothing
  faulting, with the sixteen argument arrays as launched AND the result array at what the last region's write-backs leave
  (the contents of the last segment boundary at the result's buffer). The launch over the twelve segments is the one the
  frame is proved by; only the read of the last thread state against the final memory asks for one buffer more.
-/
import proofs.«129680_j37512244363667_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main from any memory with zero counters: it ends with the result buffer at the last boundary's contents
    and every argument array as launched. -/
theorem run_value : θ_run defs (onTc (τ := τ) (main (F := F))) ⟨m, fun _ => 0, ρ⟩ (fun r => ∀ c : Dev nD,
      r.2.mem ((c.tc : Thread nD τ).loc main_v46) = W12 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v46 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.KernelRun

end
-- ==== Proof.KTerm.lean ====
/-
  The host arithmetic between the kernel program's regions, as composed terms in the operations' own spelling: a bias made
  a one-row matrix, and the degree-normalised neighbour mean (gather the rows named by `dst`, add each into the row named
  by `src`, divide by the number of edges into that row, by one where there is none).
-/
import proofs.«129680_j37512244363667_1_alg».proof.KernelIdeal

noncomputable section

namespace Cert.KernelIdeal.Term

open Cert.KernelIdeal Idealize.ShloMosaic Idealize.SL.Sem
open Cert.KernelIdeal.Facts₀ Cert.KernelIdeal.Facts

variable {F : FTy → Type} [FloatOps F] [Facts]

/-- A bias vector as a one-row matrix. -/
def biasRow (b : FVec F S64 .f32) : FVec F S1x64 .f32 := shapeCast S1x64 b shapeCasts_S64_S1x64

/-- The degree-normalised neighbour mean over the `60000` source rows, as the kernel program's host operations compute it. -/
def meanAgg60000 (h : FVec F S60000x64 .f32) (src dst : IVec S1600000 32) : FVec F S100000x64 .f32 :=
  Host.divf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 src)
      (Host.gather gather_S60000x64_S1600000x1_S1600000x64_1_0_n_n_0_1_164 h
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 60000#32))) dst))))
    (broadcastInDim S100000x64 ![0, 1] bcast_S100000x1_S100000x64_0_1
      (broadcastInDim S100000x1 ![0] bcast_S100000_S100000x1_0
        (select
          (cmpf .ogt
            (Host.scatterAdd scatter_S100000_S1600000x1_S1600000_n_0_0_1
              (broadcastInDim S100000 ![] bcast_S_S100000 (constant (F := F) S_ .f32 0x00000000#32))
              (broadcastInDim S1600000x1 ![0] bcast_S1600000_S1600000x1_0 src)
              (broadcastInDim S1600000 ![] bcast_S_S1600000 (constant (F := F) S_ .f32 0x3F800000#32)))
            (broadcastInDim S100000 ![] bcast_S_S100000 (constant (F := F) S_ .f32 0x00000000#32)))
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 src)
            (broadcastInDim S1600000 ![] bcast_S_S1600000 (constant (F := F) S_ .f32 0x3F800000#32)))
          (broadcastInDim S100000 ![] bcast_S_S100000 (id (constant (F := F) S_ .f32 0x3F800000#32))))))

/-- The degree-normalised neighbour mean over the `30000` source rows, as the kernel program's host operations compute it. -/
def meanAgg30000 (h : FVec F S30000x64 .f32) (src dst : IVec S1600000 32) : FVec F S100000x64 .f32 :=
  Host.divf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 src)
      (Host.gather gather_S30000x64_S1600000x1_S1600000x64_1_0_n_n_0_1_164 h
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 30000#32))) dst))))
    (broadcastInDim S100000x64 ![0, 1] bcast_S100000x1_S100000x64_0_1
      (broadcastInDim S100000x1 ![0] bcast_S100000_S100000x1_0
        (select
          (cmpf .ogt
            (Host.scatterAdd scatter_S100000_S1600000x1_S1600000_n_0_0_1
              (broadcastInDim S100000 ![] bcast_S_S100000 (constant (F := F) S_ .f32 0x00000000#32))
              (broadcastInDim S1600000x1 ![0] bcast_S1600000_S1600000x1_0 src)
              (broadcastInDim S1600000 ![] bcast_S_S1600000 (constant (F := F) S_ .f32 0x3F800000#32)))
            (broadcastInDim S100000 ![] bcast_S_S100000 (constant (F := F) S_ .f32 0x00000000#32)))
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 src)
            (broadcastInDim S1600000 ![] bcast_S_S1600000 (constant (F := F) S_ .f32 0x3F800000#32)))
          (broadcastInDim S100000 ![] bcast_S_S100000 (id (constant (F := F) S_ .f32 0x3F800000#32))))))

end Cert.KernelIdeal.Term

end
-- ==== Proof.KChain.lean ====
/-
  What each region of the idealized kernel program finds in its input buffers, as functions of the launch memory: the
  contents at a segment boundary walked back through the host stretches and regions that do not write the buffer, a
  reshaped bias, and the two neighbour means read off the host stretches between the third and the fourth region.
-/
import proofs.«129680_j37512244363667_1_alg».proof.Proof.Gen.KernelIdeal.Frame
import proofs.«129680_j37512244363667_1_alg».proof.Proof.KTerm

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a host stretch writes the buffer in hand: the contents after the stretch are the contents before it. -/
macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Buffers no segment in between writes -/

theorem W1_main_arg0_W0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by not_written hostOps0

theorem W1_main_arg3_W0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := by not_written hostOps0

theorem W1_main_arg8_W0 (c : Dev nD) : W1 m ρ c (Proc.devRef .tc main_arg8) = W0 m ρ c (Proc.devRef .tc main_arg8) :=
  calc W1 m ρ c (Proc.devRef .tc main_arg8)
    _ = W0 m ρ c (Proc.devRef .tc main_arg8) := by not_written hostOps0

theorem W3_main_arg1_W0 (c : Dev nD) : W3 m ρ c (Proc.devRef .tc main_arg1) = W0 m ρ c (Proc.devRef .tc main_arg1) :=
  calc W3 m ρ c (Proc.devRef .tc main_arg1)
    _ = W2 m ρ c (Proc.devRef .tc main_arg1) := by not_written hostOps1
    _ = W1 m ρ c (Proc.devRef .tc main_arg1) := W2_of_ne m ρ c main_arg1 (by decide)
    _ = W0 m ρ c (Proc.devRef .tc main_arg1) := by not_written hostOps0

theorem W3_main_arg10_W0 (c : Dev nD) : W3 m ρ c (Proc.devRef .tc main_arg10) = W0 m ρ c (Proc.devRef .tc main_arg10) :=
  calc W3 m ρ c (Proc.devRef .tc main_arg10)
    _ = W2 m ρ c (Proc.devRef .tc main_arg10) := by not_written hostOps1
    _ = W1 m ρ c (Proc.devRef .tc main_arg10) := W2_of_ne m ρ c main_arg10 (by decide)
    _ = W0 m ρ c (Proc.devRef .tc main_arg10) := by not_written hostOps0

theorem W2_main_arg11_W0 (c : Dev nD) : W2 m ρ c (Proc.devRef .tc main_arg11) = W0 m ρ c (Proc.devRef .tc main_arg11) :=
  calc W2 m ρ c (Proc.devRef .tc main_arg11)
    _ = W1 m ρ c (Proc.devRef .tc main_arg11) := W2_of_ne m ρ c main_arg11 (by decide)
    _ = W0 m ρ c (Proc.devRef .tc main_arg11) := by not_written hostOps0

theorem W5_main_arg2_W0 (c : Dev nD) : W5 m ρ c (Proc.devRef .tc main_arg2) = W0 m ρ c (Proc.devRef .tc main_arg2) :=
  calc W5 m ρ c (Proc.devRef .tc main_arg2)
    _ = W4 m ρ c (Proc.devRef .tc main_arg2) := by not_written hostOps2
    _ = W3 m ρ c (Proc.devRef .tc main_arg2) := W4_of_ne m ρ c main_arg2 (by decide)
    _ = W2 m ρ c (Proc.devRef .tc main_arg2) := by not_written hostOps1
    _ = W1 m ρ c (Proc.devRef .tc main_arg2) := W2_of_ne m ρ c main_arg2 (by decide)
    _ = W0 m ρ c (Proc.devRef .tc main_arg2) := by not_written hostOps0

theorem W5_main_arg12_W0 (c : Dev nD) : W5 m ρ c (Proc.devRef .tc main_arg12) = W0 m ρ c (Proc.devRef .tc main_arg12) :=
  calc W5 m ρ c (Proc.devRef .tc main_arg12)
    _ = W4 m ρ c (Proc.devRef .tc main_arg12) := by not_written hostOps2
    _ = W3 m ρ c (Proc.devRef .tc main_arg12) := W4_of_ne m ρ c main_arg12 (by decide)
    _ = W2 m ρ c (Proc.devRef .tc main_arg12) := by not_written hostOps1
    _ = W1 m ρ c (Proc.devRef .tc main_arg12) := W2_of_ne m ρ c main_arg12 (by decide)
    _ = W0 m ρ c (Proc.devRef .tc main_arg12) := by not_written hostOps0

theorem W4_main_arg13_W0 (c : Dev nD) : W4 m ρ c (Proc.devRef .tc main_arg13) = W0 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := by not_written hostOps1
    _ = W1 m ρ c (Proc.devRef .tc main_arg13) := W2_of_ne m ρ c main_arg13 (by decide)
    _ = W0 m ρ c (Proc.devRef .tc main_arg13) := by not_written hostOps0

theorem W6_main_arg4_W0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by not_written hostOps2
    _ = W3 m ρ c (Proc.devRef .tc main_arg4) := W4_of_ne m ρ c main_arg4 (by decide)
    _ = W2 m ρ c (Proc.devRef .tc main_arg4) := by not_written hostOps1
    _ = W1 m ρ c (Proc.devRef .tc main_arg4) := W2_of_ne m ρ c main_arg4 (by decide)
    _ = W0 m ρ c (Proc.devRef .tc main_arg4) := by not_written hostOps0

theorem W6_main_arg5_W0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by not_written hostOps2
    _ = W3 m ρ c (Proc.devRef .tc main_arg5) := W4_of_ne m ρ c main_arg5 (by decide)
    _ = W2 m ρ c (Proc.devRef .tc main_arg5) := by not_written hostOps1
    _ = W1 m ρ c (Proc.devRef .tc main_arg5) := W2_of_ne m ρ c main_arg5 (by decide)
    _ = W0 m ρ c (Proc.devRef .tc main_arg5) := by not_written hostOps0

theorem W6_main_arg6_W0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by not_written hostOps2
    _ = W3 m ρ c (Proc.devRef .tc main_arg6) := W4_of_ne m ρ c main_arg6 (by decide)
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0

theorem W6_main_arg7_W0 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := by not_written hostOps2
    _ = W3 m ρ c (Proc.devRef .tc main_arg7) := W4_of_ne m ρ c main_arg7 (by decide)
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0

theorem W11_main_arg14_W0 (c : Dev nD) : W11 m ρ c (Proc.devRef .tc main_arg14) = W0 m ρ c (Proc.devRef .tc main_arg14) :=
  calc W11 m ρ c (Proc.devRef .tc main_arg14)
    _ = W10 m ρ c (Proc.devRef .tc main_arg14) := by not_written hostOps3_4
    _ = W9 m ρ c (Proc.devRef .tc main_arg14) := by not_written hostOps3_3
    _ = W8 m ρ c (Proc.devRef .tc main_arg14) := by not_written hostOps3_2
    _ = W7 m ρ c (Proc.devRef .tc main_arg14) := by not_written hostOps3_1
    _ = W6 m ρ c (Proc.devRef .tc main_arg14) := by not_written hostOps3
    _ = W5 m ρ c (Proc.devRef .tc main_arg14) := W6_of_ne m ρ c main_arg14 (by decide)
    _ = W4 m ρ c (Proc.devRef .tc main_arg14) := by not_written hostOps2
    _ = W3 m ρ c (Proc.devRef .tc main_arg14) := W4_of_ne m ρ c main_arg14 (by decide)
    _ = W2 m ρ c (Proc.devRef .tc main_arg14) := by not_written hostOps1
    _ = W1 m ρ c (Proc.devRef .tc main_arg14) := W2_of_ne m ρ c main_arg14 (by decide)
    _ = W0 m ρ c (Proc.devRef .tc main_arg14) := by not_written hostOps0

theorem W11_main_arg15_W0 (c : Dev nD) : W11 m ρ c (Proc.devRef .tc main_arg15) = W0 m ρ c (Proc.devRef .tc main_arg15) :=
  calc W11 m ρ c (Proc.devRef .tc main_arg15)
    _ = W10 m ρ c (Proc.devRef .tc main_arg15) := by not_written hostOps3_4
    _ = W9 m ρ c (Proc.devRef .tc main_arg15) := by not_written hostOps3_3
    _ = W8 m ρ c (Proc.devRef .tc main_arg15) := by not_written hostOps3_2
    _ = W7 m ρ c (Proc.devRef .tc main_arg15) := by not_written hostOps3_1
    _ = W6 m ρ c (Proc.devRef .tc main_arg15) := by not_written hostOps3
    _ = W5 m ρ c (Proc.devRef .tc main_arg15) := W6_of_ne m ρ c main_arg15 (by decide)
    _ = W4 m ρ c (Proc.devRef .tc main_arg15) := by not_written hostOps2
    _ = W3 m ρ c (Proc.devRef .tc main_arg15) := W4_of_ne m ρ c main_arg15 (by decide)
    _ = W2 m ρ c (Proc.devRef .tc main_arg15) := by not_written hostOps1
    _ = W1 m ρ c (Proc.devRef .tc main_arg15) := W2_of_ne m ρ c main_arg15 (by decide)
    _ = W0 m ρ c (Proc.devRef .tc main_arg15) := by not_written hostOps0

theorem W11_main_v1_0_W2 (c : Dev nD) : W11 m ρ c (Proc.devRef .tc main_v1_0) = W2 m ρ c (Proc.devRef .tc main_v1_0) :=
  calc W11 m ρ c (Proc.devRef .tc main_v1_0)
    _ = W10 m ρ c (Proc.devRef .tc main_v1_0) := by not_written hostOps3_4
    _ = W9 m ρ c (Proc.devRef .tc main_v1_0) := by not_written hostOps3_3
    _ = W8 m ρ c (Proc.devRef .tc main_v1_0) := by not_written hostOps3_2
    _ = W7 m ρ c (Proc.devRef .tc main_v1_0) := by not_written hostOps3_1
    _ = W6 m ρ c (Proc.devRef .tc main_v1_0) := by not_written hostOps3
    _ = W5 m ρ c (Proc.devRef .tc main_v1_0) := W6_of_ne m ρ c main_v1_0 (by decide)
    _ = W4 m ρ c (Proc.devRef .tc main_v1_0) := by not_written hostOps2
    _ = W3 m ρ c (Proc.devRef .tc main_v1_0) := W4_of_ne m ρ c main_v1_0 (by decide)
    _ = W2 m ρ c (Proc.devRef .tc main_v1_0) := by not_written hostOps1

theorem W11_main_v1_1_W2 (c : Dev nD) : W11 m ρ c (Proc.devRef .tc main_v1_1) = W2 m ρ c (Proc.devRef .tc main_v1_1) :=
  calc W11 m ρ c (Proc.devRef .tc main_v1_1)
    _ = W10 m ρ c (Proc.devRef .tc main_v1_1) := by not_written hostOps3_4
    _ = W9 m ρ c (Proc.devRef .tc main_v1_1) := by not_written hostOps3_3
    _ = W8 m ρ c (Proc.devRef .tc main_v1_1) := by not_written hostOps3_2
    _ = W7 m ρ c (Proc.devRef .tc main_v1_1) := by not_written hostOps3_1
    _ = W6 m ρ c (Proc.devRef .tc main_v1_1) := by not_written hostOps3
    _ = W5 m ρ c (Proc.devRef .tc main_v1_1) := W6_of_ne m ρ c main_v1_1 (by decide)
    _ = W4 m ρ c (Proc.devRef .tc main_v1_1) := by not_written hostOps2
    _ = W3 m ρ c (Proc.devRef .tc main_v1_1) := W4_of_ne m ρ c main_v1_1 (by decide)
    _ = W2 m ρ c (Proc.devRef .tc main_v1_1) := by not_written hostOps1

theorem W6_main_v3_W4 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by not_written hostOps2

theorem W11_main_v25_W9 (c : Dev nD) : W11 m ρ c (Proc.devRef .tc main_v25) = W9 m ρ c (Proc.devRef .tc main_v25) :=
  calc W11 m ρ c (Proc.devRef .tc main_v25)
    _ = W10 m ρ c (Proc.devRef .tc main_v25) := by not_written hostOps3_4
    _ = W9 m ρ c (Proc.devRef .tc main_v25) := by not_written hostOps3_3

/-! ## The reshaped biases -/

theorem W1_main_v0 (c : Dev nD) :
    W1 m ρ c (Proc.devRef .tc main_v0) = Term.biasRow (m ((c : Thread nD τ).loc main_arg9)) := by
  show StableHlo.after hostOps0 (W0 m ρ c) (Proc.devRef .tc main_v0) = _
  after_results; rfl

theorem W3_main_v2 (c : Dev nD) :
    W3 m ρ c (Proc.devRef .tc main_v2) = Term.biasRow (m ((c : Thread nD τ).loc main_arg11)) := by
  have h : W3 m ρ c (Proc.devRef .tc main_v2) = Term.biasRow (W2 m ρ c (Proc.devRef .tc main_arg11)) := by
    show StableHlo.after hostOps1 (W2 m ρ c) (Proc.devRef .tc main_v2) = _
    after_results; rfl
  rw [h, W2_main_arg11_W0]

theorem W5_main_v4 (c : Dev nD) :
    W5 m ρ c (Proc.devRef .tc main_v4) = Term.biasRow (m ((c : Thread nD τ).loc main_arg13)) := by
  have h : W5 m ρ c (Proc.devRef .tc main_v4) = Term.biasRow (W4 m ρ c (Proc.devRef .tc main_arg13)) := by
    show StableHlo.after hostOps2 (W4 m ρ c) (Proc.devRef .tc main_v4) = _
    after_results; rfl
  rw [h, W4_main_arg13_W0]

/-! ## The two neighbour means -/

set_option maxHeartbeats 4000000 in
/-- The first aggregate, as the fourth region finds it: the neighbour mean of the second region's output over the first
    edge list. -/
theorem W9_main_v25 (c : Dev nD) :
    W9 m ρ c (Proc.devRef .tc main_v25)
      = Term.meanAgg60000 (W6 m ρ c (Proc.devRef .tc main_v3)) (W6 m ρ c (Proc.devRef .tc main_arg4))
          (W6 m ρ c (Proc.devRef .tc main_arg5)) := by
  show StableHlo.after hostOps3_2 (StableHlo.after hostOps3_1 (StableHlo.after hostOps3 (W6 m ρ c)))
    (Proc.devRef .tc main_v25) = _
  after_results_simp; rfl

set_option maxHeartbeats 4000000 in
/-- The second aggregate: the neighbour mean of the third region's output over the second edge list. -/
theorem W11_main_v45 (c : Dev nD) :
    W11 m ρ c (Proc.devRef .tc main_v45)
      = Term.meanAgg30000 (W6 m ρ c (Proc.devRef .tc main_v5)) (W6 m ρ c (Proc.devRef .tc main_arg6))
          (W6 m ρ c (Proc.devRef .tc main_arg7)) := by
  show StableHlo.after hostOps3_4 (StableHlo.after hostOps3_3 (StableHlo.after hostOps3_2 (StableHlo.after hostOps3_1
    (StableHlo.after hostOps3 (W6 m ρ c))))) (Proc.devRef .tc main_v45) = _
  after_results_simp; rfl

end Cert.KernelIdeal.KChain

end
-- ==== Proof.Spec.lean ====
/-
  The mathematics of the certificate, with no program in sight: what one entry of each intermediate and of the
  result is, as a function of the argument arrays, on the extended reals.

  * `elu y` is `y` for `y > 0` and `e^y - 1` otherwise.
  * `dense X W b` is one dense layer followed by ELU: entry `(p, q)` is `elu (∑ₖ X[p,k] · W[k,q] + b[0,q])`,
    the bias held as a one-row matrix.
  * `combine ht hm a1 a2 A0 A1` stacks five `[N, 64]` matrices: with `g1 = a1 · A0` and `g2 = a2 · A1`,
    slab 0 is `elu (ht + g1)`, slab 1 `elu (hm + g1)`, slab 2 `elu (ht + g2)`, slab 3 `elu (hm + g2)`, slab 4 `ht`.
-/
import Idealize.ShloMosaic.Lib.ValueIdx
import Idealize.ShloMosaic.PureOps.Ideal.Laws

noncomputable section

namespace Cert.Spec

open Idealize.ShloMosaic Idealize.ShloMosaic.ValueIdx

/-- ELU on the extended reals: `y` above zero, `e^y - 1` at and below it. -/
def elu (y : EReal) : EReal := Scalar.select (Ideal.cmp .ogt y 0) y (Ideal.exp y - 1)

/-- A dense layer followed by ELU, entry by entry: row `p` of `X` against column `q` of `W`, plus the bias
    (a one-row matrix) at `q`. -/
def dense {n : ℕ} (X : (⟨2, ![n, 128]⟩ : Shape).Idx → EReal) (W : (⟨2, ![128, 64]⟩ : Shape).Idx → EReal)
    (b : (⟨2, ![1, 64]⟩ : Shape).Idx → EReal) : (⟨2, ![n, 64]⟩ : Shape).Idx → EReal :=
  fun i => elu ((∑ k : Fin 128, X (ix2 (i 0) k) * W (ix2 k (i 1))) + b (ix2 0 (i 1)))

/-- Row `p` of `a` against column `q` of `A`: one entry of the matrix product `a · A`. -/
def proj {n : ℕ} (a : (⟨2, ![n, 64]⟩ : Shape).Idx → EReal) (A : (⟨2, ![64, 64]⟩ : Shape).Idx → EReal)
    (p : Fin n) (q : Fin 64) : EReal :=
  ∑ k : Fin 64, a (ix2 p k) * A (ix2 k q)

/-- The five stacked views: the two aggregates projected by `A0` and `A1`, added to the target and to the masked
    embedding, each through ELU; the last slab is the target embedding itself. -/
def combine {n : ℕ} (ht hm a1 a2 : (⟨2, ![n, 64]⟩ : Shape).Idx → EReal)
    (A0 A1 : (⟨2, ![64, 64]⟩ : Shape).Idx → EReal) : (⟨3, ![5, n, 64]⟩ : Shape).Idx → EReal :=
  fun i =>
    if (i 0).val = 0 then elu (ht (ix2 (i 1) (i 2)) + proj a1 A0 (i 1) (i 2))
    else if (i 0).val = 1 then elu (hm (ix2 (i 1) (i 2)) + proj a1 A0 (i 1) (i 2))
    else if (i 0).val = 2 then elu (ht (ix2 (i 1) (i 2)) + proj a2 A1 (i 1) (i 2))
    else if (i 0).val = 3 then elu (hm (ix2 (i 1) (i 2)) + proj a2 A1 (i 1) (i 2))
    else ht (ix2 (i 1) (i 2))

/-- The word of `1.0` denotes the real number one. -/
theorem ofBits_one_f32 : Ideal.ofBits .f32 0x3F800000#32 = 1 := by
  simp [Ideal.ofBits, Ideal.ieee, -EReal.coe_mul]; norm_num

/-- ELU in the spelling of a kernel body: a select on `y > 0.0` between `y` and `exp y - 1.0`. -/
theorem elu_kernel (y : EReal) :
    Scalar.select (FloatOps.cmpf (F := Ideal) .ogt y (Ideal.ofBits .f32 0x00000000#32)) y
      (Ideal.exp y - Ideal.ofBits .f32 0x3F800000#32) = elu y := by
  rw [Ideal.ofBits_zero_f32, ofBits_one_f32]; rfl

end Cert.Spec

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.DensePayload.lean ====
import proofs.«129680_j37512244363667_1_alg».proof.Proof.Gen.KernelIdeal.Frame
import proofs.«129680_j37512244363667_1_alg».proof.Proof.Spec
import proofs.«129680_j37512244363667_1_alg».proof.Proof.LibPlainProduct
import Idealize.ShloMosaic.Lib.ValueLayout

/-
  One block of a dense layer, entry by entry.

  Each of the three dense-layer kernels computes, on a block `x` of 2000 rows, the weights `W` and the one-row bias `b`,
  the matrix `elu (x · W + b)`. Its entry `(p, q)` is `elu (∑ₖ x[p,k] · W[k,q] + b[0,q])`: the narrowing of the operands is
  the identity on the extended reals, the product into the zero accumulator is the plain sum, the bias row is repeated
  down the rows, and the select on `y > 0` between `y` and `e^y - 1` is ELU.
-/

noncomputable section

namespace Cert.KernelIdeal.DenseValue

open Cert.KernelIdeal Cert.KernelIdeal.Gen Idealize.ShloMosaic Idealize.ShloMosaic.ValueIdx

/-- One entry of the block product: row `p` of the block against column `q` of the weights. -/
theorem blockProduct_entry {φ₁ φ₂ : FTy} (x : FVec Ideal S2000x128 φ₁) (W : FVec Ideal S128x64 φ₂) (p : Fin 2000) (q : Fin 64) :
    matmul dot_S2000x128_S128x64_S2000x64_1_0_0_1_n_n none x W (constant (F := Ideal) S2000x64 .f32 0x00000000#32) (ix2 p q)
      = ∑ k : Fin 128, x (ix2 p k) * W (ix2 k q) :=
  Cert.PlainProduct.matmul_zero_entry dot_S2000x128_S128x64_S2000x64_1_0_0_1_n_n rfl rfl
    (fun _ _ => rfl) (fun _ _ => rfl) (fun _ _ => rfl) (fun _ _ => rfl) x W p q

/-- The bias row repeated down the 2000 rows, read at `(p, q)`: the bias at `q`. -/
theorem biasRows_entry (b : Vec Ideal S1x64 .f32) (p : Fin 2000) (q : Fin 64) :
    broadcastTo S2000x64 (shapeCast S1x64 b shapeCasts_S1x64_S1x64) broadcasts_S1x64_S2000x64 (ix2 p q) = b (ix2 0 q) := by
  rw [shapeCast_self]
  exact broadcastTo_1b_ab_apply (a := 2000) (b := 64) b broadcasts_S1x64_S2000x64 p q

/-- The pre-activation of a block at `(p, q)`: the product's entry plus the bias. -/
theorem preActivation_entry (W : Vec Ideal S128x64 .f32) (b : Vec Ideal S1x64 .f32) (x : Vec Ideal S2000x128 .f32) (p : Fin 2000) (q : Fin 64) :
    addf (matmul dot_S2000x128_S128x64_S2000x64_1_0_0_1_n_n none (truncf .bf16 x bitsLt_bf16_f32)
          (truncf .bf16 W bitsLt_bf16_f32) (constant (F := Ideal) S2000x64 .f32 0x00000000#32))
        (broadcastTo S2000x64 (shapeCast S1x64 b shapeCasts_S1x64_S1x64) broadcasts_S1x64_S2000x64) (ix2 p q)
      = (∑ k : Fin 128, x (ix2 p k) * W (ix2 k q)) + b (ix2 0 q) := by
  refine (addf_apply _ _ _).trans ?_
  rw [biasRows_entry]
  exact congrArg (· + b (ix2 0 q)) (blockProduct_entry (truncf .bf16 x bitsLt_bf16_f32) (truncf .bf16 W bitsLt_bf16_f32) p q)

/-- The activation as a kernel body spells it, at an index: ELU of the pre-activation there. -/
theorem activation_entry (y : FVec Ideal S2000x64 .f32) (i : S2000x64.Idx) :
    select (cmpf .ogt y (broadcast S2000x64 (FloatOps.ofBits (F := Ideal) .f32 0x00000000#32))) y
        (subf (exp y) (broadcast S2000x64 (FloatOps.ofBits (F := Ideal) .f32 0x3F800000#32))) i
      = Cert.Spec.elu (y i) :=
  Cert.Spec.elu_kernel (y i)

/-- The dense-layer payload of region 1 at entry `(p, q)` of a block. -/
theorem k1_pay1_entry (W : Vec Ideal S128x64 .f32) (b : Vec Ideal S1x64 .f32) (x : Vec Ideal S2000x128 .f32) (p : Fin 2000) (q : Fin 64) :
    k1_pay1 (F := Ideal) W b x (ix2 p q) = Cert.Spec.elu ((∑ k : Fin 128, x (ix2 p k) * W (ix2 k q)) + b (ix2 0 q)) := by
  unfold k1_pay1
  refine (activation_entry _ _).trans ?_
  exact congrArg Cert.Spec.elu (preActivation_entry W b x p q)

/-- The dense-layer payload of region 2 at entry `(p, q)` of a block. -/
theorem k2_pay1_entry (W : Vec Ideal S128x64 .f32) (b : Vec Ideal S1x64 .f32) (x : Vec Ideal S2000x128 .f32) (p : Fin 2000) (q : Fin 64) :
    k2_pay1 (F := Ideal) W b x (ix2 p q) = Cert.Spec.elu ((∑ k : Fin 128, x (ix2 p k) * W (ix2 k q)) + b (ix2 0 q)) := by
  unfold k2_pay1
  refine (activation_entry _ _).trans ?_
  exact congrArg Cert.Spec.elu (preActivation_entry W b x p q)

/-- Region 0's first dense-layer payload at entry `(p, q)` of a block. -/
theorem k0_pay3_entry (W : Vec Ideal S128x64 .f32) (b : Vec Ideal S1x64 .f32) (x : Vec Ideal S2000x128 .f32) (p : Fin 2000) (q : Fin 64) :
    k0_pay3 (F := Ideal) W b x (ix2 p q) = Cert.Spec.elu ((∑ k : Fin 128, x (ix2 p k) * W (ix2 k q)) + b (ix2 0 q)) := by
  unfold k0_pay3 k0_pay1 k0_pay2
  refine (activation_entry _ _).trans ?_
  exact congrArg Cert.Spec.elu (preActivation_entry W b x p q)

/-- Region 0's second dense-layer payload at entry `(p, q)` of a block. -/
theorem k0_pay4_entry (W : Vec Ideal S128x64 .f32) (b : Vec Ideal S1x64 .f32) (x : Vec Ideal S2000x128 .f32) (p : Fin 2000) (q : Fin 64) :
    k0_pay4 (F := Ideal) W b x (ix2 p q) = Cert.Spec.elu ((∑ k : Fin 128, x (ix2 p k) * W (ix2 k q)) + b (ix2 0 q)) := by
  unfold k0_pay4 k0_pay1 k0_pay2
  refine (activation_entry _ _).trans ?_
  exact congrArg Cert.Spec.elu (preActivation_entry W b x p q)

end Cert.KernelIdeal.DenseValue

end
-- ==== Proof.DenseValue.lean ====
/-
  The three dense-layer regions, each as one whole-array function of its input arrays.

  A dense-layer region walks its row array in blocks of 2000 rows: grid point `t` reads rows `2000 t … 2000 t + 1999`,
  the whole weights and the whole one-row bias, and writes `elu (x · W + b)` of that block to the same rows of the output
  array. Entry `(p, q)` of the block written at point `t` is therefore entry `(2000 t + p, q)` of the dense layer of the
  whole arrays, the blocks of the points tile the output (row `r` lies in the block of point `r / 2000`), and so the
  array the region leaves is the dense layer of the arrays it found. The first region does this twice, for two row
  arrays against the same weights and bias.
-/
import proofs.«129680_j37512244363667_1_alg».proof.Proof.Gen.KernelIdeal.Frame
import proofs.«129680_j37512244363667_1_alg».proof.Proof.Spec
import proofs.«129680_j37512244363667_1_alg».proof.Proof.LibPlainProduct
import proofs.«129680_j37512244363667_1_alg».proof.Proof.DensePayload
import Idealize.ShloMosaic.Lib.Pipeline.Value

noncomputable section

namespace Cert.KernelIdeal.DenseValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, however spelt. -/
theorem zeroOffsets : (![0, 0] : Fin 2 → Nat) = fun _ => 0 := funext fun a => by fin_cases a <;> rfl

/-- Region 0's index maps, decided over its 50 grid points: the row-block windows (the two input row arrays, the two
    outputs) sit at block `(t, 0)`, the weights and the bias at block `(0, 0)`. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first input-rows block of region 0 at grid point `t`: its row `p` is row `2000 t + p` of the first row array. -/
theorem rows0_first_apply (c : Dev nD) (t : Fin cfg0.N) (p : Fin 2000) (k : Fin 128) (r : Fin 100000)
    (hr : r.val = t.val * 2000 + p.val) :
    (iblk0 V c 0 t : Vec Ideal S2000x128 .f32) (ix2 p k) = (V c main_arg0 : S100000x128.Idx → EReal) (ix2 r k) := by
  obtain ⟨e0, e1, -⟩ := blockIndex0 t
  unfold iblk0
  rw [View.read_apply]
  show V c main_arg0 _ = V c main_arg0 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The second input-rows block of region 0 at grid point `t`: its row `p` is row `2000 t + p` of the second row array. -/
theorem rows0_second_apply (c : Dev nD) (t : Fin cfg0.N) (p : Fin 2000) (k : Fin 128) (r : Fin 100000)
    (hr : r.val = t.val * 2000 + p.val) :
    (iblk0 V c 1 t : Vec Ideal S2000x128 .f32) (ix2 p k) = (V c main_arg3 : S100000x128.Idx → EReal) (ix2 r k) := by
  obtain ⟨-, -, e2, e3, -⟩ := blockIndex0 t
  unfold iblk0
  rw [View.read_apply]
  show V c main_arg3 _ = V c main_arg3 _
  refine congrArg _ (funext fun a => Fin.ext ?_)
  match a with
  | ⟨0, _⟩ => show win0_1.index t (0 : Fin 2) * 2000 + 1 * p.val = r.val; rw [e2, hr]; omega
  | ⟨1, _⟩ => show win0_1.index t (1 : Fin 2) * 128 + 1 * k.val = k.val; rw [e3]; omega

/-- The weights block of region 0 is the whole weights array, at every grid point. -/
theorem weights0_eq (c : Dev nD) (t : Fin cfg0.N) :
    (iblk0 V c 2 t : Vec Ideal S128x64 .f32) = (V c main_arg8 : S128x64.Idx → EReal) := by
  obtain ⟨-, -, -, -, e4, e5, -⟩ := blockIndex0 t
  funext x
  unfold iblk0
  rw [View.read_apply]
  show V c main_arg8 _ = V c main_arg8 x
  refine congrArg _ (funext fun a => Fin.ext ?_)
  match a with
  | ⟨0, _⟩ => show win0_2.index t (0 : Fin 2) * 128 + 1 * (x 0).val = (x 0).val; rw [e4]; omega
  | ⟨1, _⟩ => show win0_2.index t (1 : Fin 2) * 64 + 1 * (x 1).val = (x 1).val; rw [e5]; omega

/-- The bias block of region 0 is the whole one-row bias array, at every grid point. -/
theorem bias0_eq (c : Dev nD) (t : Fin cfg0.N) :
    (iblk0 V c 3 t : Vec Ideal S1x64 .f32) = (V c main_v0 : S1x64.Idx → EReal) := by
  obtain ⟨-, -, -, -, -, -, e6, e7, -⟩ := blockIndex0 t
  funext x
  unfold iblk0
  rw [View.read_apply]
  show V c main_v0 _ = V c main_v0 x
  refine congrArg _ (funext fun a => Fin.ext ?_)
  match a with
  | ⟨0, _⟩ => show win0_3.index t (0 : Fin 2) * 1 + 1 * (x 0).val = (x 0).val; rw [e6]; omega
  | ⟨1, _⟩ => show win0_3.index t (1 : Fin 2) * 64 + 1 * (x 1).val = (x 1).val; rw [e7]; omega

/-- Entry `(p, q)` of region 0's first output block at grid point `t` is entry `(2000 t + p, q)` of the first output array. -/
theorem outBlock0_first_emb (t : Fin cfg0.N) (p : Fin 2000) (q : Fin 64) (r : Fin 100000) (hr : r.val = t.val * 2000 + p.val) :
    (((cfg0.win 4).blk t).view.emb (ix2 p q) : S100000x64.Idx) = ix2 r q := by
  obtain ⟨-, -, -, -, -, -, -, -, e8, e9, -⟩ := blockIndex0 t
  refine funext fun a => Fin.ext ?_
  match a with
  | ⟨0, _⟩ => show win0_4.index t (0 : Fin 2) * 2000 + 1 * p.val = r.val; rw [e8, hr]; omega
  | ⟨1, _⟩ => show win0_4.index t (1 : Fin 2) * 64 + 1 * q.val = q.val; rw [e9]; omega

/-- Entry `(p, q)` of region 0's second output block at grid point `t` is entry `(2000 t + p, q)` of the second output array. -/
theorem outBlock0_second_emb (t : Fin cfg0.N) (p : Fin 2000) (q : Fin 64) (r : Fin 100000) (hr : r.val = t.val * 2000 + p.val) :
    (((cfg0.win 5).blk t).view.emb (ix2 p q) : S100000x64.Idx) = ix2 r q := by
  obtain ⟨-, -, -, -, -, -, -, -, -, -, e10, e11⟩ := blockIndex0 t
  refine funext fun a => Fin.ext ?_
  match a with
  | ⟨0, _⟩ => show win0_5.index t (0 : Fin 2) * 2000 + 1 * p.val = r.val; rw [e10, hr]; omega
  | ⟨1, _⟩ => show win0_5.index t (1 : Fin 2) * 64 + 1 * q.val = q.val; rw [e11]; omega

/-- What grid point `t` of region 0 writes back to its first output: block `t` of the dense layer of the first row array. -/
theorem flushed0_4_eq (c : Dev nD) (t : Fin cfg0.N) :
    (dat0 (F := Ideal) V c).flushed 4 t
      = ((cfg0.win 4).blk t).view.read (Elt Ideal)
          (Cert.Spec.dense (V c main_arg0 : S100000x128.Idx → EReal) (V c main_arg8 : S128x64.Idx → EReal) (V c main_v0 : S1x64.Idx → EReal)) := by
  show (cfg0.win 4).cut (grid0.coords t) ((dat0 V c).after 4 t) = _
  rw [after0_4]
  unfold out0_4
  rw [View.canon_unit_zero zeroOffsets]
  simp only [View.ld_unit_zero (S := S2000x128) zeroOffsets, View.ld_unit_zero (S := S128x64) zeroOffsets, View.ld_unit_zero (S := S1x64) zeroOffsets]
  have key : ∀ j : S2000x64.Idx,
      k0_pay3 (F := Ideal) (iblk0 V c 2 t) (iblk0 V c 3 t) (iblk0 V c 0 t) j
        = Cert.Spec.dense (V c main_arg0 : S100000x128.Idx → EReal) (V c main_arg8 : S128x64.Idx → EReal) (V c main_v0 : S1x64.Idx → EReal)
            (((cfg0.win 4).blk t).view.emb j) := by
    intro j
    obtain ⟨p, q, rfl⟩ : ∃ (p : Fin 2000) (q : Fin 64), j = ix2 p q := ⟨j 0, j 1, eq_ix2 j⟩
    have hlt : t.val * 2000 + p.val < 100000 := by have := t.isLt; have hN : cfg0.N = 50 := N_0; omega
    rw [outBlock0_first_emb t p q ⟨_, hlt⟩ rfl]
    refine (k0_pay3_entry (iblk0 V c 2 t) (iblk0 V c 3 t) (iblk0 V c 0 t) p q).trans ?_
    rw [weights0_eq V c t, bias0_eq V c t]
    exact congrArg (fun s => Cert.Spec.elu (s + (V c main_v0 : S1x64.Idx → EReal) (ix2 0 q)))
      (Finset.sum_congr rfl fun k _ => by rw [rows0_first_apply V c t p k ⟨_, hlt⟩ rfl])
  funext j
  exact key j

/-- What grid point `t` of region 0 writes back to its second output: block `t` of the dense layer of the second row array. -/
theorem flushed0_5_eq (c : Dev nD) (t : Fin cfg0.N) :
    (dat0 (F := Ideal) V c).flushed 5 t
      = ((cfg0.win 5).blk t).view.read (Elt Ideal)
          (Cert.Spec.dense (V c main_arg3 : S100000x128.Idx → EReal) (V c main_arg8 : S128x64.Idx → EReal) (V c main_v0 : S1x64.Idx → EReal)) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S128x64) zeroOffsets, View.ld_unit_zero (S := S1x64) zeroOffsets]
  have key : ∀ j : S2000x64.Idx,
      k0_pay4 (F := Ideal) (iblk0 V c 2 t) (iblk0 V c 3 t) (iblk0 V c 1 t) j
        = Cert.Spec.dense (V c main_arg3 : S100000x128.Idx → EReal) (V c main_arg8 : S128x64.Idx → EReal) (V c main_v0 : S1x64.Idx → EReal)
            (((cfg0.win 5).blk t).view.emb j) := by
    intro j
    obtain ⟨p, q, rfl⟩ : ∃ (p : Fin 2000) (q : Fin 64), j = ix2 p q := ⟨j 0, j 1, eq_ix2 j⟩
    have hlt : t.val * 2000 + p.val < 100000 := by have := t.isLt; have hN : cfg0.N = 50 := N_0; omega
    rw [outBlock0_second_emb t p q ⟨_, hlt⟩ rfl]
    refine (k0_pay4_entry (iblk0 V c 2 t) (iblk0 V c 3 t) (iblk0 V c 1 t) p q).trans ?_
    rw [weights0_eq V c t, bias0_eq V c t]
    exact congrArg (fun s => Cert.Spec.elu (s + (V c main_v0 : S1x64.Idx → EReal) (ix2 0 q)))
      (Finset.sum_congr rfl fun k _ => by rw [rows0_second_apply V c t p k ⟨_, hlt⟩ rfl])
  funext j
  exact key j

/-- An index of region 0's first output array is in grid point `t`'s block iff each coordinate is in the block's range. -/
theorem mem_outBlock0_first (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v1_0).slice (win0_4.rect t)).set ↔ _
  rw [View.set_slice_whole, Rect.mem_set_unit]
  exact Iff.rfl

/-- An index of region 0's second output array is in grid point `t`'s block iff each coordinate is in the block's range. -/
theorem mem_outBlock0_second (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v1_1).slice (win0_5.rect t)).set ↔ _
  rw [View.set_slice_whole, Rect.mem_set_unit]
  exact Iff.rfl

/-- The first array region 0 leaves: the dense layer of the first row array, the weights and the bias. -/
theorem final0_4 (c : Dev nD) : (dat0 (F := Ideal) V c).arrAt 4 cfg0.N
    = Cert.Spec.dense (V c main_arg0 : S100000x128.Idx → EReal) (V c main_arg8 : S128x64.Idx → EReal) (V c main_v0 : S1x64.Idx → EReal) :=
  (dat0 (F := Ideal) V c).arrAt_eq_of_cover 4 _ (fun t _ => flushed0_4_eq V c t) fun i => by
    have hi0 : (i 0).val < 100000 := (i 0).isLt
    have hi1 : (i 1).val < 64 := (i 1).isLt
    have hN : cfg0.N = 50 := N_0
    refine ⟨⟨(i 0).val / 2000, by omega⟩, flush0_4 _, ?_⟩
    rw [mem_outBlock0_first]
    obtain ⟨-, -, -, -, -, -, -, -, e8, e9, -⟩ := blockIndex0 ⟨(i 0).val / 2000, by omega⟩
    intro a
    match a with
    | ⟨0, _⟩ => show win0_4.index _ (0 : Fin 2) * 2000 ≤ (i 0).val ∧ (i 0).val < win0_4.index _ (0 : Fin 2) * 2000 + 2000; rw [e8]; show (i 0).val / 2000 * 2000 ≤ (i 0).val ∧ (i 0).val < (i 0).val / 2000 * 2000 + 2000; omega
    | ⟨1, _⟩ => show win0_4.index _ (1 : Fin 2) * 64 ≤ (i 1).val ∧ (i 1).val < win0_4.index _ (1 : Fin 2) * 64 + 64; rw [e9]; omega

/-- The second array region 0 leaves: the dense layer of the second row array, the weights and the bias. -/
theorem final0_5 (c : Dev nD) : (dat0 (F := Ideal) V c).arrAt 5 cfg0.N
    = Cert.Spec.dense (V c main_arg3 : S100000x128.Idx → EReal) (V c main_arg8 : S128x64.Idx → EReal) (V c main_v0 : S1x64.Idx → EReal) :=
  (dat0 (F := Ideal) V c).arrAt_eq_of_cover 5 _ (fun t _ => flushed0_5_eq V c t) fun i => by
    have hi0 : (i 0).val < 100000 := (i 0).isLt
    have hi1 : (i 1).val < 64 := (i 1).isLt
    have hN : cfg0.N = 50 := N_0
    refine ⟨⟨(i 0).val / 2000, by omega⟩, flush0_5 _, ?_⟩
    rw [mem_outBlock0_second]
    obtain ⟨-, -, -, -, -, -, -, -, -, -, e10, e11⟩ := blockIndex0 ⟨(i 0).val / 2000, by omega⟩
    intro a
    match a with
    | ⟨0, _⟩ => show win0_5.index _ (0 : Fin 2) * 2000 ≤ (i 0).val ∧ (i 0).val < win0_5.index _ (0 : Fin 2) * 2000 + 2000; rw [e10]; show (i 0).val / 2000 * 2000 ≤ (i 0).val ∧ (i 0).val < (i 0).val / 2000 * 2000 + 2000; omega
    | ⟨1, _⟩ => show win0_5.index _ (1 : Fin 2) * 64 ≤ (i 1).val ∧ (i 1).val < win0_5.index _ (1 : Fin 2) * 64 + 64; rw [e11]; omega

/-- Region 1's index maps, decided over its 30 grid points: the row-block windows (the input rows, the output) sit at
    block `(t, 0)`, the weights and the bias at block `(0, 0)`. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input-rows block of region 1 at grid point `t`: its row `p` is row `2000 t + p` of the array. -/
theorem rows1_apply (c : Dev nD) (t : Fin cfg1.N) (p : Fin 2000) (k : Fin 128) (r : Fin 60000)
    (hr : r.val = t.val * 2000 + p.val) :
    (iblk1 V c 0 t : Vec Ideal S2000x128 .f32) (ix2 p k) = (V c main_arg1 : S60000x128.Idx → EReal) (ix2 r k) := by
  obtain ⟨e0, e1, -⟩ := blockIndex1 t
  unfold iblk1
  rw [View.read_apply]
  show V c main_arg1 _ = V c main_arg1 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The weights block of region 1 is the whole weights array, at every grid point. -/
theorem weights1_eq (c : Dev nD) (t : Fin cfg1.N) :
    (iblk1 V c 1 t : Vec Ideal S128x64 .f32) = (V c main_arg10 : S128x64.Idx → EReal) := by
  obtain ⟨-, -, e2, e3, -⟩ := blockIndex1 t
  funext x
  unfold iblk1
  rw [View.read_apply]
  show V c main_arg10 _ = V c main_arg10 x
  refine congrArg _ (funext fun a => Fin.ext ?_)
  match a with
  | ⟨0, _⟩ => show win1_1.index t (0 : Fin 2) * 128 + 1 * (x 0).val = (x 0).val; rw [e2]; omega
  | ⟨1, _⟩ => show win1_1.index t (1 : Fin 2) * 64 + 1 * (x 1).val = (x 1).val; rw [e3]; omega

/-- The bias block of region 1 is the whole one-row bias array, at every grid point. -/
theorem bias1_eq (c : Dev nD) (t : Fin cfg1.N) :
    (iblk1 V c 2 t : Vec Ideal S1x64 .f32) = (V c main_v2 : S1x64.Idx → EReal) := by
  obtain ⟨-, -, -, -, e4, e5, -⟩ := blockIndex1 t
  funext x
  unfold iblk1
  rw [View.read_apply]
  show V c main_v2 _ = V c main_v2 x
  refine congrArg _ (funext fun a => Fin.ext ?_)
  match a with
  | ⟨0, _⟩ => show win1_2.index t (0 : Fin 2) * 1 + 1 * (x 0).val = (x 0).val; rw [e4]; omega
  | ⟨1, _⟩ => show win1_2.index t (1 : Fin 2) * 64 + 1 * (x 1).val = (x 1).val; rw [e5]; omega

/-- Entry `(p, q)` of region 1's output block at grid point `t` is entry `(2000 t + p, q)` of the output array. -/
theorem outBlock1_emb (t : Fin cfg1.N) (p : Fin 2000) (q : Fin 64) (r : Fin 60000) (hr : r.val = t.val * 2000 + p.val) :
    (((cfg1.win 3).blk t).view.emb (ix2 p q) : S60000x64.Idx) = ix2 r q := by
  obtain ⟨-, -, -, -, -, -, e6, e7⟩ := blockIndex1 t
  refine funext fun a => Fin.ext ?_
  match a with
  | ⟨0, _⟩ => show win1_3.index t (0 : Fin 2) * 2000 + 1 * p.val = r.val; rw [e6, hr]; omega
  | ⟨1, _⟩ => show win1_3.index t (1 : Fin 2) * 64 + 1 * q.val = q.val; rw [e7]; omega

/-- What grid point `t` of region 1 writes back: block `t` of the dense layer of the whole arrays. -/
theorem flushed1_3_eq (c : Dev nD) (t : Fin cfg1.N) :
    (dat1 (F := Ideal) V c).flushed 3 t
      = ((cfg1.win 3).blk t).view.read (Elt Ideal)
          (Cert.Spec.dense (V c main_arg1 : S60000x128.Idx → EReal) (V c main_arg10 : S128x64.Idx → EReal) (V c main_v2 : S1x64.Idx → EReal)) := by
  show (cfg1.win 3).cut (grid1.coords t) ((dat1 V c).after 3 t) = _
  rw [after1_3]
  unfold out1_3
  rw [View.canon_unit_zero zeroOffsets]
  simp only [View.ld_unit_zero (S := S2000x128) zeroOffsets, View.ld_unit_zero (S := S128x64) zeroOffsets, View.ld_unit_zero (S := S1x64) zeroOffsets]
  have key : ∀ j : S2000x64.Idx,
      k1_pay1 (F := Ideal) (iblk1 V c 1 t) (iblk1 V c 2 t) (iblk1 V c 0 t) j
        = Cert.Spec.dense (V c main_arg1 : S60000x128.Idx → EReal) (V c main_arg10 : S128x64.Idx → EReal) (V c main_v2 : S1x64.Idx → EReal)
            (((cfg1.win 3).blk t).view.emb j) := by
    intro j
    obtain ⟨p, q, rfl⟩ : ∃ (p : Fin 2000) (q : Fin 64), j = ix2 p q := ⟨j 0, j 1, eq_ix2 j⟩
    have hlt : t.val * 2000 + p.val < 60000 := by have := t.isLt; have hN : cfg1.N = 30 := N_1; omega
    rw [outBlock1_emb t p q ⟨_, hlt⟩ rfl]
    refine (k1_pay1_entry (iblk1 V c 1 t) (iblk1 V c 2 t) (iblk1 V c 0 t) p q).trans ?_
    rw [weights1_eq V c t, bias1_eq V c t]
    exact congrArg (fun s => Cert.Spec.elu (s + (V c main_v2 : S1x64.Idx → EReal) (ix2 0 q)))
      (Finset.sum_congr rfl fun k _ => by rw [rows1_apply V c t p k ⟨_, hlt⟩ rfl])
  funext j
  exact key j

/-- An index of the output array of region 1 is in grid point `t`'s block iff each coordinate is in the block's range. -/
theorem mem_outBlock1 (t : Fin cfg1.N) (i : S60000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v3).slice (win1_3.rect t)).set ↔ _
  rw [View.set_slice_whole, Rect.mem_set_unit]
  exact Iff.rfl

/-- The array region 1 leaves: the dense layer of its three input arrays. -/
theorem final1_3 (c : Dev nD) : (dat1 (F := Ideal) V c).arrAt 3 cfg1.N
    = Cert.Spec.dense (V c main_arg1 : S60000x128.Idx → EReal) (V c main_arg10 : S128x64.Idx → EReal) (V c main_v2 : S1x64.Idx → EReal) :=
  (dat1 (F := Ideal) V c).arrAt_eq_of_cover 3 _ (fun t _ => flushed1_3_eq V c t) fun i => by
    have hi0 : (i 0).val < 60000 := (i 0).isLt
    have hi1 : (i 1).val < 64 := (i 1).isLt
    have hN : cfg1.N = 30 := N_1
    refine ⟨⟨(i 0).val / 2000, by omega⟩, flush1_3 _, ?_⟩
    rw [mem_outBlock1]
    obtain ⟨-, -, -, -, -, -, e6, e7⟩ := blockIndex1 ⟨(i 0).val / 2000, by omega⟩
    intro a
    match a with
    | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
    | ⟨1, _⟩ => show win1_3.index _ (1 : Fin 2) * 64 ≤ (i 1).val ∧ (i 1).val < win1_3.index _ (1 : Fin 2) * 64 + 64; rw [e7]; omega

/-- Region 2's index maps, decided over its 15 grid points: the row-block windows (the input rows, the output) sit at
    block `(t, 0)`, the weights and the bias at block `(0, 0)`. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input-rows block of region 2 at grid point `t`: its row `p` is row `2000 t + p` of the array. -/
theorem rows2_apply (c : Dev nD) (t : Fin cfg2.N) (p : Fin 2000) (k : Fin 128) (r : Fin 30000)
    (hr : r.val = t.val * 2000 + p.val) :
    (iblk2 V c 0 t : Vec Ideal S2000x128 .f32) (ix2 p k) = (V c main_arg2 : S30000x128.Idx → EReal) (ix2 r k) := by
  obtain ⟨e0, e1, -⟩ := blockIndex2 t
  unfold iblk2
  rw [View.read_apply]
  show V c main_arg2 _ = V c main_arg2 _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weights block of region 2 is the whole weights array, at every grid point. -/
theorem weights2_eq (c : Dev nD) (t : Fin cfg2.N) :
    (iblk2 V c 1 t : Vec Ideal S128x64 .f32) = (V c main_arg12 : S128x64.Idx → EReal) := by
  obtain ⟨-, -, e2, e3, -⟩ := blockIndex2 t
  funext x
  unfold iblk2
  rw [View.read_apply]
  show V c main_arg12 _ = V c main_arg12 x
  refine congrArg _ (funext fun a => Fin.ext ?_)
  match a with
  | ⟨0, _⟩ => show win2_1.index t (0 : Fin 2) * 128 + 1 * (x 0).val = (x 0).val; rw [e2]; omega
  | ⟨1, _⟩ => show win2_1.index t (1 : Fin 2) * 64 + 1 * (x 1).val = (x 1).val; rw [e3]; omega

/-- The bias block of region 2 is the whole one-row bias array, at every grid point. -/
theorem bias2_eq (c : Dev nD) (t : Fin cfg2.N) :
    (iblk2 V c 2 t : Vec Ideal S1x64 .f32) = (V c main_v4 : S1x64.Idx → EReal) := by
  obtain ⟨-, -, -, -, e4, e5, -⟩ := blockIndex2 t
  funext x
  unfold iblk2
  rw [View.read_apply]
  show V c main_v4 _ = V c main_v4 x
  refine congrArg _ (funext fun a => Fin.ext ?_)
  match a with
  | ⟨0, _⟩ => show win2_2.index t (0 : Fin 2) * 1 + 1 * (x 0).val = (x 0).val; rw [e4]; omega
  | ⟨1, _⟩ => show win2_2.index t (1 : Fin 2) * 64 + 1 * (x 1).val = (x 1).val; rw [e5]; omega

/-- Entry `(p, q)` of region 2's output block at grid point `t` is entry `(2000 t + p, q)` of the output array. -/
theorem outBlock2_emb (t : Fin cfg2.N) (p : Fin 2000) (q : Fin 64) (r : Fin 30000) (hr : r.val = t.val * 2000 + p.val) :
    (((cfg2.win 3).blk t).view.emb (ix2 p q) : S30000x64.Idx) = ix2 r q := by
  obtain ⟨-, -, -, -, -, -, e6, e7⟩ := blockIndex2 t
  refine funext fun a => Fin.ext ?_
  match a with
  | ⟨0, _⟩ => show win2_3.index t (0 : Fin 2) * 2000 + 1 * p.val = r.val; rw [e6, hr]; omega
  | ⟨1, _⟩ => show win2_3.index t (1 : Fin 2) * 64 + 1 * q.val = q.val; rw [e7]; omega

/-- What grid point `t` of region 2 writes back: block `t` of the dense layer of the whole arrays. -/
theorem flushed2_3_eq (c : Dev nD) (t : Fin cfg2.N) :
    (dat2 (F := Ideal) V c).flushed 3 t
      = ((cfg2.win 3).blk t).view.read (Elt Ideal)
          (Cert.Spec.dense (V c main_arg2 : S30000x128.Idx → EReal) (V c main_arg12 : S128x64.Idx → EReal) (V c main_v4 : S1x64.Idx → EReal)) := by
  show (cfg2.win 3).cut (grid2.coords t) ((dat2 V c).after 3 t) = _
  rw [after2_3]
  unfold out2_3
  rw [View.canon_unit_zero zeroOffsets]
  simp only [View.ld_unit_zero (S := S2000x128) zeroOffsets, View.ld_unit_zero (S := S128x64) zeroOffsets, View.ld_unit_zero (S := S1x64) zeroOffsets]
  have key : ∀ j : S2000x64.Idx,
      k2_pay1 (F := Ideal) (iblk2 V c 1 t) (iblk2 V c 2 t) (iblk2 V c 0 t) j
        = Cert.Spec.dense (V c main_arg2 : S30000x128.Idx → EReal) (V c main_arg12 : S128x64.Idx → EReal) (V c main_v4 : S1x64.Idx → EReal)
            (((cfg2.win 3).blk t).view.emb j) := by
    intro j
    obtain ⟨p, q, rfl⟩ : ∃ (p : Fin 2000) (q : Fin 64), j = ix2 p q := ⟨j 0, j 1, eq_ix2 j⟩
    have hlt : t.val * 2000 + p.val < 30000 := by have := t.isLt; have hN : cfg2.N = 15 := N_2; omega
    rw [outBlock2_emb t p q ⟨_, hlt⟩ rfl]
    refine (k2_pay1_entry (iblk2 V c 1 t) (iblk2 V c 2 t) (iblk2 V c 0 t) p q).trans ?_
    rw [weights2_eq V c t, bias2_eq V c t]
    exact congrArg (fun s => Cert.Spec.elu (s + (V c main_v4 : S1x64.Idx → EReal) (ix2 0 q)))
      (Finset.sum_congr rfl fun k _ => by rw [rows2_apply V c t p k ⟨_, hlt⟩ rfl])
  funext j
  exact key j

/-- An index of the output array of region 2 is in grid point `t`'s block iff each coordinate is in the block's range. -/
theorem mem_outBlock2 (t : Fin cfg2.N) (i : S30000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v5).slice (win2_3.rect t)).set ↔ _
  rw [View.set_slice_whole, Rect.mem_set_unit]
  exact Iff.rfl

/-- The array region 2 leaves: the dense layer of its three input arrays. -/
theorem final2_3 (c : Dev nD) : (dat2 (F := Ideal) V c).arrAt 3 cfg2.N
    = Cert.Spec.dense (V c main_arg2 : S30000x128.Idx → EReal) (V c main_arg12 : S128x64.Idx → EReal) (V c main_v4 : S1x64.Idx → EReal) :=
  (dat2 (F := Ideal) V c).arrAt_eq_of_cover 3 _ (fun t _ => flushed2_3_eq V c t) fun i => by
    have hi0 : (i 0).val < 30000 := (i 0).isLt
    have hi1 : (i 1).val < 64 := (i 1).isLt
    have hN : cfg2.N = 15 := N_2
    refine ⟨⟨(i 0).val / 2000, by omega⟩, flush2_3 _, ?_⟩
    rw [mem_outBlock2]
    obtain ⟨-, -, -, -, -, -, e6, e7⟩ := blockIndex2 ⟨(i 0).val / 2000, by omega⟩
    intro a
    match a with
    | ⟨0, _⟩ => show win2_3.index _ (0 : Fin 2) * 2000 ≤ (i 0).val ∧ (i 0).val < win2_3.index _ (0 : Fin 2) * 2000 + 2000; rw [e6]; show (i 0).val / 2000 * 2000 ≤ (i 0).val ∧ (i 0).val < (i 0).val / 2000 * 2000 + 2000; omega
    | ⟨1, _⟩ => show win2_3.index _ (1 : Fin 2) * 64 ≤ (i 1).val ∧ (i 1).val < win2_3.index _ (1 : Fin 2) * 64 + 64; rw [e7]; omega

end Cert.KernelIdeal.DenseValue

end
-- ==== Proof.CombineBlock.lean ====
/-
  The last region's body on ONE block of 2000 rows.

  The body reads a 2000-row block of the target embedding `ht`, of the masked embedding `hm`, of the two aggregates
  `a1`, `a2`, and the whole 64 × 64 matrices `A0`, `A1`. It forms the two products `a1 · A0` and `a2 · A1`, adds each to
  `ht` and to `hm`, passes the four sums through ELU, and stores the four results and `ht` itself as the five
  `[1, 2000, 64]` slabs of a `[5, 2000, 64]` buffer. Entry `(s, p, q)` of that buffer is therefore entry `(s, p, q)` of
  `Cert.Spec.combine` of the six blocks: that is `block_eq_combine`.

  The steps: a product's entry is the row-by-column sum (`product_entry`, `product_entry'`: rounding the operands to a
  narrower format is the identity on the extended reals, and the accumulator is zero); a sum through the body's
  spelling of ELU is `Cert.Spec.elu` of it; a value stored under a leading unit axis is read at `(0, p, q)` as the
  value at `(p, q)`; the five stores tile the buffer, so each entry is read off the one store whose slab holds it.
-/
import proofs.«129680_j37512244363667_1_alg».proof.Proof.Gen.KernelIdeal.Frame
import proofs.«129680_j37512244363667_1_alg».proof.Proof.Spec
import proofs.«129680_j37512244363667_1_alg».proof.Proof.LibPlainProduct
import Idealize.ShloMosaic.Lib.Pipeline.Value

noncomputable section

namespace Cert.KernelIdeal.CombineValue

open Cert.KernelIdeal Cert.KernelIdeal.Gen Idealize.ShloMosaic Idealize.ShloMosaic.ValueIdx

/-! ## The specification slab by slab -/

section Slabs
variable {n : ℕ} (ht hm a1 a2 : (⟨2, ![n, 64]⟩ : Shape).Idx → EReal) (A0 A1 : (⟨2, ![64, 64]⟩ : Shape).Idx → EReal)
  (p : Fin n) (q : Fin 64)

theorem combine_slab0 : Cert.Spec.combine ht hm a1 a2 A0 A1 (ix3 (0 : Fin 5) p q)
    = Cert.Spec.elu (ht (ix2 p q) + Cert.Spec.proj a1 A0 p q) := rfl
theorem combine_slab1 : Cert.Spec.combine ht hm a1 a2 A0 A1 (ix3 (1 : Fin 5) p q)
    = Cert.Spec.elu (hm (ix2 p q) + Cert.Spec.proj a1 A0 p q) := rfl
theorem combine_slab2 : Cert.Spec.combine ht hm a1 a2 A0 A1 (ix3 (2 : Fin 5) p q)
    = Cert.Spec.elu (ht (ix2 p q) + Cert.Spec.proj a2 A1 p q) := rfl
theorem combine_slab3 : Cert.Spec.combine ht hm a1 a2 A0 A1 (ix3 (3 : Fin 5) p q)
    = Cert.Spec.elu (hm (ix2 p q) + Cert.Spec.proj a2 A1 p q) := rfl
theorem combine_slab4 : Cert.Spec.combine ht hm a1 a2 A0 A1 (ix3 (4 : Fin 5) p q) = ht (ix2 p q) := rfl
end Slabs

/-! ## The body's values at an entry -/

/-- Entry `(p, q)` of the first product: row `p` of the aggregate's block against column `q` of the matrix. -/
theorem product_entry (A : Vec Ideal S64x64 .f32) (a : Vec Ideal S2000x64 .f32) (p : Fin 2000) (q : Fin 64) :
    k3_pay6 A a (ix2 p q) = Cert.Spec.proj a A p q := by
  unfold k3_pay6
  refine (Cert.PlainProduct.matmul_zero_entry dot_S2000x64_S64x64_S2000x64_1_0_0_1_n_n rfl rfl
    (fun _ _ => rfl) (fun _ _ => rfl) (fun _ _ => rfl) (fun _ _ => rfl) _ _ p q).trans ?_
  unfold Cert.Spec.proj
  refine Finset.sum_congr rfl fun k _ => ?_
  rw [truncf_apply, truncf_apply, shapeCast_self]

/-- Entry `(p, q)` of the second product, the same sum. -/
theorem product_entry' (A : Vec Ideal S64x64 .f32) (a : Vec Ideal S2000x64 .f32) (p : Fin 2000) (q : Fin 64) :
    k3_pay7 A a (ix2 p q) = Cert.Spec.proj a A p q := by
  unfold k3_pay7
  refine (Cert.PlainProduct.matmul_zero_entry dot_S2000x64_S64x64_S2000x64_1_0_0_1_n_n rfl rfl
    (fun _ _ => rfl) (fun _ _ => rfl) (fun _ _ => rfl) (fun _ _ => rfl) _ _ p q).trans ?_
  unfold Cert.Spec.proj
  refine Finset.sum_congr rfl fun k _ => ?_
  rw [truncf_apply, truncf_apply, shapeCast_self]

/-- The zero offsets of a rank-two buffer, however they are spelt. -/
theorem zero2 : (![0, 0] : Fin 2 → Nat) = fun _ => 0 := funext fun a => by fin_cases a <;> rfl

/-- `h + a · A` through ELU at entry `(p, q)`, first product, first addend spelling. -/
theorem elu_sum_entry (A : Vec Ideal S64x64 .f32) (a h : Vec Ideal S2000x64 .f32) (p : Fin 2000) (q : Fin 64) :
    k3_pay10 A a h (ix2 p q) = Cert.Spec.elu (h (ix2 p q) + Cert.Spec.proj a A p q) := by
  unfold k3_pay10
  refine (Cert.Spec.elu_kernel (addf (k3_pay8 h) (k3_pay6 A a) (ix2 p q))).trans ?_
  refine congrArg Cert.Spec.elu ?_
  rw [addf_apply, product_entry]
  unfold k3_pay8
  rw [shapeCast_self]

/-- The same for the masked embedding's block. -/
theorem elu_sum_entry₁ (A : Vec Ideal S64x64 .f32) (a h : Vec Ideal S2000x64 .f32) (p : Fin 2000) (q : Fin 64) :
    k3_pay11 A a h (ix2 p q) = Cert.Spec.elu (h (ix2 p q) + Cert.Spec.proj a A p q) := by
  unfold k3_pay11
  refine (Cert.Spec.elu_kernel (addf (k3_pay9 h) (k3_pay6 A a) (ix2 p q))).trans ?_
  refine congrArg Cert.Spec.elu ?_
  rw [addf_apply, product_entry]
  unfold k3_pay9
  rw [shapeCast_self]

/-- The same for the second product. -/
theorem elu_sum_entry₂ (A : Vec Ideal S64x64 .f32) (a h : Vec Ideal S2000x64 .f32) (p : Fin 2000) (q : Fin 64) :
    k3_pay12 A a h (ix2 p q) = Cert.Spec.elu (h (ix2 p q) + Cert.Spec.proj a A p q) := by
  unfold k3_pay12
  refine (Cert.Spec.elu_kernel (addf (k3_pay8 h) (k3_pay7 A a) (ix2 p q))).trans ?_
  refine congrArg Cert.Spec.elu ?_
  rw [addf_apply, product_entry']
  unfold k3_pay8
  rw [shapeCast_self]

/-- The fourth sum, before its ELU: the masked embedding's block plus the second product. -/
theorem sum_entry₃ (A : Vec Ideal S64x64 .f32) (a h : Vec Ideal S2000x64 .f32) (p : Fin 2000) (q : Fin 64) :
    k3_pay13 A a h (ix2 p q) = h (ix2 p q) + Cert.Spec.proj a A p q := by
  unfold k3_pay13
  rw [addf_apply, product_entry']
  unfold k3_pay9
  rw [shapeCast_self]

/-! ## A value under a leading unit axis -/

/-- A `[2000, 64]` value viewed as `[1, 2000, 64]` reads at `(u, p, q)` its entry `(p, q)`. -/
theorem unit_axis_entry {α : Type} (v : S2000x64.Idx → α) (u : Fin 1) (p : Fin 2000) (q : Fin 64) :
    shapeCast S1x2000x64 v shapeCasts_S2000x64_S1x2000x64 (ix3 u p q) = v (ix2 p q) := by
  refine (shapeCast_addUnit_apply (n := 2) ![2000, 64] v shapeCasts_S2000x64_S1x2000x64 (ix3 u p q)).trans ?_
  refine congrArg v ?_
  funext a
  match a with
  | ⟨0, _⟩ => rfl
  | ⟨1, _⟩ => rfl

/-- Slab `k`'s rectangle places its local entry `(u, p, q)` at `(k, p, q)` of the buffer. -/
theorem slab_emb (k : Nat) (hk : k < 5)
    (inb : ∀ a, (![k, 0, 0] : Fin 3 → Nat) a + S1x2000x64.size a ≤ S5x2000x64.size a)
    (u : Fin 1) (p : Fin 2000) (q : Fin 64) :
    (Rect.unit (s := S5x2000x64) ![k, 0, 0] S1x2000x64.size inb).emb (ix3 u p q) = ix3 (⟨k, hk⟩ : Fin 5) p q := by
  funext a
  apply Fin.ext
  match a with
  | ⟨0, _⟩ => show k + 1 * (u : Nat) = k; have := u.isLt; omega
  | ⟨1, _⟩ => show 0 + 1 * (p : Nat) = p; omega
  | ⟨2, _⟩ => show 0 + 1 * (q : Nat) = q; omega

/-! ## The five stores, each against its slab of the specification -/

section Stores
variable (x0 x1 x2 x3 : Vec Ideal S2000x64 .f32) (x4 x5 : Vec Ideal S64x64 .f32)

/-- Every local index of a slab is `(u, p, q)` with `u` the one value of the unit axis. -/
theorem slab_idx (x : S1x2000x64.Idx) : ∃ (u : Fin 1) (p : Fin 2000) (q : Fin 64), x = ix3 u p q :=
  ⟨x 0, x 1, x 2, eq_ix3 x⟩

/-- Slab 0: `elu (ht + a1 · A0)`. -/
theorem store0 (x : S1x2000x64.Idx) :
    k3_pay1 (k3_pay10 x4 x2 x0) x = Cert.Spec.combine (n := 2000) x0 x1 x2 x3 x4 x5 (r3_2.emb x) := by
  obtain ⟨u, p, q, rfl⟩ := slab_idx x
  refine ((unit_axis_entry _ u p q).trans (elu_sum_entry x4 x2 x0 p q)).trans ?_
  exact ((congrArg _ (slab_emb 0 (by omega) inb_S5x2000x64_S1x2000x64_0_0_0 u p q)).trans
    (combine_slab0 x0 x1 x2 x3 x4 x5 p q)).symm

/-- Slab 1: `elu (hm + a1 · A0)`. -/
theorem store1 (x : S1x2000x64.Idx) :
    k3_pay2 (k3_pay11 x4 x2 x1) x = Cert.Spec.combine (n := 2000) x0 x1 x2 x3 x4 x5 (r3_3.emb x) := by
  obtain ⟨u, p, q, rfl⟩ := slab_idx x
  refine ((unit_axis_entry _ u p q).trans (elu_sum_entry₁ x4 x2 x1 p q)).trans ?_
  exact ((congrArg _ (slab_emb 1 (by omega) inb_S5x2000x64_S1x2000x64_1_0_0 u p q)).trans
    (combine_slab1 x0 x1 x2 x3 x4 x5 p q)).symm

/-- Slab 2: `elu (ht + a2 · A1)`. -/
theorem store2 (x : S1x2000x64.Idx) :
    k3_pay3 (k3_pay12 x5 x3 x0) x = Cert.Spec.combine (n := 2000) x0 x1 x2 x3 x4 x5 (r3_4.emb x) := by
  obtain ⟨u, p, q, rfl⟩ := slab_idx x
  refine ((unit_axis_entry _ u p q).trans (elu_sum_entry₂ x5 x3 x0 p q)).trans ?_
  exact ((congrArg _ (slab_emb 2 (by omega) inb_S5x2000x64_S1x2000x64_2_0_0 u p q)).trans
    (combine_slab2 x0 x1 x2 x3 x4 x5 p q)).symm

/-- Slab 3: `elu (hm + a2 · A1)`, the ELU taken where the value is stored. -/
theorem store3 (x : S1x2000x64.Idx) :
    k3_pay4 (k3_pay13 x5 x3 x1) (Scalar.ofBits .f32 0x00000000#32) x
      = Cert.Spec.combine (n := 2000) x0 x1 x2 x3 x4 x5 (r3_5.emb x) := by
  obtain ⟨u, p, q, rfl⟩ := slab_idx x
  unfold k3_pay4
  refine (unit_axis_entry
    (select (cmpf .ogt (k3_pay13 x5 x3 x1) (broadcast S2000x64 (Scalar.ofBits (F := Ideal) .f32 0x00000000#32)))
      (k3_pay13 x5 x3 x1)
      (subf (exp (k3_pay13 x5 x3 x1)) (broadcast S2000x64 (Scalar.ofBits (F := Ideal) .f32 0x3F800000#32))))
    u p q).trans ?_
  refine ((Cert.Spec.elu_kernel (k3_pay13 x5 x3 x1 (ix2 p q))).trans
    (congrArg Cert.Spec.elu (sum_entry₃ x5 x3 x1 p q))).trans ?_
  exact ((congrArg _ (slab_emb 3 (by omega) inb_S5x2000x64_S1x2000x64_3_0_0 u p q)).trans
    (combine_slab3 x0 x1 x2 x3 x4 x5 p q)).symm

/-- Slab 4: the target embedding's block itself. -/
theorem store4 (x : S1x2000x64.Idx) :
    k3_pay5 (k3_pay8 x0) x = Cert.Spec.combine (n := 2000) x0 x1 x2 x3 x4 x5 (r3_6.emb x) := by
  obtain ⟨u, p, q, rfl⟩ := slab_idx x
  refine ((unit_axis_entry _ u p q).trans (congrFun (shapeCast_self x0 shapeCasts_S2000x64_S2000x64) (ix2 p q))).trans ?_
  exact ((congrArg _ (slab_emb 4 (by omega) inb_S5x2000x64_S1x2000x64_4_0_0 u p q)).trans
    (combine_slab4 x0 x1 x2 x3 x4 x5 p q)).symm

/-- THE BLOCK: what the body leaves in the output's staging buffer is `Cert.Spec.combine` of the six blocks it read. -/
theorem block_eq_combine :
    out3_6 x0 x1 x2 x3 x4 x5 = Cert.Spec.combine (n := 2000) x0 x1 x2 x3 x4 x5 := by
  funext y
  unfold out3_6
  simp only [View.ld_unit_zero (S := S2000x64) zero2, View.ld_unit_zero (S := S64x64) zero2]
  refine View.canon_apply_of_pieces (Val := Elt Ideal) (S := S5x2000x64) (e := .f32)
    (Cert.Spec.combine (n := 2000) x0 x1 x2 x3 x4 x5) _ ?_ y (cover3_6 _ _ _ _ _ y)
  intro pc hpc
  simp only [List.mem_cons, List.not_mem_nil, or_false] at hpc
  rcases hpc with rfl | rfl | rfl | rfl | rfl
  · exact store4 x0 x1 x2 x3 x4 x5
  · exact store3 x0 x1 x2 x3 x4 x5
  · exact store2 x0 x1 x2 x3 x4 x5
  · exact store1 x0 x1 x2 x3 x4 x5
  · exact store0 x0 x1 x2 x3 x4 x5

/-- The block at an entry, by coordinates. -/
theorem block_entry (s : Fin 5) (p : Fin 2000) (q : Fin 64) :
    out3_6 x0 x1 x2 x3 x4 x5 (ix3 s p q) = Cert.Spec.combine (n := 2000) x0 x1 x2 x3 x4 x5 (ix3 s p q) :=
  congrFun (block_eq_combine x0 x1 x2 x3 x4 x5) (ix3 s p q)

end Stores

end Cert.KernelIdeal.CombineValue

end
-- ==== Proof.CombineValue.lean ====
/-
  The last region's result as ONE function of the arrays it finds.

  The region runs over 50 grid points. At point `t` it reads rows `2000 t … 2000 t + 1999` of the target embedding, of the
  masked embedding and of the two aggregates, and the whole matrices `A0` and `A1`; it writes the five slabs of rows
  `2000 t … 2000 t + 1999` of the `[5, 100000, 64]` result. On one block the body computes `Cert.Spec.combine` of the
  blocks (`block_eq_combine`). Entry `(s, p, q)` of `combine` depends on row `p` of the four row-indexed operands only, so
  `combine` of row blocks is the row block of `combine` (`combine_rows`): point `t` writes block `t` of `combine` of the
  whole arrays (`written_block`). Row `r` lies in the block of point `r / 2000`, so the blocks cover the result
  (`rows_covered`), and the array the region leaves is `combine` of the arrays it found (`final3_6`).
-/
import proofs.«129680_j37512244363667_1_alg».proof.Proof.Gen.KernelIdeal.Frame
import proofs.«129680_j37512244363667_1_alg».proof.Proof.Spec
import proofs.«129680_j37512244363667_1_alg».proof.Proof.LibPlainProduct
import proofs.«129680_j37512244363667_1_alg».proof.Proof.CombineBlock
import Idealize.ShloMosaic.Lib.Pipeline.Value

noncomputable section

namespace Cert.KernelIdeal.CombineValue

open Cert.KernelIdeal Cert.KernelIdeal.Gen Idealize.ShloMosaic Idealize.ShloMosaic.ValueIdx
open Idealize.ShloMosaic.TcCoe
open Idealize.ShloMosaic.Pipeline (Dat)

/-! ## The specification on row blocks -/

/-- `combine` reads its four row-indexed operands at the entry's own row only: if primed operands are the unprimed
    ones with rows renamed by `f`, then entry `(s, p, q)` of the primed `combine` is entry `(s, f p, q)` of the unprimed. -/
theorem combine_rows {n n' : ℕ} (ht hm a1 a2 : (⟨2, ![n, 64]⟩ : Shape).Idx → EReal)
    (ht' hm' a1' a2' : (⟨2, ![n', 64]⟩ : Shape).Idx → EReal) (A0 A1 : (⟨2, ![64, 64]⟩ : Shape).Idx → EReal)
    (f : Fin n' → Fin n)
    (h0 : ∀ p k, ht' (ix2 p k) = ht (ix2 (f p) k)) (h1 : ∀ p k, hm' (ix2 p k) = hm (ix2 (f p) k))
    (h2 : ∀ p k, a1' (ix2 p k) = a1 (ix2 (f p) k)) (h3 : ∀ p k, a2' (ix2 p k) = a2 (ix2 (f p) k))
    (s : Fin 5) (p : Fin n') (q : Fin 64) :
    Cert.Spec.combine ht' hm' a1' a2' A0 A1 (ix3 s p q) = Cert.Spec.combine ht hm a1 a2 A0 A1 (ix3 s (f p) q) := by
  have e1 : Cert.Spec.proj a1' A0 p q = Cert.Spec.proj a1 A0 (f p) q :=
    Finset.sum_congr rfl fun k _ => by rw [h2]
  have e2 : Cert.Spec.proj a2' A1 p q = Cert.Spec.proj a2 A1 (f p) q :=
    Finset.sum_congr rfl fun k _ => by rw [h3]
  show (if s.val = 0 then Cert.Spec.elu (ht' (ix2 p q) + Cert.Spec.proj a1' A0 p q)
      else if s.val = 1 then Cert.Spec.elu (hm' (ix2 p q) + Cert.Spec.proj a1' A0 p q)
      else if s.val = 2 then Cert.Spec.elu (ht' (ix2 p q) + Cert.Spec.proj a2' A1 p q)
      else if s.val = 3 then Cert.Spec.elu (hm' (ix2 p q) + Cert.Spec.proj a2' A1 p q)
      else ht' (ix2 p q))
    = (if s.val = 0 then Cert.Spec.elu (ht (ix2 (f p) q) + Cert.Spec.proj a1 A0 (f p) q)
      else if s.val = 1 then Cert.Spec.elu (hm (ix2 (f p) q) + Cert.Spec.proj a1 A0 (f p) q)
      else if s.val = 2 then Cert.Spec.elu (ht (ix2 (f p) q) + Cert.Spec.proj a2 A1 (f p) q)
      else if s.val = 3 then Cert.Spec.elu (hm (ix2 (f p) q) + Cert.Spec.proj a2 A1 (f p) q)
      else ht (ix2 (f p) q))
  rw [e1, e2, h0, h1]

/-! ## The windows' blocks as rows of their arrays -/

variable (V : (c : Dev nD) → (b : Ref sig .tc) → Buf (Elt Ideal) ((c : Thread nD τ).loc b))

/-- The printed index maps, decided over the grid: a row-block window is at block `(t, 0)`, a matrix window at block
    `(0, 0)`, the result's window at block `(0, t, 0)`. -/
theorem index_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 3) = 0 ∧ win3_6.index t (1 : Fin 3) = t.val ∧ win3_6.index t (2 : Fin 3) = 0) :=
  (by decide +kernel : ∀ t : Fin grid3.N, _)

/-- The grid has 50 points. -/
theorem points : cfg3.N = 50 := N_3

/-- The target embedding's block at point `t`: its row `p` is row `2000 t + p` of the array. -/
theorem block0_rows (c : Dev nD) (t : Fin cfg3.N) (p : Fin 2000) (k : Fin 64) (r : Fin 100000)
    (hr : r.val = 2000 * t.val + p.val) :
    (iblk3 V c 0 t : Vec Ideal S2000x64 .f32) (ix2 p k) = (V c main_v1_0 : S100000x64.Idx → EReal) (ix2 r k) := by
  obtain ⟨⟨e0, e1⟩, -⟩ := index_facts t
  unfold iblk3
  rw [View.read_apply]
  show V c main_v1_0 _ = V c main_v1_0 _
  congr 1
  funext a
  apply Fin.ext
  match a with
  | ⟨0, _⟩ => show win3_0.index t (0 : Fin 2) * 2000 + 1 * (p : Nat) = r.val; rw [e0, hr]; omega
  | ⟨1, _⟩ => show win3_0.index t (1 : Fin 2) * 64 + 1 * (k : Nat) = k.val; rw [e1]; omega

/-- The masked embedding's block at point `t`: its row `p` is row `2000 t + p` of the array. -/
theorem block1_rows (c : Dev nD) (t : Fin cfg3.N) (p : Fin 2000) (k : Fin 64) (r : Fin 100000)
    (hr : r.val = 2000 * t.val + p.val) :
    (iblk3 V c 1 t : Vec Ideal S2000x64 .f32) (ix2 p k) = (V c main_v1_1 : S100000x64.Idx → EReal) (ix2 r k) := by
  obtain ⟨-, ⟨e0, e1⟩, -⟩ := index_facts t
  unfold iblk3
  rw [View.read_apply]
  show V c main_v1_1 _ = V c main_v1_1 _
  congr 1
  funext a
  apply Fin.ext
  match a with
  | ⟨0, _⟩ => show win3_1.index t (0 : Fin 2) * 2000 + 1 * (p : Nat) = r.val; rw [e0, hr]; omega
  | ⟨1, _⟩ => show win3_1.index t (1 : Fin 2) * 64 + 1 * (k : Nat) = k.val; rw [e1]; omega

/-- The first aggregate's block at point `t`: its row `p` is row `2000 t + p` of the array. -/
theorem block2_rows (c : Dev nD) (t : Fin cfg3.N) (p : Fin 2000) (k : Fin 64) (r : Fin 100000)
    (hr : r.val = 2000 * t.val + p.val) :
    (iblk3 V c 2 t : Vec Ideal S2000x64 .f32) (ix2 p k) = (V c main_v25 : S100000x64.Idx → EReal) (ix2 r k) := by
  obtain ⟨-, -, ⟨e0, e1⟩, -⟩ := index_facts t
  unfold iblk3
  rw [View.read_apply]
  show V c main_v25 _ = V c main_v25 _
  congr 1
  funext a
  apply Fin.ext
  match a with
  | ⟨0, _⟩ => show win3_2.index t (0 : Fin 2) * 2000 + 1 * (p : Nat) = r.val; rw [e0, hr]; omega
  | ⟨1, _⟩ => show win3_2.index t (1 : Fin 2) * 64 + 1 * (k : Nat) = k.val; rw [e1]; omega

/-- The second aggregate's block at point `t`: its row `p` is row `2000 t + p` of the array. -/
theorem block3_rows (c : Dev nD) (t : Fin cfg3.N) (p : Fin 2000) (k : Fin 64) (r : Fin 100000)
    (hr : r.val = 2000 * t.val + p.val) :
    (iblk3 V c 3 t : Vec Ideal S2000x64 .f32) (ix2 p k) = (V c main_v45 : S100000x64.Idx → EReal) (ix2 r k) := by
  obtain ⟨-, -, -, ⟨e0, e1⟩, -⟩ := index_facts t
  unfold iblk3
  rw [View.read_apply]
  show V c main_v45 _ = V c main_v45 _
  congr 1
  funext a
  apply Fin.ext
  match a with
  | ⟨0, _⟩ => show win3_3.index t (0 : Fin 2) * 2000 + 1 * (p : Nat) = r.val; rw [e0, hr]; omega
  | ⟨1, _⟩ => show win3_3.index t (1 : Fin 2) * 64 + 1 * (k : Nat) = k.val; rw [e1]; omega

/-- The first matrix's one block is the matrix, at every point. -/
theorem block4_whole (c : Dev nD) (t : Fin cfg3.N) :
    (iblk3 V c 4 t : Vec Ideal S64x64 .f32) = (V c main_arg14 : S64x64.Idx → EReal) := by
  obtain ⟨-, -, -, -, ⟨e0, e1⟩, -⟩ := index_facts t
  funext j
  unfold iblk3
  rw [View.read_apply]
  show V c main_arg14 _ = V c main_arg14 j
  congr 1
  funext a
  apply Fin.ext
  match a with
  | ⟨0, _⟩ => show win3_4.index t (0 : Fin 2) * 64 + 1 * (j 0 : Nat) = (j 0).val; rw [e0]; omega
  | ⟨1, _⟩ => show win3_4.index t (1 : Fin 2) * 64 + 1 * (j 1 : Nat) = (j 1).val; rw [e1]; omega

/-- The second matrix's one block is the matrix, at every point. -/
theorem block5_whole (c : Dev nD) (t : Fin cfg3.N) :
    (iblk3 V c 5 t : Vec Ideal S64x64 .f32) = (V c main_arg15 : S64x64.Idx → EReal) := by
  obtain ⟨-, -, -, -, -, ⟨e0, e1⟩, -⟩ := index_facts t
  funext j
  unfold iblk3
  rw [View.read_apply]
  show V c main_arg15 _ = V c main_arg15 j
  congr 1
  funext a
  apply Fin.ext
  match a with
  | ⟨0, _⟩ => show win3_5.index t (0 : Fin 2) * 64 + 1 * (j 0 : Nat) = (j 0).val; rw [e0]; omega
  | ⟨1, _⟩ => show win3_5.index t (1 : Fin 2) * 64 + 1 * (j 1 : Nat) = (j 1).val; rw [e1]; omega

/-! ## What a point writes, and the array the region leaves -/

/-- The result: `combine` of the six arrays as the region finds them. -/
abbrev result (c : Dev nD) : S5x100000x64.Idx → EReal :=
  Cert.Spec.combine (V c main_v1_0 : S100000x64.Idx → EReal) (V c main_v1_1 : S100000x64.Idx → EReal)
    (V c main_v25 : S100000x64.Idx → EReal) (V c main_v45 : S100000x64.Idx → EReal)
    (V c main_arg14 : S64x64.Idx → EReal) (V c main_arg15 : S64x64.Idx → EReal)

/-- Row `p` of point `t`'s blocks is row `2000 t + p` of the arrays. -/
def rowOf (t : Fin cfg3.N) (p : Fin 2000) : Fin 100000 :=
  ⟨2000 * t.val + p.val, by have ht : t.val < 50 := lt_of_lt_of_eq t.isLt points; have := p.isLt; omega⟩

/-- Entry `j` of what the body leaves at point `t` is the result's entry at the same slab and column and at row
    `2000 t + (j's row)`. -/
theorem written_entry (c : Dev nD) (t : Fin cfg3.N) (j : S5x2000x64.Idx) (i : S5x100000x64.Idx)
    (h0 : (i 0).val = (j 0).val) (h1 : (i 1).val = 2000 * t.val + (j 1).val) (h2 : (i 2).val = (j 2).val) :
    out3_6 (iblk3 V c 0 t) (iblk3 V c 1 t) (iblk3 V c 2 t) (iblk3 V c 3 t) (iblk3 V c 4 t) (iblk3 V c 5 t) j
      = result V c i := by
  obtain ⟨s, p, q, rfl⟩ : ∃ (s : Fin 5) (p : Fin 2000) (q : Fin 64), j = ix3 s p q := ⟨j 0, j 1, j 2, eq_ix3 j⟩
  have hi : i = ix3 s (rowOf t p) q := by
    funext a
    apply Fin.ext
    match a with
    | ⟨0, _⟩ => exact h0
    | ⟨1, _⟩ => exact h1
    | ⟨2, _⟩ => exact h2
  rw [hi]
  refine (block_entry (iblk3 V c 0 t) (iblk3 V c 1 t) (iblk3 V c 2 t) (iblk3 V c 3 t) (iblk3 V c 4 t) (iblk3 V c 5 t)
    s p q).trans ?_
  rw [block4_whole V c t, block5_whole V c t]
  exact combine_rows (V c main_v1_0 : S100000x64.Idx → EReal) (V c main_v1_1 : S100000x64.Idx → EReal)
    (V c main_v25 : S100000x64.Idx → EReal) (V c main_v45 : S100000x64.Idx → EReal)
    (iblk3 V c 0 t) (iblk3 V c 1 t) (iblk3 V c 2 t) (iblk3 V c 3 t)
    (V c main_arg14 : S64x64.Idx → EReal) (V c main_arg15 : S64x64.Idx → EReal) (rowOf t)
    (fun p k => block0_rows V c t p k (rowOf t p) rfl) (fun p k => block1_rows V c t p k (rowOf t p) rfl)
    (fun p k => block2_rows V c t p k (rowOf t p) rfl) (fun p k => block3_rows V c t p k (rowOf t p) rfl) s p q

/-- WHAT POINT `t` WRITES BACK is block `t` of the result. -/
theorem written_block (c : Dev nD) (t : Fin cfg3.N) :
    (dat3 (F := Ideal) V c).flushed 6 t = ((cfg3.win 6).blk t).view.read (Elt Ideal) (result V c) := by
  show (cfg3.win 6).cut (grid3.coords t) ((dat3 (F := Ideal) V c).after 6 t) = _
  rw [after3_6]
  obtain ⟨-, -, -, -, -, -, e0, e1, e2⟩ := index_facts t
  funext j
  rw [View.read_apply]
  refine written_entry V c t j (((cfg3.win 6).blk t).view.emb j) ?_ ?_ ?_
  · show win3_6.index t (0 : Fin 3) * 5 + 1 * (j 0).val = (j 0).val; rw [e0]; omega
  · show win3_6.index t (1 : Fin 3) * 2000 + 1 * (j 1).val = 2000 * t.val + (j 1).val; rw [e1]; omega
  · show win3_6.index t (2 : Fin 3) * 64 + 1 * (j 2).val = (j 2).val; rw [e2]; omega

/-- An index of the result is in point `t`'s block iff each coordinate is in the block's range on its axis. -/
theorem mem_block (t : Fin cfg3.N) (i : S5x100000x64.Idx) :
    i ∈ ((cfg3.win 6).blk t).view.set ↔ ∀ a : Fin 3, win3_6.index t a * S5x2000x64.size a ≤ (i a).val
      ∧ (i a).val < win3_6.index t a * S5x2000x64.size a + S5x2000x64.size a := by
  show i ∈ ((View.whole main_v46).slice (win3_6.rect t)).set ↔ _
  rw [View.set_slice_whole, Rect.mem_set_unit]
  exact Iff.rfl

/-- Row `r` of the result lies in the block of point `r / 2000`: the 50 blocks cover the array. -/
theorem rows_covered (i : S5x100000x64.Idx) :
    ∃ t : Fin cfg3.N, (cfg3.win 6).flush t = true ∧ i ∈ ((cfg3.win 6).blk t).view.set := by
  have b0 : (i 0).val < 5 := (i 0).isLt
  have b1 : (i 1).val < 100000 := (i 1).isLt
  have b2 : (i 2).val < 64 := (i 2).isLt
  have hN : (i 1).val / 2000 < cfg3.N := by rw [points]; omega
  obtain ⟨-, -, -, -, -, -, e0, e1, e2⟩ := index_facts ⟨(i 1).val / 2000, hN⟩
  refine ⟨⟨(i 1).val / 2000, hN⟩, flush3_6 _, ?_⟩
  rw [mem_block]
  intro a
  match a with
  | ⟨0, _⟩ =>
    show win3_6.index ⟨(i 1).val / 2000, hN⟩ (0 : Fin 3) * 5 ≤ (i 0).val
      ∧ (i 0).val < win3_6.index ⟨(i 1).val / 2000, hN⟩ (0 : Fin 3) * 5 + 5
    rw [e0]; omega
  | ⟨1, _⟩ =>
    show win3_6.index ⟨(i 1).val / 2000, hN⟩ (1 : Fin 3) * 2000 ≤ (i 1).val
      ∧ (i 1).val < win3_6.index ⟨(i 1).val / 2000, hN⟩ (1 : Fin 3) * 2000 + 2000
    rw [e1]; show (i 1).val / 2000 * 2000 ≤ (i 1).val ∧ (i 1).val < (i 1).val / 2000 * 2000 + 2000; omega
  | ⟨2, _⟩ =>
    show win3_6.index ⟨(i 1).val / 2000, hN⟩ (2 : Fin 3) * 64 ≤ (i 2).val
      ∧ (i 2).val < win3_6.index ⟨(i 1).val / 2000, hN⟩ (2 : Fin 3) * 64 + 64
    rw [e2]; omega

/-- THE ARRAY the region leaves in its output window: `combine` of the six arrays it found. -/
theorem final3_6 (c : Dev nD) :
    (dat3 (F := Ideal) V c).arrAt 6 cfg3.N
      = Cert.Spec.combine (V c main_v1_0 : S100000x64.Idx → EReal) (V c main_v1_1 : S100000x64.Idx → EReal)
          (V c main_v25 : S100000x64.Idx → EReal) (V c main_v45 : S100000x64.Idx → EReal)
          (V c main_arg14 : S64x64.Idx → EReal) (V c main_arg15 : S64x64.Idx → EReal) :=
  (dat3 (F := Ideal) V c).arrAt_eq_of_cover 6 (result V c) (fun t _ => written_block V c t) rows_covered

end Cert.KernelIdeal.CombineValue

end
-- ==== Proof.RefTerm.lean ====
/-
  The reference's result as one composed term of its sixteen argument arrays, stage by stage and in the operations' own
  spelling: three dense layers with ELU (the target and the masked features share the first), two degree-normalised
  neighbour means, their projections by `A0` and `A1`, and the five stacked views.
-/
import proofs.«129680_j37512244363667_1_alg».proof.ReferenceIdeal

noncomputable section

namespace Cert.ReferenceIdeal.Term

open Cert.ReferenceIdeal Idealize.ShloMosaic Idealize.SL.Sem
open Cert.ReferenceIdeal.Facts₀ Cert.ReferenceIdeal.Facts

variable {F : FTy → Type} [FloatOps F] [Facts]

/-- `jax.nn.elu` on an `[100000, 64]` array, in the operations' own order: `y` where `y > 0`, and elsewhere `1 · expm1` of `y` (of `0` where
    `y > 0`: that branch is never selected). -/
def elu100000 (y : FVec F S100000x64 .f32) : FVec F S100000x64 .f32 :=
  select (cmpf .ogt y (broadcastInDim S100000x64 ![] bcast_S_S100000x64 (constant (F := F) S_ .f32 0x00000000#32))) y
    (mulf (broadcastInDim S100000x64 ![] bcast_S_S100000x64 (constant (F := F) S_ .f32 0x3F800000#32))
      (Host.expm1 (select (cmpf .ogt y (broadcastInDim S100000x64 ![] bcast_S_S100000x64 (constant (F := F) S_ .f32 0x00000000#32)))
        (broadcastInDim S100000x64 ![] bcast_S_S100000x64 (id (constant (F := F) S_ .f32 0x00000000#32))) y)))

/-- A dense layer on `100000` rows followed by ELU: the matrix product, the bias made a row and repeated down the rows. -/
def dense100000 (X : FVec F S100000x128 .f32) (W : FVec F S128x64 .f32) (b : FVec F S64 .f32) : FVec F S100000x64 .f32 :=
  elu100000 (addf (Host.dotGeneral dot_S100000x128_S128x64_S100000x64_1_0_0_1_n_n none X W)
    (broadcastInDim S100000x64 ![0, 1] bcast_S1x64_S100000x64_0_1 (broadcastInDim S1x64 ![1] bcast_S64_S1x64_1 b)))

/-- `jax.nn.elu` on an `[60000, 64]` array, in the operations' own order: `y` where `y > 0`, and elsewhere `1 · expm1` of `y` (of `0` where
    `y > 0`: that branch is never selected). -/
def elu60000 (y : FVec F S60000x64 .f32) : FVec F S60000x64 .f32 :=
  select (cmpf .ogt y (broadcastInDim S60000x64 ![] bcast_S_S60000x64 (constant (F := F) S_ .f32 0x00000000#32))) y
    (mulf (broadcastInDim S60000x64 ![] bcast_S_S60000x64 (constant (F := F) S_ .f32 0x3F800000#32))
      (Host.expm1 (select (cmpf .ogt y (broadcastInDim S60000x64 ![] bcast_S_S60000x64 (constant (F := F) S_ .f32 0x00000000#32)))
        (broadcastInDim S60000x64 ![] bcast_S_S60000x64 (id (constant (F := F) S_ .f32 0x00000000#32))) y)))

/-- A dense layer on `60000` rows followed by ELU: the matrix product, the bias made a row and repeated down the rows. -/
def dense60000 (X : FVec F S60000x128 .f32) (W : FVec F S128x64 .f32) (b : FVec F S64 .f32) : FVec F S60000x64 .f32 :=
  elu60000 (addf (Host.dotGeneral dot_S60000x128_S128x64_S60000x64_1_0_0_1_n_n none X W)
    (broadcastInDim S60000x64 ![0, 1] bcast_S1x64_S60000x64_0_1 (broadcastInDim S1x64 ![1] bcast_S64_S1x64_1 b)))

/-- `jax.nn.elu` on an `[30000, 64]` array, in the operations' own order: `y` where `y > 0`, and elsewhere `1 · expm1` of `y` (of `0` where
    `y > 0`: that branch is never selected). -/
def elu30000 (y : FVec F S30000x64 .f32) : FVec F S30000x64 .f32 :=
  select (cmpf .ogt y (broadcastInDim S30000x64 ![] bcast_S_S30000x64 (constant (F := F) S_ .f32 0x00000000#32))) y
    (mulf (broadcastInDim S30000x64 ![] bcast_S_S30000x64 (constant (F := F) S_ .f32 0x3F800000#32))
      (Host.expm1 (select (cmpf .ogt y (broadcastInDim S30000x64 ![] bcast_S_S30000x64 (constant (F := F) S_ .f32 0x00000000#32)))
        (broadcastInDim S30000x64 ![] bcast_S_S30000x64 (id (constant (F := F) S_ .f32 0x00000000#32))) y)))

/-- A dense layer on `30000` rows followed by ELU: the matrix product, the bias made a row and repeated down the rows. -/
def dense30000 (X : FVec F S30000x128 .f32) (W : FVec F S128x64 .f32) (b : FVec F S64 .f32) : FVec F S30000x64 .f32 :=
  elu30000 (addf (Host.dotGeneral dot_S30000x128_S128x64_S30000x64_1_0_0_1_n_n none X W)
    (broadcastInDim S30000x64 ![0, 1] bcast_S1x64_S30000x64_0_1 (broadcastInDim S1x64 ![1] bcast_S64_S1x64_1 b)))

/-- The degree-normalised neighbour mean over the `60000` source rows: gather the rows named by `dst` (a negative index wrapped by
    `60000`), add each into the row named by `src`, and divide by the number of edges into that row (by one where there is none). -/
def meanAgg60000 (h : FVec F S60000x64 .f32) (src dst : IVec S1600000 32) : FVec F S100000x64 .f32 :=
  Host.divf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 src)
      (Host.gather gather_S60000x64_S1600000x1_S1600000x64_1_0_n_n_0_1_164 h
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 60000#32))) dst))))
    (broadcastInDim S100000x64 ![0, 1] bcast_S100000x1_S100000x64_0_1
      (broadcastInDim S100000x1 ![0] bcast_S100000_S100000x1_0
        (select
          (cmpf .ogt
            (Host.scatterAdd scatter_S100000_S1600000x1_S1600000_n_0_0_1
              (broadcastInDim S100000 ![] bcast_S_S100000 (constant (F := F) S_ .f32 0x00000000#32))
              (broadcastInDim S1600000x1 ![0] bcast_S1600000_S1600000x1_0 src)
              (broadcastInDim S1600000 ![] bcast_S_S1600000 (constant (F := F) S_ .f32 0x3F800000#32)))
            (broadcastInDim S100000 ![] bcast_S_S100000 (constant (F := F) S_ .f32 0x00000000#32)))
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 src)
            (broadcastInDim S1600000 ![] bcast_S_S1600000 (constant (F := F) S_ .f32 0x3F800000#32)))
          (broadcastInDim S100000 ![] bcast_S_S100000 (id (constant (F := F) S_ .f32 0x3F800000#32))))))

/-- The degree-normalised neighbour mean over the `30000` source rows: gather the rows named by `dst` (a negative index wrapped by
    `30000`), add each into the row named by `src`, and divide by the number of edges into that row (by one where there is none). -/
def meanAgg30000 (h : FVec F S30000x64 .f32) (src dst : IVec S1600000 32) : FVec F S100000x64 .f32 :=
  Host.divf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 src)
      (Host.gather gather_S30000x64_S1600000x1_S1600000x64_1_0_n_n_0_1_164 h
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 30000#32))) dst))))
    (broadcastInDim S100000x64 ![0, 1] bcast_S100000x1_S100000x64_0_1
      (broadcastInDim S100000x1 ![0] bcast_S100000_S100000x1_0
        (select
          (cmpf .ogt
            (Host.scatterAdd scatter_S100000_S1600000x1_S1600000_n_0_0_1
              (broadcastInDim S100000 ![] bcast_S_S100000 (constant (F := F) S_ .f32 0x00000000#32))
              (broadcastInDim S1600000x1 ![0] bcast_S1600000_S1600000x1_0 src)
              (broadcastInDim S1600000 ![] bcast_S_S1600000 (constant (F := F) S_ .f32 0x3F800000#32)))
            (broadcastInDim S100000 ![] bcast_S_S100000 (constant (F := F) S_ .f32 0x00000000#32)))
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 src)
            (broadcastInDim S1600000 ![] bcast_S_S1600000 (constant (F := F) S_ .f32 0x3F800000#32)))
          (broadcastInDim S100000 ![] bcast_S_S100000 (id (constant (F := F) S_ .f32 0x3F800000#32))))))

/-- A `[100000, 64]` matrix as the one slab of a `[1, 100000, 64]` array. -/
def slab (x : FVec F S100000x64 .f32) : FVec F S1x100000x64 .f32 :=
  broadcastInDim S1x100000x64 ![1, 2] bcast_S100000x64_S1x100000x64_1_2 x

/-- The five views stacked along a new leading axis, from the two embeddings and the two projected aggregates. -/
def stack (hTar hMask g1 g2 : FVec F S100000x64 .f32) : FVec F S5x100000x64 .f32 :=
  concatenate S5x100000x64 0
    [⟨S1x100000x64, slab (elu100000 (addf hTar g1))⟩, ⟨S1x100000x64, slab (elu100000 (addf hMask g1))⟩,
     ⟨S1x100000x64, slab (elu100000 (addf hTar g2))⟩, ⟨S1x100000x64, slab (elu100000 (addf hMask g2))⟩,
     ⟨S1x100000x64, slab hTar⟩]
    concatenates_S1x100000x64_S1x100000x64_S1x100000x64_S1x100000x64_S1x100000x64_S5x100000x64_d0

/-- The reference's result, from its arguments in order: the three feature arrays and the masked one, the two edge lists
    (`src`, `dst` each), the three weight and bias pairs, the two projections. -/
def out (feats0 : FVec F S100000x128 .f32) (feats1 : FVec F S60000x128 .f32) (feats2 : FVec F S30000x128 .f32)
    (maskFeat : FVec F S100000x128 .f32) (src1 dst1 src2 dst2 : IVec S1600000 32)
    (W0 : FVec F S128x64 .f32) (b0 : FVec F S64 .f32) (W1 : FVec F S128x64 .f32) (b1 : FVec F S64 .f32)
    (W2 : FVec F S128x64 .f32) (b2 : FVec F S64 .f32) (A0 A1 : FVec F S64x64 .f32) : FVec F S5x100000x64 .f32 :=
  stack (dense100000 feats0 W0 b0) (dense100000 maskFeat W0 b0)
    (Host.dotGeneral dot_S100000x64_S64x64_S100000x64_1_0_0_1_n_n none (meanAgg60000 (dense60000 feats1 W1 b1) src1 dst1) A0)
    (Host.dotGeneral dot_S100000x64_S64x64_S100000x64_1_0_0_1_n_n none (meanAgg30000 (dense30000 feats2 W2 b2) src2 dst2) A1)

end Cert.ReferenceIdeal.Term

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.RefRead.lean ====
/-
  The reference's stage terms are the specification, entry by entry: `jax.nn.elu`'s composition is ELU (`expm1 y = e^y - 1`,
  the factor one, and a guarded argument that only matters where the outer select takes `y` itself), a dense layer is a
  row against a column plus the bias, and the five stacked slabs are the five views.
-/
import proofs.«129680_j37512244363667_1_alg».proof.Proof.RefTerm
import proofs.«129680_j37512244363667_1_alg».proof.Proof.Spec
import proofs.«129680_j37512244363667_1_alg».proof.Proof.LibHostProduct
import proofs.«129680_j37512244363667_1_alg».proof.Proof.LibHostLayout
import Idealize.ShloMosaic.Lib.Pipeline.Value

noncomputable section

namespace Cert.ReferenceIdeal.RefRead

open Cert.ReferenceIdeal Idealize.ShloMosaic Idealize.ShloMosaic.ValueIdx
open Cert.ReferenceIdeal.Facts₀ Cert.ReferenceIdeal.Facts

variable [Facts]

/-- ELU in the reference's spelling: above zero both selects take `y`; at and below it the inner select hands `y` to
    `expm1`, and the factor one changes nothing. -/
theorem elu_host (y : EReal) :
    Scalar.select (FloatOps.cmpf (F := Ideal) .ogt y (Ideal.ofBits .f32 0x00000000#32)) y
      (Ideal.ofBits .f32 0x3F800000#32 *
        FloatOps.hostUnary (F := Ideal) .expm1
          (Scalar.select (FloatOps.cmpf (F := Ideal) .ogt y (Ideal.ofBits .f32 0x00000000#32))
            (Ideal.ofBits .f32 0x00000000#32) y)) = Cert.Spec.elu y := by
  rw [Ideal.ofBits_zero_f32, Cert.Spec.ofBits_one_f32, Ideal.cmpf_def]
  unfold Cert.Spec.elu
  rcases BitVec.eq_zero_or_eq_one (Ideal.cmp .ogt y 0) with h | h
  · rw [h, ValueIdx.select_zero, ValueIdx.select_zero, ValueIdx.select_zero, one_mul]; rfl
  · rw [h, ValueIdx.select_one, ValueIdx.select_one]

/-- `jax.nn.elu`'s composition on an `[100000, 64]` array is ELU at every entry. -/
theorem elu100000_apply (y : FVec Ideal S100000x64 .f32) (i : S100000x64.Idx) : Term.elu100000 y i = Cert.Spec.elu (y i) := by
  unfold Term.elu100000
  simp only [ValueIdx.select_apply, ValueIdx.cmpf_apply, ValueIdx.mulf_apply, Host.expm1,
    Cert.HostLayout.broadcastInDim_scalar_apply, ValueIdx.constant_apply, id]
  exact elu_host (y i)

/-- The reference's dense layer on `100000` rows is the specification's, for any one-row spelling `bR` of the bias. -/
theorem dense100000_eq (X : FVec Ideal S100000x128 .f32) (W : FVec Ideal S128x64 .f32) (b : FVec Ideal S64 .f32)
    (bR : S1x64.Idx → EReal) (hb : ∀ q : Fin 64, bR (ix2 0 q) = b (ix1 q)) :
    Term.dense100000 X W b = Cert.Spec.dense (n := 100000) X W bR := by
  funext i
  obtain ⟨p, q, rfl⟩ : ∃ (p : Fin 100000) (q : Fin 64), i = ix2 p q := ⟨i 0, i 1, eq_ix2 i⟩
  unfold Term.dense100000
  rw [elu100000_apply]
  unfold Cert.Spec.dense
  refine congrArg Cert.Spec.elu ?_
  rw [ValueIdx.addf_apply,
    Cert.HostProduct.dotGeneral_entry dot_S100000x128_S128x64_S100000x64_1_0_0_1_n_n rfl rfl (fun _ _ => rfl) (fun _ _ => rfl)
      (fun _ _ => rfl) (fun _ _ => rfl) X W p q,
    Cert.HostLayout.broadcastInDim_1b_ab_apply, Cert.HostLayout.broadcastInDim_b_1b_apply, hb]

/-- `jax.nn.elu`'s composition on an `[60000, 64]` array is ELU at every entry. -/
theorem elu60000_apply (y : FVec Ideal S60000x64 .f32) (i : S60000x64.Idx) : Term.elu60000 y i = Cert.Spec.elu (y i) := by
  unfold Term.elu60000
  simp only [ValueIdx.select_apply, ValueIdx.cmpf_apply, ValueIdx.mulf_apply, Host.expm1,
    Cert.HostLayout.broadcastInDim_scalar_apply, ValueIdx.constant_apply, id]
  exact elu_host (y i)

/-- The reference's dense layer on `60000` rows is the specification's, for any one-row spelling `bR` of the bias. -/
theorem dense60000_eq (X : FVec Ideal S60000x128 .f32) (W : FVec Ideal S128x64 .f32) (b : FVec Ideal S64 .f32)
    (bR : S1x64.Idx → EReal) (hb : ∀ q : Fin 64, bR (ix2 0 q) = b (ix1 q)) :
    Term.dense60000 X W b = Cert.Spec.dense (n := 60000) X W bR := by
  funext i
  obtain ⟨p, q, rfl⟩ : ∃ (p : Fin 60000) (q : Fin 64), i = ix2 p q := ⟨i 0, i 1, eq_ix2 i⟩
  unfold Term.dense60000
  rw [elu60000_apply]
  unfold Cert.Spec.dense
  refine congrArg Cert.Spec.elu ?_
  rw [ValueIdx.addf_apply,
    Cert.HostProduct.dotGeneral_entry dot_S60000x128_S128x64_S60000x64_1_0_0_1_n_n rfl rfl (fun _ _ => rfl) (fun _ _ => rfl)
      (fun _ _ => rfl) (fun _ _ => rfl) X W p q,
    Cert.HostLayout.broadcastInDim_1b_ab_apply, Cert.HostLayout.broadcastInDim_b_1b_apply, hb]

/-- `jax.nn.elu`'s composition on an `[30000, 64]` array is ELU at every entry. -/
theorem elu30000_apply (y : FVec Ideal S30000x64 .f32) (i : S30000x64.Idx) : Term.elu30000 y i = Cert.Spec.elu (y i) := by
  unfold Term.elu30000
  simp only [ValueIdx.select_apply, ValueIdx.cmpf_apply, ValueIdx.mulf_apply, Host.expm1,
    Cert.HostLayout.broadcastInDim_scalar_apply, ValueIdx.constant_apply, id]
  exact elu_host (y i)

/-- The reference's dense layer on `30000` rows is the specification's, for any one-row spelling `bR` of the bias. -/
theorem dense30000_eq (X : FVec Ideal S30000x128 .f32) (W : FVec Ideal S128x64 .f32) (b : FVec Ideal S64 .f32)
    (bR : S1x64.Idx → EReal) (hb : ∀ q : Fin 64, bR (ix2 0 q) = b (ix1 q)) :
    Term.dense30000 X W b = Cert.Spec.dense (n := 30000) X W bR := by
  funext i
  obtain ⟨p, q, rfl⟩ : ∃ (p : Fin 30000) (q : Fin 64), i = ix2 p q := ⟨i 0, i 1, eq_ix2 i⟩
  unfold Term.dense30000
  rw [elu30000_apply]
  unfold Cert.Spec.dense
  refine congrArg Cert.Spec.elu ?_
  rw [ValueIdx.addf_apply,
    Cert.HostProduct.dotGeneral_entry dot_S30000x128_S128x64_S30000x64_1_0_0_1_n_n rfl rfl (fun _ _ => rfl) (fun _ _ => rfl)
      (fun _ _ => rfl) (fun _ _ => rfl) X W p q,
    Cert.HostLayout.broadcastInDim_1b_ab_apply, Cert.HostLayout.broadcastInDim_b_1b_apply, hb]

/-- A `[100000, 64]` matrix made the one slab of a `[1, 100000, 64]` array reads, at `(0, p, q)`, the matrix at `(p, q)`. -/
theorem slab_apply (x : FVec Ideal S100000x64 .f32) (u : Fin 1) (p : Fin 100000) (q : Fin 64) :
    Term.slab x (ix3 u p q) = x (ix2 p q) := by
  unfold Term.slab
  refine broadcastInDim_apply _ _ x (ix3 u p q) (ix2 p q) fun ax => ?_
  match ax with
  | ⟨0, _⟩ =>
    show p.val = if (100000 : ℕ) = 1 then 0 else p.val
    rw [if_neg (by decide)]
  | ⟨1, _⟩ =>
    show q.val = if (64 : ℕ) = 1 then 0 else q.val
    rw [if_neg (by decide)]

/-- The five stacked slabs at `(s, p, q)`: slab `s`'s view at `(p, q)`. -/
theorem stack_apply (hT hM g1 g2 : FVec Ideal S100000x64 .f32) (s : Fin 5) (p : Fin 100000) (q : Fin 64) :
    Term.stack hT hM g1 g2 (ix3 s p q) =
      if s.val = 0 then Cert.Spec.elu (hT (ix2 p q) + g1 (ix2 p q))
      else if s.val = 1 then Cert.Spec.elu (hM (ix2 p q) + g1 (ix2 p q))
      else if s.val = 2 then Cert.Spec.elu (hT (ix2 p q) + g2 (ix2 p q))
      else if s.val = 3 then Cert.Spec.elu (hM (ix2 p q) + g2 (ix2 p q))
      else hT (ix2 p q) := by
  unfold Term.stack
  match s with
  | ⟨0, hs⟩ =>
    refine Eq.trans (concatenate_apply_piece (0 : Fin 3) _ _ (ix3 (⟨0, hs⟩ : Fin 5) p q) 0 (by simp) S1x100000x64 _ rfl rfl 0 rfl
      (ix3 (0 : Fin 1) p q) (fun b hb => ?_) rfl) ?_
    · match b with
      | ⟨0, _⟩ => exact absurd rfl hb
      | ⟨1, _⟩ => rfl
      | ⟨2, _⟩ => rfl
    · rw [slab_apply]; rw [elu100000_apply, ValueIdx.addf_apply]; rfl
  | ⟨1, hs⟩ =>
    refine Eq.trans (concatenate_apply_piece (0 : Fin 3) _ _ (ix3 (⟨1, hs⟩ : Fin 5) p q) 1 (by simp) S1x100000x64 _ rfl rfl 1 rfl
      (ix3 (0 : Fin 1) p q) (fun b hb => ?_) rfl) ?_
    · match b with
      | ⟨0, _⟩ => exact absurd rfl hb
      | ⟨1, _⟩ => rfl
      | ⟨2, _⟩ => rfl
    · rw [slab_apply]; rw [elu100000_apply, ValueIdx.addf_apply]; rfl
  | ⟨2, hs⟩ =>
    refine Eq.trans (concatenate_apply_piece (0 : Fin 3) _ _ (ix3 (⟨2, hs⟩ : Fin 5) p q) 2 (by simp) S1x100000x64 _ rfl rfl 2 rfl
      (ix3 (0 : Fin 1) p q) (fun b hb => ?_) rfl) ?_
    · match b with
      | ⟨0, _⟩ => exact absurd rfl hb
      | ⟨1, _⟩ => rfl
      | ⟨2, _⟩ => rfl
    · rw [slab_apply]; rw [elu100000_apply, ValueIdx.addf_apply]; rfl
  | ⟨3, hs⟩ =>
    refine Eq.trans (concatenate_apply_piece (0 : Fin 3) _ _ (ix3 (⟨3, hs⟩ : Fin 5) p q) 3 (by simp) S1x100000x64 _ rfl rfl 3 rfl
      (ix3 (0 : Fin 1) p q) (fun b hb => ?_) rfl) ?_
    · match b with
      | ⟨0, _⟩ => exact absurd rfl hb
      | ⟨1, _⟩ => rfl
      | ⟨2, _⟩ => rfl
    · rw [slab_apply]; rw [elu100000_apply, ValueIdx.addf_apply]; rfl
  | ⟨4, hs⟩ =>
    refine Eq.trans (concatenate_apply_piece (0 : Fin 3) _ _ (ix3 (⟨4, hs⟩ : Fin 5) p q) 4 (by simp) S1x100000x64 _ rfl rfl 4 rfl
      (ix3 (0 : Fin 1) p q) (fun b hb => ?_) rfl) ?_
    · match b with
      | ⟨0, _⟩ => exact absurd rfl hb
      | ⟨1, _⟩ => rfl
      | ⟨2, _⟩ => rfl
    · rw [slab_apply]; rfl

/-- The stacked views over the two projected aggregates are the specification's `combine`. -/
theorem stack_eq (hT hM a1 a2 : FVec Ideal S100000x64 .f32) (A0 A1 : FVec Ideal S64x64 .f32) :
    Term.stack hT hM (Host.dotGeneral dot_S100000x64_S64x64_S100000x64_1_0_0_1_n_n none a1 A0)
        (Host.dotGeneral dot_S100000x64_S64x64_S100000x64_1_0_0_1_n_n none a2 A1)
      = Cert.Spec.combine (n := 100000) hT hM a1 a2 A0 A1 := by
  funext i
  obtain ⟨s, p, q, rfl⟩ : ∃ (s : Fin 5) (p : Fin 100000) (q : Fin 64), i = ix3 s p q := ⟨i 0, i 1, i 2, eq_ix3 i⟩
  rw [stack_apply]
  unfold Cert.Spec.combine Cert.Spec.proj
  rw [Cert.HostProduct.dotGeneral_entry dot_S100000x64_S64x64_S100000x64_1_0_0_1_n_n rfl rfl (fun _ _ => rfl) (fun _ _ => rfl)
      (fun _ _ => rfl) (fun _ _ => rfl) a1 A0 p q,
    Cert.HostProduct.dotGeneral_entry dot_S100000x64_S64x64_S100000x64_1_0_0_1_n_n rfl rfl (fun _ _ => rfl) (fun _ _ => rfl)
      (fun _ _ => rfl) (fun _ _ => rfl) a2 A1 p q]

end Cert.ReferenceIdeal.RefRead

end
-- ==== Proof.Bridge.lean ====
/-
  The bridge: both programs compute ONE function of the sixteen arguments, `result`.
  On the kernel side the last region's output array is `combine` of the buffers the region finds (the blocks-to-array
  theorem of that region), and those buffers are, walking the segment boundaries back: the first region's two dense
  embeddings, the two neighbour means the host computes from the second and third regions' dense embeddings, and the two
  projection matrices as launched. On the reference side the composed term is `combine` and `dense` by reading each stage
  at an entry; the neighbour means are the same host operations in both programs and are never opened.
-/
import proofs.«129680_j37512244363667_1_alg».proof.Proof.KChain
import proofs.«129680_j37512244363667_1_alg».proof.Proof.DenseValue
import proofs.«129680_j37512244363667_1_alg».proof.Proof.CombineValue
import proofs.«129680_j37512244363667_1_alg».proof.Proof.RefRead
import proofs.«129680_j37512244363667_1_alg».proof.Proof.Gen.ReferenceIdeal
import Idealize.ShloMosaic.Lib.ValueLayout

set_option maxRecDepth 16384

noncomputable section

namespace Cert.Bridge

open Cert.KernelIdeal Cert.KernelIdeal.Gen Idealize.ShloMosaic Idealize.ShloMosaic.TcCoe Idealize.ShloMosaic.ValueIdx Idealize.SL.Sem

/-- The result array as ONE function of the sixteen arguments: the five stacked views over the dense embeddings and the
    two projected neighbour means. -/
def result (feats0 : S100000x128.Idx → EReal) (feats1 : S60000x128.Idx → EReal) (feats2 : S30000x128.Idx → EReal)
    (maskFeat : S100000x128.Idx → EReal) (src1 dst1 src2 dst2 : IVec S1600000 32)
    (W0 : S128x64.Idx → EReal) (b0 : S64.Idx → EReal) (W1 : S128x64.Idx → EReal) (b1 : S64.Idx → EReal)
    (W2 : S128x64.Idx → EReal) (b2 : S64.Idx → EReal) (A0 A1 : S64x64.Idx → EReal) : S5x100000x64.Idx → EReal :=
  Cert.Spec.combine (n := 100000)
    (Cert.Spec.dense (n := 100000) feats0 W0 (Term.biasRow (F := Ideal) b0))
    (Cert.Spec.dense (n := 100000) maskFeat W0 (Term.biasRow (F := Ideal) b0))
    (Term.meanAgg60000 (F := Ideal) (Cert.Spec.dense (n := 60000) feats1 W1 (Term.biasRow (F := Ideal) b1)) src1 dst1)
    (Term.meanAgg30000 (F := Ideal) (Cert.Spec.dense (n := 30000) feats2 W2 (Term.biasRow (F := Ideal) b2)) src2 dst2)
    A0 A1

variable (m : (ℓ : Loc nD τ sig) → Buf (Elt Ideal) ℓ) (ρ : Dev nD → PrngReg) (c : Dev nD)

/-- The target embedding, as the last region finds it. -/
theorem hTar_eq : (W11 m ρ c (Proc.devRef .tc main_v1_0) : S100000x64.Idx → EReal)
    = Cert.Spec.dense (n := 100000) (m ((c : Thread nD τ).loc main_arg0)) (m ((c : Thread nD τ).loc main_arg8)) (Term.biasRow (F := Ideal) (m ((c : Thread nD τ).loc main_arg9))) := by
  rw [KChain.W11_main_v1_0_W2, show W2 m ρ c (Proc.devRef .tc main_v1_0) = _ from W2_arr m ρ c 4,
    DenseValue.final0_4 (V1 m ρ) c]
  show Cert.Spec.dense (W1 m ρ c (Proc.devRef .tc main_arg0)) (W1 m ρ c (Proc.devRef .tc main_arg8))
    (W1 m ρ c (Proc.devRef .tc main_v0)) = _
  rw [KChain.W1_main_arg0_W0, KChain.W1_main_arg8_W0, KChain.W1_main_v0]

/-- The masked embedding, as the last region finds it. -/
theorem hMask_eq : (W11 m ρ c (Proc.devRef .tc main_v1_1) : S100000x64.Idx → EReal)
    = Cert.Spec.dense (n := 100000) (m ((c : Thread nD τ).loc main_arg3)) (m ((c : Thread nD τ).loc main_arg8)) (Term.biasRow (F := Ideal) (m ((c : Thread nD τ).loc main_arg9))) := by
  rw [KChain.W11_main_v1_1_W2, show W2 m ρ c (Proc.devRef .tc main_v1_1) = _ from W2_arr m ρ c 5,
    DenseValue.final0_5 (V1 m ρ) c]
  show Cert.Spec.dense (W1 m ρ c (Proc.devRef .tc main_arg3)) (W1 m ρ c (Proc.devRef .tc main_arg8))
    (W1 m ρ c (Proc.devRef .tc main_v0)) = _
  rw [KChain.W1_main_arg3_W0, KChain.W1_main_arg8_W0, KChain.W1_main_v0]

/-- The first neighbour embedding: the second region's output. -/
theorem hNei1_eq : (W4 m ρ c (Proc.devRef .tc main_v3) : S60000x64.Idx → EReal)
    = Cert.Spec.dense (n := 60000) (m ((c : Thread nD τ).loc main_arg1)) (m ((c : Thread nD τ).loc main_arg10)) (Term.biasRow (F := Ideal) (m ((c : Thread nD τ).loc main_arg11))) := by
  rw [show W4 m ρ c (Proc.devRef .tc main_v3) = _ from W4_arr m ρ c 3, DenseValue.final1_3 (V3 m ρ) c]
  show Cert.Spec.dense (W3 m ρ c (Proc.devRef .tc main_arg1)) (W3 m ρ c (Proc.devRef .tc main_arg10))
    (W3 m ρ c (Proc.devRef .tc main_v2)) = _
  rw [KChain.W3_main_arg1_W0, KChain.W3_main_arg10_W0, KChain.W3_main_v2]

/-- The second neighbour embedding: the third region's output. -/
theorem hNei2_eq : (W6 m ρ c (Proc.devRef .tc main_v5) : S30000x64.Idx → EReal)
    = Cert.Spec.dense (n := 30000) (m ((c : Thread nD τ).loc main_arg2)) (m ((c : Thread nD τ).loc main_arg12)) (Term.biasRow (F := Ideal) (m ((c : Thread nD τ).loc main_arg13))) := by
  rw [show W6 m ρ c (Proc.devRef .tc main_v5) = _ from W6_arr m ρ c 3, DenseValue.final2_3 (V5 m ρ) c]
  show Cert.Spec.dense (W5 m ρ c (Proc.devRef .tc main_arg2)) (W5 m ρ c (Proc.devRef .tc main_arg12))
    (W5 m ρ c (Proc.devRef .tc main_v4)) = _
  rw [KChain.W5_main_arg2_W0, KChain.W5_main_arg12_W0, KChain.W5_main_v4]

/-- The first aggregate, as the last region finds it. -/
theorem agg1_eq : (W11 m ρ c (Proc.devRef .tc main_v25) : S100000x64.Idx → EReal)
    = Term.meanAgg60000 (F := Ideal)
        (Cert.Spec.dense (n := 60000) (m ((c : Thread nD τ).loc main_arg1)) (m ((c : Thread nD τ).loc main_arg10)) (Term.biasRow (F := Ideal) (m ((c : Thread nD τ).loc main_arg11)))) (m ((c : Thread nD τ).loc main_arg4)) (m ((c : Thread nD τ).loc main_arg5)) := by
  rw [KChain.W11_main_v25_W9, KChain.W9_main_v25, KChain.W6_main_v3_W4, hNei1_eq, KChain.W6_main_arg4_W0,
    KChain.W6_main_arg5_W0]

/-- The second aggregate, as the last region finds it. -/
theorem agg2_eq : (W11 m ρ c (Proc.devRef .tc main_v45) : S100000x64.Idx → EReal)
    = Term.meanAgg30000 (F := Ideal)
        (Cert.Spec.dense (n := 30000) (m ((c : Thread nD τ).loc main_arg2)) (m ((c : Thread nD τ).loc main_arg12)) (Term.biasRow (F := Ideal) (m ((c : Thread nD τ).loc main_arg13)))) (m ((c : Thread nD τ).loc main_arg6)) (m ((c : Thread nD τ).loc main_arg7)) := by
  rw [KChain.W11_main_v45, hNei2_eq, KChain.W6_main_arg6_W0, KChain.W6_main_arg7_W0]

/-- What the idealized kernel program leaves in its result buffer: `result` of the launch contents of its arguments. -/
theorem kernel_value : (W12 m ρ c (Proc.devRef .tc main_v46) : S5x100000x64.Idx → EReal)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [show W12 m ρ c (Proc.devRef .tc main_v46) = _ from W12_arr m ρ c 6, CombineValue.final3_6 (V11 m ρ) c]
  show Cert.Spec.combine (W11 m ρ c (Proc.devRef .tc main_v1_0)) (W11 m ρ c (Proc.devRef .tc main_v1_1))
    (W11 m ρ c (Proc.devRef .tc main_v25)) (W11 m ρ c (Proc.devRef .tc main_v45))
    (W11 m ρ c (Proc.devRef .tc main_arg14)) (W11 m ρ c (Proc.devRef .tc main_arg15)) = _
  rw [hTar_eq, hMask_eq, agg1_eq, agg2_eq, KChain.W11_main_arg14_W0, KChain.W11_main_arg15_W0]
  rfl

end Cert.Bridge

namespace Cert.Bridge

open Idealize.ShloMosaic Idealize.ShloMosaic.ValueIdx

/-- A bias made a one-row matrix reads, at `(0, q)`, the bias at `q`. -/
theorem biasRow_apply (b : Cert.KernelIdeal.S64.Idx → EReal) (q : Fin 64) :
    Cert.KernelIdeal.Term.biasRow (F := Ideal) b (ix2 0 q) = b (ix1 q) :=
  shapeCast_a_1a_apply b _ 0 q

/-- The neighbour mean is spelt by the same operations in both programs. -/
theorem meanAgg60000_eq (h : Cert.ReferenceIdeal.S60000x64.Idx → EReal) (src dst : IVec Cert.ReferenceIdeal.S1600000 32) :
    Cert.ReferenceIdeal.Term.meanAgg60000 (F := Ideal) h src dst = Cert.KernelIdeal.Term.meanAgg60000 (F := Ideal) h src dst := rfl

theorem meanAgg30000_eq (h : Cert.ReferenceIdeal.S30000x64.Idx → EReal) (src dst : IVec Cert.ReferenceIdeal.S1600000 32) :
    Cert.ReferenceIdeal.Term.meanAgg30000 (F := Ideal) h src dst = Cert.KernelIdeal.Term.meanAgg30000 (F := Ideal) h src dst := rfl

/-- The reference's composed result is `result` of its arguments: each dense layer and the stack by the specification,
    the neighbour means as they stand. -/
theorem ref_value (a0 : Cert.ReferenceIdeal.S100000x128.Idx → EReal) (a1 : Cert.ReferenceIdeal.S60000x128.Idx → EReal)
    (a2 : Cert.ReferenceIdeal.S30000x128.Idx → EReal) (a3 : Cert.ReferenceIdeal.S100000x128.Idx → EReal)
    (a4 a5 a6 a7 : IVec Cert.ReferenceIdeal.S1600000 32)
    (a8 : Cert.ReferenceIdeal.S128x64.Idx → EReal) (a9 : Cert.ReferenceIdeal.S64.Idx → EReal)
    (a10 : Cert.ReferenceIdeal.S128x64.Idx → EReal) (a11 : Cert.ReferenceIdeal.S64.Idx → EReal)
    (a12 : Cert.ReferenceIdeal.S128x64.Idx → EReal) (a13 : Cert.ReferenceIdeal.S64.Idx → EReal)
    (a14 a15 : Cert.ReferenceIdeal.S64x64.Idx → EReal) :
    Cert.ReferenceIdeal.Term.out (F := Ideal) a0 a1 a2 a3 a4 a5 a6 a7 a8 a9 a10 a11 a12 a13 a14 a15
      = result a0 a1 a2 a3 a4 a5 a6 a7 a8 a9 a10 a11 a12 a13 a14 a15 := by
  unfold Cert.ReferenceIdeal.Term.out result
  rw [Cert.ReferenceIdeal.RefRead.stack_eq,
    Cert.ReferenceIdeal.RefRead.dense100000_eq a0 a8 a9 _ (biasRow_apply a9),
    Cert.ReferenceIdeal.RefRead.dense100000_eq a3 a8 a9 _ (biasRow_apply a9),
    Cert.ReferenceIdeal.RefRead.dense60000_eq a1 a10 a11 _ (biasRow_apply a11),
    Cert.ReferenceIdeal.RefRead.dense30000_eq a2 a12 a13 _ (biasRow_apply a13),
    meanAgg60000_eq, meanAgg30000_eq]

end Cert.Bridge

end
-- ==== Proof.RefOps.lean ====
/-
  The reference program as a straight line. Its 206 host operations, in order, once every outlined function is written
  out at its call: four dense layers (a matrix product, the bias made a row and repeated down the rows, the sum, then
  ELU's fifteen operations), two degree-normalised neighbour means (thirty operations each, the guarded divisor's three
  among them), four more ELUs of sums, five slabs and their concatenation. The program equals that line, and every
  operation of it touches TensorCore buffers only.
-/
import proofs.«129680_j37512244363667_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 206 operations, in order, every call written out over its own buffers. -/
abbrev ops : List (HloOp τ sig (Elt F)) :=
  [ StableHlo.binary main_arg0 main_arg8 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v3 : StableHlo.TRef sig ⟨S100000x64, .f32⟩) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v3 : StableHlo.TRef sig ⟨S100000x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v3 : StableHlo.TRef sig ⟨S100000x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v3 : StableHlo.TRef sig ⟨S100000x64, .f32⟩) main_call0.v7 main_call0.call1.v0 select,
    StableHlo.binary main_arg3 main_arg8 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S100000x64 ![0, 1] bcast_S1x64_S100000x64_0_1 : (⟨S1x64, .f32⟩ : BufTy).Contents (Elt F) → (⟨S100000x64, .f32⟩ : BufTy).Contents (Elt F)),
    StableHlo.binary main_v5 main_v7 main_v8 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v8 : StableHlo.TRef sig ⟨S100000x64, .f32⟩) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v8 : StableHlo.TRef sig ⟨S100000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v8 : StableHlo.TRef sig ⟨S100000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v8 : StableHlo.TRef sig ⟨S100000x64, .f32⟩) main_call1.v7 main_call1.call1.v0 select,
    StableHlo.binary main_arg1 main_arg10 main_v10 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    StableHlo.unary main_arg11 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S60000x64 ![0, 1] bcast_S1x64_S60000x64_0_1 : (⟨S1x64, .f32⟩ : BufTy).Contents (Elt F) → (⟨S60000x64, .f32⟩ : BufTy).Contents (Elt F)),
    StableHlo.binary main_v10 main_v12 main_v13 (addf : (⟨S60000x64, .f32⟩ : BufTy).Contents (Elt F) → (⟨S60000x64, .f32⟩ : BufTy).Contents (Elt F) → (⟨S60000x64, .f32⟩ : BufTy).Contents (Elt F)),
    StableHlo.TRef.nullary main_call2.cst (constant S_ .f32 0x00000000#32),
    StableHlo.TRef.unary main_call2.cst main_call2.v0 (broadcastInDim S60000x64 ![] bcast_S_S60000x64),
    StableHlo.TRef.binary (.of main_v13 : StableHlo.TRef sig ⟨S60000x64, .f32⟩) main_call2.v0 main_call2.v1 (cmpf .ogt),
    StableHlo.TRef.nullary main_call2.cst_0 (constant S_ .f32 0x00000000#32),
    StableHlo.TRef.unary main_call2.cst_0 main_call2.v2 (broadcastInDim S60000x64 ![] bcast_S_S60000x64),
    StableHlo.TRef.binary (.of main_v13 : StableHlo.TRef sig ⟨S60000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S60000x64 ![] bcast_S_S60000x64),
    StableHlo.TRef.ternary main_call2.v3 main_call2.call0.v1 (.of main_v13 : StableHlo.TRef sig ⟨S60000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S60000x64 ![] bcast_S_S60000x64),
    StableHlo.TRef.binary main_call2.v6 main_call2.v5 main_call2.v7 mulf,
    StableHlo.TRef.ternary main_call2.v1 (.of main_v13 : StableHlo.TRef sig ⟨S60000x64, .f32⟩) main_call2.v7 main_call2.call1.v0 select,
    StableHlo.binary main_arg2 main_arg12 main_v15 ((fun l r => Host.dotGeneral dot_S30000x128_S128x64_S30000x64_1_0_0_1_n_n none l r) : (⟨S30000x128, .f32⟩ : BufTy).Contents (Elt F) → (⟨S128x64, .f32⟩ : BufTy).Contents (Elt F) → (⟨S30000x64, .f32⟩ : BufTy).Contents (Elt F)),
    StableHlo.unary main_arg13 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S30000x64 ![0, 1] bcast_S1x64_S30000x64_0_1 : (⟨S1x64, .f32⟩ : BufTy).Contents (Elt F) → (⟨S30000x64, .f32⟩ : BufTy).Contents (Elt F)),
    StableHlo.binary main_v15 main_v17 main_v18 (addf : (⟨S30000x64, .f32⟩ : BufTy).Contents (Elt F) → (⟨S30000x64, .f32⟩ : BufTy).Contents (Elt F) → (⟨S30000x64, .f32⟩ : BufTy).Contents (Elt F)),
    StableHlo.TRef.nullary main_call3.cst (constant S_ .f32 0x00000000#32),
    StableHlo.TRef.unary main_call3.cst main_call3.v0 (broadcastInDim S30000x64 ![] bcast_S_S30000x64),
    StableHlo.TRef.binary (.of main_v18 : StableHlo.TRef sig ⟨S30000x64, .f32⟩) main_call3.v0 main_call3.v1 (cmpf .ogt),
    StableHlo.TRef.nullary main_call3.cst_0 (constant S_ .f32 0x00000000#32),
    StableHlo.TRef.unary main_call3.cst_0 main_call3.v2 (broadcastInDim S30000x64 ![] bcast_S_S30000x64),
    StableHlo.TRef.binary (.of main_v18 : StableHlo.TRef sig ⟨S30000x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S30000x64 ![] bcast_S_S30000x64),
    StableHlo.TRef.ternary main_call3.v3 main_call3.call0.v1 (.of main_v18 : StableHlo.TRef sig ⟨S30000x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S30000x64 ![] bcast_S_S30000x64),
    StableHlo.TRef.binary main_call3.v6 main_call3.v5 main_call3.v7 mulf,
    StableHlo.TRef.ternary main_call3.v1 (.of main_v18 : StableHlo.TRef sig ⟨S30000x64, .f32⟩) main_call3.v7 main_call3.call1.v0 select,
    StableHlo.nullary main_c (constantI S_ 32 0#32),
    StableHlo.unary main_c main_v20 (broadcastInDim S1600000 ![] bcast_S_S1600000 : (⟨S_, .i32⟩ : BufTy).Contents (Elt F) → (⟨S1600000, .i32⟩ : BufTy).Contents (Elt F)),
    StableHlo.binary main_arg5 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 60000#32),
    StableHlo.unary main_c_0 main_v22 (broadcastInDim S1600000 ![] bcast_S_S1600000 : (⟨S_, .i32⟩ : BufTy).Contents (Elt F) → (⟨S1600000, .i32⟩ : BufTy).Contents (Elt F)),
    StableHlo.binary main_arg5 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_arg5 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v14 main_v25 main_v26 ((fun x i => Host.gather gather_S60000x64_S1600000x1_S1600000x64_1_0_n_n_0_1_164 x i) : (⟨S60000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v27 (broadcastInDim S100000x64 ![] bcast_S_S100000x64 : (⟨S_, .f32⟩ : BufTy).Contents (Elt F) → (⟨S100000x64, .f32⟩ : BufTy).Contents (Elt F)),
    StableHlo.unary main_arg4 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v30 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v31 (broadcastInDim S100000 ![] bcast_S_S100000 : (⟨S_, .f32⟩ : BufTy).Contents (Elt F) → (⟨S100000, .f32⟩ : BufTy).Contents (Elt F)),
    StableHlo.unary main_arg4 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x00000000#32),
    StableHlo.unary main_cst_3 main_v34 (broadcastInDim S100000 ![] bcast_S_S100000 : (⟨S_, .f32⟩ : BufTy).Contents (Elt F) → (⟨S100000, .f32⟩ : BufTy).Contents (Elt F)),
    StableHlo.binary main_v33 main_v34 main_v35 (cmpf .ogt : (⟨S100000, .f32⟩ : BufTy).Contents (Elt F) → (⟨S100000, .f32⟩ : BufTy).Contents (Elt F) → (⟨S100000, .i1⟩ : BufTy).Contents (Elt F)),
    StableHlo.nullary main_cst_4 (constant S_ .f32 0x3F800000#32),
    StableHlo.TRef.unary (.of main_cst_4 : StableHlo.TRef sig ⟨S_, .f32⟩) main_call4.v0 id,
    StableHlo.TRef.unary main_call4.v0 main_call4.v1 (broadcastInDim S100000 ![] bcast_S_S100000),
    StableHlo.TRef.ternary (.of main_v35 : StableHlo.TRef sig ⟨S100000, .i1⟩) (.of main_v33 : StableHlo.TRef sig ⟨S100000, .f32⟩) main_call4.v1 main_call4.v2 select,
    StableHlo.unary main_v36 main_v37 (broadcastInDim S100000x1 ![0] bcast_S100000_S100000x1_0 : (⟨S100000, .f32⟩ : BufTy).Contents (Elt F) → (⟨S100000x1, .f32⟩ : BufTy).Contents (Elt F)),
    StableHlo.unary main_v37 main_v38 (broadcastInDim S100000x64 ![0, 1] bcast_S100000x1_S100000x64_0_1 : (⟨S100000x1, .f32⟩ : BufTy).Contents (Elt F) → (⟨S100000x64, .f32⟩ : BufTy).Contents (Elt F)),
    StableHlo.binary main_v29 main_v38 main_v39 (Host.divf : (⟨S100000x64, .f32⟩ : BufTy).Contents (Elt F) → (⟨S100000x64, .f32⟩ : BufTy).Contents (Elt F) → (⟨S100000x64, .f32⟩ : BufTy).Contents (Elt F)),
    StableHlo.binary main_v39 main_arg14 main_v40 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_5 (constantI S_ 32 0#32),
    StableHlo.unary main_c_5 main_v41 (broadcastInDim S1600000 ![] bcast_S_S1600000 : (⟨S_, .i32⟩ : BufTy).Contents (Elt F) → (⟨S1600000, .i32⟩ : BufTy).Contents (Elt F)),
    StableHlo.binary main_arg7 main_v41 main_v42 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 30000#32),
    StableHlo.unary main_c_6 main_v43 (broadcastInDim S1600000 ![] bcast_S_S1600000 : (⟨S_, .i32⟩ : BufTy).Contents (Elt F) → (⟨S1600000, .i32⟩ : BufTy).Contents (Elt F)),
    StableHlo.binary main_arg7 main_v43 main_v44 (addi : (⟨S1600000, .i32⟩ : BufTy).Contents (Elt F) → (⟨S1600000, .i32⟩ : BufTy).Contents (Elt F) → (⟨S1600000, .i32⟩ : BufTy).Contents (Elt F)),
    StableHlo.ternary main_v42 main_v44 main_arg7 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v45 main_v46 (broadcastInDim S1600000x1 ![0] bcast_S1600000_S1600000x1_0 : (⟨S1600000, .i32⟩ : BufTy).Contents (Elt F) → (⟨S1600000x1, .i32⟩ : BufTy).Contents (Elt F)),
    StableHlo.binary main_v19 main_v46 main_v47 ((fun x i => Host.gather gather_S30000x64_S1600000x1_S1600000x64_1_0_n_n_0_1_164 x i) : (⟨S30000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v48 (broadcastInDim S100000x64 ![] bcast_S_S100000x64 : (⟨S_, .f32⟩ : BufTy).Contents (Elt F) → (⟨S100000x64, .f32⟩ : BufTy).Contents (Elt F)),
    StableHlo.unary main_arg6 main_v49 (broadcastInDim S1600000x1 ![0] bcast_S1600000_S1600000x1_0 : (⟨S1600000, .i32⟩ : BufTy).Contents (Elt F) → (⟨S1600000x1, .i32⟩ : BufTy).Contents (Elt F)),
    StableHlo.ternary main_v48 main_v49 main_v47 main_v50 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_8 (constant S_ .f32 0x3F800000#32),
    StableHlo.unary main_cst_8 main_v51 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v52 (broadcastInDim S100000 ![] bcast_S_S100000 : (⟨S_, .f32⟩ : BufTy).Contents (Elt F) → (⟨S100000, .f32⟩ : BufTy).Contents (Elt F)),
    StableHlo.unary main_arg6 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_10 (constant S_ .f32 0x00000000#32),
    StableHlo.unary main_cst_10 main_v55 (broadcastInDim S100000 ![] bcast_S_S100000 : (⟨S_, .f32⟩ : BufTy).Contents (Elt F) → (⟨S100000, .f32⟩ : BufTy).Contents (Elt F)),
    StableHlo.binary main_v54 main_v55 main_v56 (cmpf .ogt : (⟨S100000, .f32⟩ : BufTy).Contents (Elt F) → (⟨S100000, .f32⟩ : BufTy).Contents (Elt F) → (⟨S100000, .i1⟩ : BufTy).Contents (Elt F)),
    StableHlo.nullary main_cst_11 (constant S_ .f32 0x3F800000#32),
    StableHlo.TRef.unary (.of main_cst_11 : StableHlo.TRef sig ⟨S_, .f32⟩) main_call5.v0 id,
    StableHlo.TRef.unary main_call5.v0 main_call5.v1 (broadcastInDim S100000 ![] bcast_S_S100000),
    StableHlo.TRef.ternary (.of main_v56 : StableHlo.TRef sig ⟨S100000, .i1⟩) (.of main_v54 : StableHlo.TRef sig ⟨S100000, .f32⟩) main_call5.v1 main_call5.v2 select,
    StableHlo.unary main_v57 main_v58 (broadcastInDim S100000x1 ![0] bcast_S100000_S100000x1_0 : (⟨S100000, .f32⟩ : BufTy).Contents (Elt F) → (⟨S100000x1, .f32⟩ : BufTy).Contents (Elt F)),
    StableHlo.unary main_v58 main_v59 (broadcastInDim S100000x64 ![0, 1] bcast_S100000x1_S100000x64_0_1 : (⟨S100000x1, .f32⟩ : BufTy).Contents (Elt F) → (⟨S100000x64, .f32⟩ : BufTy).Contents (Elt F)),
    StableHlo.binary main_v50 main_v59 main_v60 (Host.divf : (⟨S100000x64, .f32⟩ : BufTy).Contents (Elt F) → (⟨S100000x64, .f32⟩ : BufTy).Contents (Elt F) → (⟨S100000x64, .f32⟩ : BufTy).Contents (Elt F)),
    StableHlo.binary main_v60 main_arg15 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v4 main_v40 main_v62 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v62 : StableHlo.TRef sig ⟨S100000x64, .f32⟩) main_call6.v0 main_call6.v1 (cmpf .ogt),
    StableHlo.TRef.nullary main_call6.cst_0 (constant S_ .f32 0x00000000#32),
    StableHlo.TRef.unary main_call6.cst_0 main_call6.v2 (broadcastInDim S100000x64 ![] bcast_S_S100000x64),
    StableHlo.TRef.binary (.of main_v62 : StableHlo.TRef sig ⟨S100000x64, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S100000x64 ![] bcast_S_S100000x64),
    StableHlo.TRef.ternary main_call6.v3 main_call6.call0.v1 (.of main_v62 : StableHlo.TRef sig ⟨S100000x64, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S100000x64 ![] bcast_S_S100000x64),
    StableHlo.TRef.binary main_call6.v6 main_call6.v5 main_call6.v7 mulf,
    StableHlo.TRef.ternary main_call6.v1 (.of main_v62 : StableHlo.TRef sig ⟨S100000x64, .f32⟩) main_call6.v7 main_call6.call1.v0 select,
    StableHlo.binary main_v9 main_v40 main_v64 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v64 : StableHlo.TRef sig ⟨S100000x64, .f32⟩) main_call7.v0 main_call7.v1 (cmpf .ogt),
    StableHlo.TRef.nullary main_call7.cst_0 (constant S_ .f32 0x00000000#32),
    StableHlo.TRef.unary main_call7.cst_0 main_call7.v2 (broadcastInDim S100000x64 ![] bcast_S_S100000x64),
    StableHlo.TRef.binary (.of main_v64 : StableHlo.TRef sig ⟨S100000x64, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x64 ![] bcast_S_S100000x64),
    StableHlo.TRef.ternary main_call7.v3 main_call7.call0.v1 (.of main_v64 : StableHlo.TRef sig ⟨S100000x64, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x64 ![] bcast_S_S100000x64),
    StableHlo.TRef.binary main_call7.v6 main_call7.v5 main_call7.v7 mulf,
    StableHlo.TRef.ternary main_call7.v1 (.of main_v64 : StableHlo.TRef sig ⟨S100000x64, .f32⟩) main_call7.v7 main_call7.call1.v0 select,
    StableHlo.binary main_v4 main_v61 main_v66 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v66 : StableHlo.TRef sig ⟨S100000x64, .f32⟩) main_call8.v0 main_call8.v1 (cmpf .ogt),
    StableHlo.TRef.nullary main_call8.cst_0 (constant S_ .f32 0x00000000#32),
    StableHlo.TRef.unary main_call8.cst_0 main_call8.v2 (broadcastInDim S100000x64 ![] bcast_S_S100000x64),
    StableHlo.TRef.binary (.of main_v66 : StableHlo.TRef sig ⟨S100000x64, .f32⟩) main_call8.v2 main_call8.v3 (cmpf .ogt),
    StableHlo.TRef.nullary main_call8.cst_1 (constant S_ .f32 0x00000000#32),
    StableHlo.TRef.unary main_call8.cst_1 main_call8.call0.v0 id,
    StableHlo.TRef.unary main_call8.call0.v0 main_call8.call0.v1 (broadcastInDim S100000x64 ![] bcast_S_S100000x64),
    StableHlo.TRef.ternary main_call8.v3 main_call8.call0.v1 (.of main_v66 : StableHlo.TRef sig ⟨S100000x64, .f32⟩) main_call8.call0.v2 select,
    StableHlo.TRef.unary main_call8.call0.v2 main_call8.v5 Host.expm1,
    StableHlo.TRef.nullary main_call8.cst_2 (constant S_ .f32 0x3F800000#32),
    StableHlo.TRef.unary main_call8.cst_2 main_call8.v6 (broadcastInDim S100000x64 ![] bcast_S_S100000x64),
    StableHlo.TRef.binary main_call8.v6 main_call8.v5 main_call8.v7 mulf,
    StableHlo.TRef.ternary main_call8.v1 (.of main_v66 : StableHlo.TRef sig ⟨S100000x64, .f32⟩) main_call8.v7 main_call8.call1.v0 select,
    StableHlo.binary main_v9 main_v61 main_v68 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v68 : StableHlo.TRef sig ⟨S100000x64, .f32⟩) main_call9.v0 main_call9.v1 (cmpf .ogt),
    StableHlo.TRef.nullary main_call9.cst_0 (constant S_ .f32 0x00000000#32),
    StableHlo.TRef.unary main_call9.cst_0 main_call9.v2 (broadcastInDim S100000x64 ![] bcast_S_S100000x64),
    StableHlo.TRef.binary (.of main_v68 : StableHlo.TRef sig ⟨S100000x64, .f32⟩) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x64 ![] bcast_S_S100000x64),
    StableHlo.TRef.ternary main_call9.v3 main_call9.call0.v1 (.of main_v68 : StableHlo.TRef sig ⟨S100000x64, .f32⟩) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x64 ![] bcast_S_S100000x64),
    StableHlo.TRef.binary main_call9.v6 main_call9.v5 main_call9.v7 mulf,
    StableHlo.TRef.ternary main_call9.v1 (.of main_v68 : StableHlo.TRef sig ⟨S100000x64, .f32⟩) main_call9.v7 main_call9.call1.v0 select,
    StableHlo.unary main_v63 main_v70 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v65 main_v71 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v67 main_v72 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v69 main_v73 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v4 main_v74 (broadcastInDim S1x100000x64 ![1, 2] bcast_S100000x64_S1x100000x64_1_2 : (⟨S100000x64, .f32⟩ : BufTy).Contents (Elt F) → (⟨S1x100000x64, .f32⟩ : BufTy).Contents (Elt F)),
    StableHlo.nary ![main_v70, main_v71, main_v72, main_v73, main_v74] main_v75 (fun u => concatenate S5x100000x64 0 [⟨S1x100000x64, u 0⟩, ⟨S1x100000x64, u 1⟩, ⟨S1x100000x64, u 2⟩, ⟨S1x100000x64, u 3⟩, ⟨S1x100000x64, u 4⟩] concatenates_S1x100000x64_S1x100000x64_S1x100000x64_S1x100000x64_S1x100000x64_S5x100000x64_d0) ]

-- two hundred and six binds re-associated: the rewrite under the chain recurses once per statement
set_option maxRecDepth 8192 in
set_option maxHeartbeats 4000000 in
/-- The program is that straight line: the functions' definitions unfolded at their calls, both sides are one chain of
    operation steps once sequencing is re-associated. -/
theorem main_eq (c : Dev nD) : main (F := F) c = seq ops := by
  simp only [main, main_part0, main_part1, fn_elu.body, fn_where.body, fn_where_0.body, fn_elu_1.body, fn_where_2.body, fn_where_3.body, fn_elu_4.body, fn_where_5.body, fn_where_6.body, fn_where_7.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., unary_bufs_sub .., unary_bufs_sub .., unary_bufs_sub ..,
    unary_bufs_sub .., nary_bufs_sub ..⟩

end Cert.ReferenceIdeal.RefRun

end
-- ==== Proof.LibFoldSplit.lean ====
/-
  Two general facts about a straight line of host operations, for reading such a line back a stretch at a time.

  * `after_append`, `after_take_drop`: the contents after a list of operations is the contents after its tail from the
    contents after its head — so a long line can be cut at any position, the first part read once, and the second part read
    over the first part's buffers as opaque arrays.
  * `ofBuf_toBuf`: an operation of an outlined function is stated over typed references, whose contents are moved to the
    buffer's own type and back along the reference's type equation; a value moved there and back is the value. Unlike a
    rewrite that must recognise each move as the identity, this cancels the pair as it stands, whatever the buffer's
    position in the signature.
-/
import Idealize.ShloMosaic.Lib.StableHlo.Run

noncomputable section

namespace Cert.FoldSplit

open Idealize.ShloMosaic Idealize.ShloMosaic.StableHlo

variable {τ : Topo} {sig : RefSig} {Val : EltTy → Type}

/-- The contents after two lists of operations run one after the other: the second list's, from the first's. -/
theorem after_append (l1 l2 : List (HloOp τ sig Val)) (V : Valuation τ sig Val) :
    after (l1 ++ l2) V = after l2 (after l1 V) := by
  induction l1 generalizing V with
  | nil => rfl
  | cons op l ih => exact ih _

/-- A list of operations cut at position `n`: its first `n` operations, then the rest from what they leave. -/
theorem after_take_drop (n : ℕ) (l : List (HloOp τ sig Val)) (V : Valuation τ sig Val) :
    after l V = after (l.drop n) (after (l.take n) V) :=
  (congrArg (fun k => after k V) (List.take_append_drop n l).symm).trans (after_append _ _ _)

/-- Contents moved to a typed reference's own buffer type and back are the contents. -/
theorem ofBuf_toBuf {T : BufTy} (x : TRef sig T) (v : T.Contents Val) : x.ofBuf (x.toBuf v) = v := by
  obtain ⟨r, h, h1, h2⟩ := x
  subst h
  rfl

end Cert.FoldSplit

end
-- ==== Proof.RefRun.lean ====
/-
  The run of the reference program read back: every weakly fair execution terminates with the result buffer at the
  composed term of the sixteen argument arrays and the arguments unchanged.

  The result is a concatenation of five slabs. The last operation leaves the result buffer at the concatenation of what
  the five slab buffers hold; a concatenation depends only on its pieces, so the claim splits into five, one per slab,
  and each slab buffer is read back through the 205 operations before it: an operation's result at its own buffer is
  its function of its operands' contents, at any other buffer what was there. An outlined function's operations move
  contents to a buffer's own type and back along the buffer's type equation; a pair of such moves cancels, and a single
  one is the identity at a literal buffer, so what is left is the stage functions' composition by unfolding.

  An argument buffer is written by no operation, so it keeps its launch contents.
-/
import proofs.«129680_j37512244363667_1_alg».proof.Proof.RefOps
import Idealize.ShloMosaic.Lib.StableHlo.Run
import proofs.«129680_j37512244363667_1_alg».proof.Proof.LibFoldSplit
import proofs.«129680_j37512244363667_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The concatenation's result: the five slab buffers' contents, each at its own buffer. -/
theorem concat_result (G : Valuation τ sig (Elt F)) :
    (StableHlo.nary ![main_v70, main_v71, main_v72, main_v73, main_v74] main_v75 (fun u => concatenate S5x100000x64 0 [⟨S1x100000x64, u 0⟩, ⟨S1x100000x64, u 1⟩, ⟨S1x100000x64, u 2⟩, ⟨S1x100000x64, u 3⟩, ⟨S1x100000x64, u 4⟩] concatenates_S1x100000x64_S1x100000x64_S1x100000x64_S1x100000x64_S1x100000x64_S5x100000x64_d0)).result G (no_index (Proc.devRef .tc main_v75))
      = concatenate S5x100000x64 0 [⟨S1x100000x64, G (main_v70 : DevRef τ sig)⟩, ⟨S1x100000x64, G (main_v71 : DevRef τ sig)⟩,
          ⟨S1x100000x64, G (main_v72 : DevRef τ sig)⟩, ⟨S1x100000x64, G (main_v73 : DevRef τ sig)⟩, ⟨S1x100000x64, G (main_v74 : DevRef τ sig)⟩]
          concatenates_S1x100000x64_S1x100000x64_S1x100000x64_S1x100000x64_S1x100000x64_S5x100000x64_d0 := by
  rw [nary_result]; rfl

/-- A concatenation of five pieces of one shape depends only on the pieces. -/
theorem concat5_congr {α : Type} (t : Shape) (a : Fin t.rank) (s : Shape) {x₁ x₁' x₂ x₂' x₃ x₃' x₄ x₄' x₅ x₅' : s.Idx → α}
    (h : Shape.Concatenates [s, s, s, s, s] t a) (h₁ : x₁ = x₁') (h₂ : x₂ = x₂') (h₃ : x₃ = x₃') (h₄ : x₄ = x₄') (h₅ : x₅ = x₅') :
    concatenate t a [⟨s, x₁⟩, ⟨s, x₂⟩, ⟨s, x₃⟩, ⟨s, x₄⟩, ⟨s, x₅⟩] h = concatenate t a [⟨s, x₁'⟩, ⟨s, x₂'⟩, ⟨s, x₃'⟩, ⟨s, x₄'⟩, ⟨s, x₅'⟩] h := by
  subst h₁ h₂ h₃ h₄ h₅; rfl

set_option maxRecDepth 65536 in
set_option maxHeartbeats 40000000 in
/-- The result buffer after the line: the composed term of the arguments. The last operation's result is the
    concatenation of the five slab buffers; each slab buffer, read back through the operations before it, is its slab
    of the stage functions' composition. -/
theorem out_eq (V : Valuation τ sig (Elt F)) :
    after ops V (main_v75 : DevRef τ sig)
      = Term.out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig)) := by
  simp (disch := decide) only [after_cons, after_nil, concat_result]
  refine concat5_congr _ _ _ _ ?_ ?_ ?_ ?_ ?_
  · simp (disch := decide) only [nullary_result', unary_result', binary_result', ternary_result',
      nullary_result_ne', unary_result_ne', binary_result_ne', ternary_result_ne']
    simp only [Cert.FoldSplit.ofBuf_toBuf]
    rfl
  · simp (disch := decide) only [nullary_result', unary_result', binary_result', ternary_result',
      nullary_result_ne', unary_result_ne', binary_result_ne', ternary_result_ne']
    simp only [Cert.FoldSplit.ofBuf_toBuf]
    rfl
  · simp (disch := decide) only [nullary_result', unary_result', binary_result', ternary_result',
      nullary_result_ne', unary_result_ne', binary_result_ne', ternary_result_ne']
    simp only [Cert.FoldSplit.ofBuf_toBuf]
    rfl
  · simp (disch := decide) only [nullary_result', unary_result', binary_result', ternary_result',
      nullary_result_ne', unary_result_ne', binary_result_ne', ternary_result_ne']
    simp only [Cert.FoldSplit.ofBuf_toBuf]
    rfl
  · simp (disch := decide) only [nullary_result', unary_result', binary_result', ternary_result',
      nullary_result_ne', unary_result_ne', binary_result_ne', ternary_result_ne']
    simp only [Cert.FoldSplit.ofBuf_toBuf]
    rfl

/-- The buffers the line writes, in order: each operation writes exactly one. -/
abbrev written : List (Ref sig .tc) :=
  [ main_v0, main_v1, main_v2, main_v3, main_call0.cst.ref, main_call0.v0.ref, main_call0.v1.ref, main_call0.cst_0.ref,
    main_call0.v2.ref, main_call0.v3.ref, main_call0.cst_1.ref, main_call0.call0.v0.ref, main_call0.call0.v1.ref, main_call0.call0.v2.ref, main_call0.v5.ref, main_call0.cst_2.ref,
    main_call0.v6.ref, main_call0.v7.ref, main_call0.call1.v0.ref, main_v5, main_v6, main_v7, main_v8, main_call1.cst.ref,
    main_call1.v0.ref, main_call1.v1.ref, main_call1.cst_0.ref, main_call1.v2.ref, main_call1.v3.ref, main_call1.cst_1.ref, main_call1.call0.v0.ref, main_call1.call0.v1.ref,
    main_call1.call0.v2.ref, main_call1.v5.ref, main_call1.cst_2.ref, main_call1.v6.ref, main_call1.v7.ref, main_call1.call1.v0.ref, main_v10, main_v11,
    main_v12, main_v13, main_call2.cst.ref, main_call2.v0.ref, main_call2.v1.ref, main_call2.cst_0.ref, main_call2.v2.ref, main_call2.v3.ref,
    main_call2.cst_1.ref, main_call2.call0.v0.ref, main_call2.call0.v1.ref, main_call2.call0.v2.ref, main_call2.v5.ref, main_call2.cst_2.ref, main_call2.v6.ref, main_call2.v7.ref,
    main_call2.call1.v0.ref, main_v15, main_v16, main_v17, main_v18, main_call3.cst.ref, main_call3.v0.ref, main_call3.v1.ref,
    main_call3.cst_0.ref, main_call3.v2.ref, main_call3.v3.ref, main_call3.cst_1.ref, main_call3.call0.v0.ref, main_call3.call0.v1.ref, main_call3.call0.v2.ref, main_call3.v5.ref,
    main_call3.cst_2.ref, main_call3.v6.ref, main_call3.v7.ref, main_call3.call1.v0.ref, main_c, main_v20, main_v21, main_c_0,
    main_v22, main_v23, main_v24, main_v25, main_v26, main_cst, main_v27, main_v28,
    main_v29, main_cst_1, main_v30, main_cst_2, main_v31, main_v32, main_v33, main_cst_3,
    main_v34, main_v35, main_cst_4, main_call4.v0.ref, main_call4.v1.ref, main_call4.v2.ref, main_v37, main_v38,
    main_v39, main_v40, main_c_5, main_v41, main_v42, main_c_6, main_v43, main_v44,
    main_v45, main_v46, main_v47, main_cst_7, main_v48, main_v49, main_v50, main_cst_8,
    main_v51, main_cst_9, main_v52, main_v53, main_v54, main_cst_10, main_v55, main_v56,
    main_cst_11, main_call5.v0.ref, main_call5.v1.ref, main_call5.v2.ref, main_v58, main_v59, main_v60, main_v61,
    main_v62, main_call6.cst.ref, main_call6.v0.ref, main_call6.v1.ref, main_call6.cst_0.ref, main_call6.v2.ref, main_call6.v3.ref, main_call6.cst_1.ref,
    main_call6.call0.v0.ref, main_call6.call0.v1.ref, main_call6.call0.v2.ref, main_call6.v5.ref, main_call6.cst_2.ref, main_call6.v6.ref, main_call6.v7.ref, main_call6.call1.v0.ref,
    main_v64, main_call7.cst.ref, main_call7.v0.ref, main_call7.v1.ref, main_call7.cst_0.ref, main_call7.v2.ref, main_call7.v3.ref, main_call7.cst_1.ref,
    main_call7.call0.v0.ref, main_call7.call0.v1.ref, main_call7.call0.v2.ref, main_call7.v5.ref, main_call7.cst_2.ref, main_call7.v6.ref, main_call7.v7.ref, main_call7.call1.v0.ref,
    main_v66, main_call8.cst.ref, main_call8.v0.ref, main_call8.v1.ref, main_call8.cst_0.ref, main_call8.v2.ref, main_call8.v3.ref, main_call8.cst_1.ref,
    main_call8.call0.v0.ref, main_call8.call0.v1.ref, main_call8.call0.v2.ref, main_call8.v5.ref, main_call8.cst_2.ref, main_call8.v6.ref, main_call8.v7.ref, main_call8.call1.v0.ref,
    main_v68, main_call9.cst.ref, main_call9.v0.ref, main_call9.v1.ref, main_call9.cst_0.ref, main_call9.v2.ref, main_call9.v3.ref, main_call9.cst_1.ref,
    main_call9.call0.v0.ref, main_call9.call0.v1.ref, main_call9.call0.v2.ref, main_call9.v5.ref, main_call9.cst_2.ref, main_call9.v6.ref, main_call9.v7.ref, main_call9.call1.v0.ref,
    main_v70, main_v71, main_v72, main_v73, main_v74, main_v75 ]

/-- An operation that writes one buffer of a list writes inside the list. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 65536 in
set_option maxHeartbeats 40000000 in
/-- Every operation of the line writes one of the listed buffers. -/
theorem ops_writes : (ops : List (HloOp τ sig (Elt F))).Forall fun op =>
    op.writes ⊆ (written.map (Proc.devRef (τ := τ) .tc)).toFinset :=
  ⟨writes_sub_of_mem (binary_writes ..) (by decide), writes_sub_of_mem (unary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (unary_writes ..) (by decide), writes_sub_of_mem (ternary_writes ..) (by decide), writes_sub_of_mem (unary_writes ..) (by decide),
    writes_sub_of_mem (nullary_writes ..) (by decide), writes_sub_of_mem (unary_writes ..) (by decide), writes_sub_of_mem (binary_writes ..) (by decide),
    writes_sub_of_mem (ternary_writes ..) (by decide), writes_sub_of_mem (binary_writes ..) (by decide), writes_sub_of_mem (unary_writes ..) (by decide),
    writes_sub_of_mem (unary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (unary_writes ..) (by decide), writes_sub_of_mem (ternary_writes ..) (by decide),
    writes_sub_of_mem (unary_writes ..) (by decide), writes_sub_of_mem (nullary_writes ..) (by decide), writes_sub_of_mem (unary_writes ..) (by decide),
    writes_sub_of_mem (binary_writes ..) (by decide), writes_sub_of_mem (ternary_writes ..) (by decide), writes_sub_of_mem (binary_writes ..) (by decide),
    writes_sub_of_mem (unary_writes ..) (by decide), writes_sub_of_mem (unary_writes ..) (by decide), writes_sub_of_mem (binary_writes ..) (by decide),
    writes_sub_of_mem (nullary_writes ..) (by decide), writes_sub_of_mem (unary_writes ..) (by decide), writes_sub_of_mem (binary_writes ..) (by decide),
    writes_sub_of_mem (nullary_writes ..) (by decide), writes_sub_of_mem (unary_writes ..) (by decide), writes_sub_of_mem (binary_writes ..) (by decide),
    writes_sub_of_mem (nullary_writes ..) (by decide), writes_sub_of_mem (unary_writes ..) (by decide), writes_sub_of_mem (unary_writes ..) (by decide),
    writes_sub_of_mem (ternary_writes ..) (by decide), writes_sub_of_mem (unary_writes ..) (by decide), writes_sub_of_mem (nullary_writes ..) (by decide),
    writes_sub_of_mem (unary_writes ..) (by decide), writes_sub_of_mem (binary_writes ..) (by decide), writes_sub_of_mem (ternary_writes ..) (by decide),
    writes_sub_of_mem (binary_writes ..) (by decide), writes_sub_of_mem (unary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (unary_writes ..) (by decide), writes_sub_of_mem (ternary_writes ..) (by decide), writes_sub_of_mem (unary_writes ..) (by decide),
    writes_sub_of_mem (nullary_writes ..) (by decide), writes_sub_of_mem (unary_writes ..) (by decide), writes_sub_of_mem (binary_writes ..) (by decide),
    writes_sub_of_mem (ternary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (ternary_writes ..) (by decide), writes_sub_of_mem (unary_writes ..) (by decide),
    writes_sub_of_mem (binary_writes ..) (by decide), writes_sub_of_mem (nullary_writes ..) (by decide), writes_sub_of_mem (unary_writes ..) (by decide),
    writes_sub_of_mem (unary_writes ..) (by decide), writes_sub_of_mem (ternary_writes ..) (by decide), writes_sub_of_mem (nullary_writes ..) (by decide),
    writes_sub_of_mem (unary_writes ..) (by decide), writes_sub_of_mem (nullary_writes ..) (by decide), writes_sub_of_mem (unary_writes ..) (by decide),
    writes_sub_of_mem (unary_writes ..) (by decide), writes_sub_of_mem (ternary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (unary_writes ..) (by decide), writes_sub_of_mem (ternary_writes ..) (by decide),
    writes_sub_of_mem (unary_writes ..) (by decide), writes_sub_of_mem (unary_writes ..) (by decide), writes_sub_of_mem (binary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (ternary_writes ..) (by decide), writes_sub_of_mem (unary_writes ..) (by decide),
    writes_sub_of_mem (binary_writes ..) (by decide), writes_sub_of_mem (nullary_writes ..) (by decide), writes_sub_of_mem (unary_writes ..) (by decide),
    writes_sub_of_mem (unary_writes ..) (by decide), writes_sub_of_mem (ternary_writes ..) (by decide), writes_sub_of_mem (nullary_writes ..) (by decide),
    writes_sub_of_mem (unary_writes ..) (by decide), writes_sub_of_mem (nullary_writes ..) (by decide), writes_sub_of_mem (unary_writes ..) (by decide),
    writes_sub_of_mem (unary_writes ..) (by decide), writes_sub_of_mem (ternary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (unary_writes ..) (by decide), writes_sub_of_mem (ternary_writes ..) (by decide),
    writes_sub_of_mem (unary_writes ..) (by decide), writes_sub_of_mem (unary_writes ..) (by decide), writes_sub_of_mem (binary_writes ..) (by decide),
    writes_sub_of_mem (binary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (unary_writes ..) (by decide), writes_sub_of_mem (ternary_writes ..) (by decide),
    writes_sub_of_mem (unary_writes ..) (by decide), writes_sub_of_mem (nullary_writes ..) (by decide), writes_sub_of_mem (unary_writes ..) (by decide),
    writes_sub_of_mem (binary_writes ..) (by decide), writes_sub_of_mem (ternary_writes ..) (by decide), writes_sub_of_mem (binary_writes ..) (by decide),
    writes_sub_of_mem (nullary_writes ..) (by decide), writes_sub_of_mem (unary_writes ..) (by decide), writes_sub_of_mem (binary_writes ..) (by decide),
    writes_sub_of_mem (nullary_writes ..) (by decide), writes_sub_of_mem (unary_writes ..) (by decide), writes_sub_of_mem (binary_writes ..) (by decide),
    writes_sub_of_mem (nullary_writes ..) (by decide), writes_sub_of_mem (unary_writes ..) (by decide), writes_sub_of_mem (unary_writes ..) (by decide),
    writes_sub_of_mem (ternary_writes ..) (by decide), writes_sub_of_mem (unary_writes ..) (by decide), writes_sub_of_mem (nullary_writes ..) (by decide),
    writes_sub_of_mem (unary_writes ..) (by decide), writes_sub_of_mem (binary_writes ..) (by decide), writes_sub_of_mem (ternary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (nullary_writes ..) (by decide), writes_sub_of_mem (unary_writes ..) (by decide),
    writes_sub_of_mem (unary_writes ..) (by decide), writes_sub_of_mem (ternary_writes ..) (by decide), writes_sub_of_mem (unary_writes ..) (by decide),
    writes_sub_of_mem (nullary_writes ..) (by decide), writes_sub_of_mem (unary_writes ..) (by decide), writes_sub_of_mem (binary_writes ..) (by decide),
    writes_sub_of_mem (ternary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (unary_writes ..) (by decide), writes_sub_of_mem (unary_writes ..) (by decide), writes_sub_of_mem (ternary_writes ..) (by decide),
    writes_sub_of_mem (unary_writes ..) (by decide), writes_sub_of_mem (nullary_writes ..) (by decide), writes_sub_of_mem (unary_writes ..) (by decide),
    writes_sub_of_mem (binary_writes ..) (by decide), writes_sub_of_mem (ternary_writes ..) (by decide), writes_sub_of_mem (unary_writes ..) (by decide),
    writes_sub_of_mem (unary_writes ..) (by decide), writes_sub_of_mem (unary_writes ..) (by decide), writes_sub_of_mem (unary_writes ..) (by decide),
    writes_sub_of_mem (unary_writes ..) (by decide), writes_sub_of_mem (nary_writes ..) (by decide)⟩

/-- A buffer outside the written ones keeps its contents through the line. -/
theorem arg_frame (V : Valuation τ sig (Elt F)) {r : Ref sig .tc} (hr : r ∉ written) :
    after ops V (Proc.devRef .tc r) = V (Proc.devRef .tc r) :=
  after_of_writes_sub ops V ops_writes hr

/-- Every operation determines its results: none leaves a buffer at contents not chosen. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

set_option maxRecDepth 65536 in
set_option maxHeartbeats 40000000 in
/-- On every device, for any float values, from any memory with zero counters: every weakly fair execution of the
    reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
          = Term.out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v75).trans (out_eq _),
      (h c main_arg0).trans (arg_frame _ (by decide)),
      (h c main_arg1).trans (arg_frame _ (by decide)),
      (h c main_arg2).trans (arg_frame _ (by decide)),
      (h c main_arg3).trans (arg_frame _ (by decide)),
      (h c main_arg4).trans (arg_frame _ (by decide)),
      (h c main_arg5).trans (arg_frame _ (by decide)),
      (h c main_arg6).trans (arg_frame _ (by decide)),
      (h c main_arg7).trans (arg_frame _ (by decide)),
      (h c main_arg8).trans (arg_frame _ (by decide)),
      (h c main_arg9).trans (arg_frame _ (by decide)),
      (h c main_arg10).trans (arg_frame _ (by decide)),
      (h c main_arg11).trans (arg_frame _ (by decide)),
      (h c main_arg12).trans (arg_frame _ (by decide)),
      (h c main_arg13).trans (arg_frame _ (by decide)),
      (h c main_arg14).trans (arg_frame _ (by decide)),
      (h c main_arg15).trans (arg_frame _ (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/-
  The certificate: a graph message-passing layer — three dense embeddings with ELU, two degree-normalised neighbour means,
  their projections, and five stacked views — computed by four tiled kernels with host gathers and scatter-adds between
  them, against the same layer written with whole-array operations.

  On the extended reals the two programs compute one function of the arguments (`Cert.Bridge.result`): rounding to a
  narrower float format is the identity, a product tiled by row blocks is the whole product's rows, `e^y - 1` is
  `expm1 y`, and the neighbour means are the same host operations on equal arrays. No law used needs finiteness, so the
  precondition is never opened. The three frames are the programs' runs with the results dropped; the idealization
  rewrote nothing, so its conjunct is trivial.
-/
import proofs.«129680_j37512244363667_1_alg».proof.Defs
import proofs.«129680_j37512244363667_1_alg».proof.Proof.Gen.Kernel
import proofs.«129680_j37512244363667_1_alg».proof.Proof.Gen.Kernel.Frame
import proofs.«129680_j37512244363667_1_alg».proof.Proof.Gen.KernelIdeal
import proofs.«129680_j37512244363667_1_alg».proof.Proof.Gen.KernelIdeal.Frame
import proofs.«129680_j37512244363667_1_alg».proof.Proof.Gen.ReferenceIdeal
import proofs.«129680_j37512244363667_1_alg».proof.Proof.Gen.Pre_finite_inputs
import proofs.«129680_j37512244363667_1_alg».proof.Proof.KernelRun
import proofs.«129680_j37512244363667_1_alg».proof.Proof.Bridge
import proofs.«129680_j37512244363667_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both idealized programs end with the result array at `result` of the
    arguments, entry by entry on the extended reals. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.Bridge.kernel_value m ρ c), (h c).2⟩)
      (Cert.KernelIdeal.KernelRun.run_value (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]
    exact Cert.Bridge.ref_value _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
